-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x1600000 : Shape := ⟨2, ![2, 1600000]⟩
abbrev S1600000x4 : Shape := ⟨2, ![1600000, 4]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg13
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x3 .f32) (main_arg14 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x9 .f32) (main_arg1 : FVec F S50000x9 .f32) (main_arg2 : IVec S2x1600000 32) (main_arg3 : FVec F S1600000x4 .f32) (main_arg4 : IVec S50000 32) (main_arg5 : FVec F S16x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S50000x9 .f32 := Host.absf main_arg1
  let main_cst_0 : FVec F S_ .f32 := constant S_ .f32 0x7F800000#32
  let main_v5 : FVec F S50000x9 .f32 := broadcastInDim S50000x9 ![] bcast_S_S50000x9 main_cst_0
  let main_v6 : IVec S50000x9 1 := cmpf .olt main_v4 main_v5
  let main_c_1 : IVec S_ 1 := constantI S_ 1 1#1
  let main_v7 : IVec S_ 1 := (fun x v => Host.reduce IntOp.andi x v reducesTo_S50000x9_S_d0_1 h_S_) main_v6 main_c_1
  let main_v8 : IVec S_ 1 := andi main_v3 main_v7
  let main_v9 : FVec F S1600000x4 .f32 := Host.absf main_arg3
  let main_cst_2 : FVec F S_ .f32 := constant S_ .f32 0x7F800000#32
  let main_v10 : FVec F S1600000x4 .f32 := broadcastInDim S1600000x4 ![] bcast_S_S1600000x4 main_cst_2
  let main_v11 : IVec S1600000x4 1 := cmpf .olt main_v9 main_v10
  let main_c_3 : IVec S_ 1 := constantI S_ 1 1#1
  let main_v12 : IVec S_ 1 := (fun x v => Host.reduce IntOp.andi x v reducesTo_S1600000x4_S_d0_1 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_arg11 main_arg12 main_arg13 main_arg14 main_v13 main_v16
-- ==== Kernel.lean ====
abbrev S50000x9 : Shape := ⟨2, ![50000, 9]⟩
abbrev S2x1600000 : Shape := ⟨2, ![2, 1600000]⟩
abbrev S1600000x4 : Shape := ⟨2, ![1600000, 4]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S50000x1 : Shape := ⟨2, ![50000, 1]⟩
abbrev S1x128 : Shape := ⟨2, ![1, 128]⟩
abbrev S50000x128 : Shape := ⟨2, ![50000, 128]⟩
abbrev S5000x9 : Shape := ⟨2, ![5000, 9]⟩
abbrev S5000x128 : Shape := ⟨2, ![5000, 128]⟩
abbrev S5000x8 : Shape := ⟨2, ![5000, 8]⟩
abbrev S8x128 : Shape := ⟨2, ![8, 128]⟩
abbrev S1600000x128 : Shape := ⟨2, ![1600000, 128]⟩
abbrev S5000x1 : Shape := ⟨2, ![5000, 1]⟩
abbrev S1x3 : Shape := ⟨2, ![1, 3]⟩
abbrev S50000x3 : Shape := ⟨2, ![50000, 3]⟩
abbrev S5000x3 : Shape := ⟨2, ![5000, 3]⟩

abbrev nBuf : Space → Nat
  | .hbm => 144
  | .vmem => 74
  | .smem => 0
  | _ => 0

abbrev hbmTy0_0 (i : Nat) : BufTy := match i % 128 with
  | 0 => ⟨S50000x9, .f32⟩
  | 1 => ⟨S50000x9, .f32⟩
  | 2 => ⟨S2x1600000, .i32⟩
  | 3 => ⟨S1600000x4, .f32⟩
  | 4 => ⟨S50000, .i32⟩
  | 5 => ⟨S16x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S1600000x1, .f32⟩
  | 20 => ⟨S1600000, .f32⟩
  | 21 => ⟨S1600000, .f32⟩
  | 22 => ⟨S_, .f32⟩
  | 23 => ⟨S1600000, .f32⟩
  | 24 => ⟨S1600000, .f32⟩
  | 25 => ⟨S_, .f32⟩
  | 26 => ⟨S50000, .f32⟩
  | 27 => ⟨S1600000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S50000, .f32⟩
  | 61 => ⟨S50000x1, .f32⟩
  | 62 => ⟨S1x128, .f32⟩
  | 63 => ⟨S1x128, .f32⟩
  | 64 => ⟨S50000x128, .f32⟩
  | 65 => ⟨S50000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S50000x128, .f32⟩
  | 80 => ⟨S1600000x1, .i32⟩
  | 81 => ⟨S50000x128, .f32⟩
  | 82 => ⟨S1x128, .f32⟩
  | 83 => ⟨S50000x128, .f32⟩
  | 84 => ⟨S50000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x1, .f32⟩
  | 95 => ⟨S1600000x128, .f32⟩
  | 96 => ⟨S1600000x128, .f32⟩
  | 97 => ⟨S_, .f32⟩
  | 98 => ⟨S50000x128, .f32⟩
  | 99 => ⟨S1600000x1, .i32⟩
  | 100 => ⟨S50000x128, .f32⟩
  | 101 => ⟨S1x128, .f32⟩
  | 102 => ⟨S50000x128, .f32⟩
  | 103 => ⟨S50000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x1, .f32⟩
  | 114 => ⟨S1600000x128, .f32⟩
  | 115 => ⟨S1600000x128, .f32⟩
  | 116 => ⟨S_, .f32⟩
  | 117 => ⟨S50000x128, .f32⟩
  | 118 => ⟨S1600000x1, .i32⟩
  | 119 => ⟨S50000x128, .f32⟩
  | 120 => ⟨S1x128, .f32⟩
  | 121 => ⟨S50000x128, .f32⟩
  | 122 => ⟨S50000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x9, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .f32⟩
  | 8 => ⟨S50000x128, .f32⟩
  | 9 => ⟨S1600000x1, .i32⟩
  | 10 => ⟨S50000x128, .f32⟩
  | 11 => ⟨S1x128, .f32⟩
  | 12 => ⟨S50000x128, .f32⟩
  | 13 => ⟨S1x128, .f32⟩
  | 14 => ⟨S1x3, .f32⟩
  | 15 => ⟨S50000x3, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S16x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x1, .f32⟩
  | .local _ .vmem, ⟨62, _⟩ => ⟨S5000x1, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S128x3, .f32⟩
  | .local _ .vmem, ⟨71, _⟩ => ⟨S1x3, .f32⟩
  | .local _ .vmem, ⟨72, _⟩ => ⟨S5000x3, .f32⟩
  | .local _ .vmem, ⟨73, _⟩ => ⟨S5000x3, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_c_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_16 : Ref sig .tc := ⟨.hbm, 123, rfl⟩
abbrev main_v88 : Ref sig .tc := ⟨.hbm, 124, rfl⟩
abbrev main_v89 : Ref sig .tc := ⟨.hbm, 125, rfl⟩
abbrev main_c_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg4_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg5_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem2_1 : DmaSem sig := 62
abbrev cc8_sem3_0 : DmaSem sig := 63
abbrev cc8_sem4_0 : DmaSem sig := 64
abbrev cc8_sem4_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem5_1 : DmaSem sig := 73

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x3 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x3 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x3 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1600000x4_S1600000x1_0_3 : S1600000x4.Slices ![0, 3] S1600000x1
  shapeCasts_S1600000x1_S1600000 : S1600000x1.ShapeCasts S1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S128_S1x128 : S128.ShapeCasts S1x128
  inb_S5000x9_S5000x8_0_0 : ∀ a, (![0, 0] : Fin 2 → Nat) a + S5000x8.size a ≤ S5000x9.size a
  h_S5000x8 : 0 < S5000x8.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  slices_S16x128_o0_0_S8x128 : S16x128.Slices ![0, 0] S8x128
  slices_S16x128_o8_0_S8x128 : S16x128.Slices ![8, 0] S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x8_S8x128_S5000x128_1_0_0_1_n_n_wf : DotDims.WF S5000x8 S8x128 S5000x128 [1] [0] [0] [1] [] []
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S50000x9.size a
  hwx0_0 : ∀ i : grid0.Coords, EltTy.bits .f32 = 32 ∨ (Rect.block (s := S50000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S50000x9.size a
  hwx0_1 : ∀ i : grid0.Coords, EltTy.bits .f32 = 32 ∨ (Rect.block (s := S50000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x3.size a ≤ S128x3.size a
  hwx9_3 : ∀ i : grid9.Coords, EltTy.bits .f32 = 32 ∨ (Rect.block (s := S128x3) S128x3.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x3.size a ≤ S1x3.size a
  hwx9_4 : ∀ i : grid9.Coords, EltTy.bits .f32 = 32 ∨ (Rect.block (s := S1x3) S1x3.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x3.size a ≤ S50000x3.size a
  hwx9_5 : ∀ i : grid9.Coords, EltTy.bits .f32 = 32 ∨ (Rect.block (s := S50000x3) S5000x3.size (cc9_transform_5 i) (hinb9_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v85) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v86) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v100) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v87) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v35) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v101) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v102) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v102) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v103) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg13) S128x3.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v104) S1x3.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v105) S5000x3.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x1600000 : Shape := ⟨2, ![2, 1600000]⟩
abbrev S1600000x4 : Shape := ⟨2, ![1600000, 4]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S50000x8 : Shape := ⟨2, ![50000, 8]⟩
abbrev S50000x16 : Shape := ⟨2, ![50000, 16]⟩
abbrev S50000x128 : Shape := ⟨2, ![50000, 128]⟩
abbrev S1x128 : Shape := ⟨2, ![1, 128]⟩
abbrev S1600000x128 : Shape := ⟨2, ![1600000, 128]⟩
abbrev S50000x1 : Shape := ⟨2, ![50000, 1]⟩
abbrev S50000x3 : Shape := ⟨2, ![50000, 3]⟩
abbrev S1x3 : Shape := ⟨2, ![1, 3]⟩

abbrev nBuf : Space → Nat
  | .hbm => 302
  | .vmem => 0
  | .smem => 0
  | _ => 0

abbrev hbmTy0_0 (i : Nat) : BufTy := match i % 128 with
  | 0 => ⟨S50000x9, .f32⟩
  | 1 => ⟨S50000x9, .f32⟩
  | 2 => ⟨S2x1600000, .i32⟩
  | 3 => ⟨S1600000x4, .f32⟩
  | 4 => ⟨S50000, .i32⟩
  | 5 => ⟨S16x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S1600000x1, .f32⟩
  | 20 => ⟨S1600000, .f32⟩
  | 21 => ⟨S1600000, .f32⟩
  | 22 => ⟨S_, .f32⟩
  | 23 => ⟨S1600000, .f32⟩
  | 24 => ⟨S1600000, .f32⟩
  | 25 => ⟨S50000x8, .f32⟩
  | 26 => ⟨S50000x8, .f32⟩
  | 27 => ⟨S50000x16, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S50000, .f32⟩
  | 42 => ⟨S1600000x1, .i32⟩
  | 43 => ⟨S50000, .f32⟩
  | 44 => ⟨S_, .f32⟩
  | 45 => ⟨S50000, .f32⟩
  | 46 => ⟨S50000, .f32⟩
  | 47 => ⟨S_, .f32⟩
  | 48 => ⟨S50000, .f32⟩
  | 49 => ⟨S50000, .i1⟩
  | 50 => ⟨S50000, .f32⟩
  | 51 => ⟨S_, .f32⟩
  | 52 => ⟨S_, .f32⟩
  | 53 => ⟨S50000, .f32⟩
  | 54 => ⟨S50000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S1600000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x128, .f32⟩
  | 86 => ⟨S1600000x128, .f32⟩
  | 87 => ⟨S_, .f32⟩
  | 88 => ⟨S50000x128, .f32⟩
  | 89 => ⟨S1600000x1, .i32⟩
  | 90 => ⟨S50000x128, .f32⟩
  | 91 => ⟨S50000, .f32⟩
  | 92 => ⟨S50000x1, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000, .f32⟩
  | 105 => ⟨S1600000x1, .i32⟩
  | 106 => ⟨S50000, .f32⟩
  | 107 => ⟨S_, .f32⟩
  | 108 => ⟨S50000, .f32⟩
  | 109 => ⟨S50000, .f32⟩
  | 110 => ⟨S_, .f32⟩
  | 111 => ⟨S50000, .f32⟩
  | 112 => ⟨S50000, .i1⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S1600000, .f32⟩
  | _ => ⟨S50000x9, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x128, .f32⟩
  | 21 => ⟨S1600000x128, .f32⟩
  | 22 => ⟨S_, .f32⟩
  | 23 => ⟨S50000x128, .f32⟩
  | 24 => ⟨S1600000x1, .i32⟩
  | 25 => ⟨S50000x128, .f32⟩
  | 26 => ⟨S50000, .f32⟩
  | 27 => ⟨S50000x1, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S_, .f32⟩
  | 39 => ⟨S50000, .f32⟩
  | 40 => ⟨S1600000x1, .i32⟩
  | 41 => ⟨S50000, .f32⟩
  | 42 => ⟨S_, .f32⟩
  | 43 => ⟨S50000, .f32⟩
  | 44 => ⟨S50000, .f32⟩
  | 45 => ⟨S_, .f32⟩
  | 46 => ⟨S50000, .f32⟩
  | 47 => ⟨S50000, .i1⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x128, .f32⟩
  | 84 => ⟨S1600000x128, .f32⟩
  | 85 => ⟨S_, .f32⟩
  | 86 => ⟨S50000x128, .f32⟩
  | 87 => ⟨S1600000x1, .i32⟩
  | 88 => ⟨S50000x128, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000, .f32⟩
  | 103 => ⟨S1600000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S1600000, .f32⟩
  | 126 => ⟨S_, .i32⟩
  | 127 => ⟨S1600000, .i32⟩
  | _ => ⟨S50000x9, .f32⟩

abbrev hbmTy0_2 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x128, .f32⟩
  | 19 => ⟨S1600000x128, .f32⟩
  | 20 => ⟨S_, .f32⟩
  | 21 => ⟨S50000x128, .f32⟩
  | 22 => ⟨S1600000x1, .i32⟩
  | 23 => ⟨S50000x128, .f32⟩
  | 24 => ⟨S50000, .f32⟩
  | 25 => ⟨S50000x1, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x3, .f32⟩
  | 43 => ⟨S1x3, .f32⟩
  | 44 => ⟨S50000x3, .f32⟩
  | 45 => ⟨S50000x3, .f32⟩
  | _ => ⟨S50000x9, .f32⟩

abbrev hbmTy (i : Nat) : BufTy := match i / 128 with
  | 0 => hbmTy0_0 i
  | 1 => hbmTy0_1 i
  | 2 => hbmTy0_2 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v30 : Ref sig .tc := ⟨.hbm, 54, rfl⟩
abbrev main_c : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_call3_v0 : Ref sig .tc := ⟨.hbm, 115, rfl⟩
abbrev main_call3_v1 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_c_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_c_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_18 : Ref sig .tc := ⟨.hbm, 139, rfl⟩
abbrev main_v96 : Ref sig .tc := ⟨.hbm, 140, rfl⟩
abbrev main_v97 : Ref sig .tc := ⟨.hbm, 141, rfl⟩
abbrev main_c_19 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call4_cst : Ref sig .tc := ⟨.hbm, 162, rfl⟩
abbrev main_call4_v0 : Ref sig .tc := ⟨.hbm, 163, rfl⟩
abbrev main_v116 : Ref sig .tc := ⟨.hbm, 164, rfl⟩
abbrev main_v117 : Ref sig .tc := ⟨.hbm, 165, rfl⟩
abbrev main_cst_21 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_22 : Ref sig .tc := ⟨.hbm, 170, rfl⟩
abbrev main_v121 : Ref sig .tc := ⟨.hbm, 171, rfl⟩
abbrev main_v122 : Ref sig .tc := ⟨.hbm, 172, rfl⟩
abbrev main_cst_23 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_24 : Ref sig .tc := ⟨.hbm, 177, rfl⟩
abbrev main_call5_v0 : Ref sig .tc := ⟨.hbm, 178, rfl⟩
abbrev main_call5_v1 : Ref sig .tc := ⟨.hbm, 179, rfl⟩
abbrev main_v126 : Ref sig .tc := ⟨.hbm, 180, rfl⟩
abbrev main_c_25 : Ref sig .tc := ⟨.hbm, 181, rfl⟩
abbrev main_v127 : Ref sig .tc := ⟨.hbm, 182, rfl⟩
abbrev main_v128 : Ref sig .tc := ⟨.hbm, 183, rfl⟩
abbrev main_c_26 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_27 : Ref sig .tc := ⟨.hbm, 191, rfl⟩
abbrev main_v135 : Ref sig .tc := ⟨.hbm, 192, rfl⟩
abbrev main_v136 : Ref sig .tc := ⟨.hbm, 193, rfl⟩
abbrev main_c_28 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_c_29 : Ref sig .tc := ⟨.hbm, 202, rfl⟩
abbrev main_v144 : Ref sig .tc := ⟨.hbm, 203, rfl⟩
abbrev main_v145 : Ref sig .tc := ⟨.hbm, 204, rfl⟩
abbrev main_c_30 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_31 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_call6_cst : Ref sig .tc := ⟨.hbm, 225, rfl⟩
abbrev main_call6_v0 : Ref sig .tc := ⟨.hbm, 226, rfl⟩
abbrev main_v164 : Ref sig .tc := ⟨.hbm, 227, rfl⟩
abbrev main_v165 : Ref sig .tc := ⟨.hbm, 228, rfl⟩
abbrev main_cst_32 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_33 : Ref sig .tc := ⟨.hbm, 233, rfl⟩
abbrev main_v169 : Ref sig .tc := ⟨.hbm, 234, rfl⟩
abbrev main_v170 : Ref sig .tc := ⟨.hbm, 235, rfl⟩
abbrev main_cst_34 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_cst_35 : Ref sig .tc := ⟨.hbm, 240, rfl⟩
abbrev main_call7_v0 : Ref sig .tc := ⟨.hbm, 241, rfl⟩
abbrev main_call7_v1 : Ref sig .tc := ⟨.hbm, 242, rfl⟩
abbrev main_v174 : Ref sig .tc := ⟨.hbm, 243, rfl⟩
abbrev main_c_36 : Ref sig .tc := ⟨.hbm, 244, rfl⟩
abbrev main_v175 : Ref sig .tc := ⟨.hbm, 245, rfl⟩
abbrev main_v176 : Ref sig .tc := ⟨.hbm, 246, rfl⟩
abbrev main_c_37 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_38 : Ref sig .tc := ⟨.hbm, 254, rfl⟩
abbrev main_v183 : Ref sig .tc := ⟨.hbm, 255, rfl⟩
abbrev main_v184 : Ref sig .tc := ⟨.hbm, 256, rfl⟩
abbrev main_c_39 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_c_40 : Ref sig .tc := ⟨.hbm, 265, rfl⟩
abbrev main_v192 : Ref sig .tc := ⟨.hbm, 266, rfl⟩
abbrev main_v193 : Ref sig .tc := ⟨.hbm, 267, rfl⟩
abbrev main_c_41 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_42 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_call8_cst : Ref sig .tc := ⟨.hbm, 288, rfl⟩
abbrev main_call8_v0 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_call9_cst : Ref sig .tc := ⟨.hbm, 295, rfl⟩
abbrev main_call9_v0 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1600000x4_S1600000x1_0_3 : S1600000x4.Slices ![0, 3] S1600000x1
  shapeCasts_S1600000x1_S1600000 : S1600000x1.ShapeCasts S1600000
  bcast_S_S1600000 : S_.BroadcastsInDim S1600000 (![] : Fin 0 → Fin S1600000.rank)
  slices_S50000x9_S50000x8_0_0 : S50000x9.Slices ![0, 0] S50000x8
  concatenates_S50000x8_S50000x8_S50000x16_d1 : Shape.Concatenates [S50000x8, S50000x8] S50000x16 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x16_S16x128_S50000x128_1_0_0_1_n_n_wf : DotDims.WF S50000x16 S16x128 S50000x128 [1] [0] [0] [1] [] []
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x3_S50000x3_1_0_0_1_n_n_wf : DotDims.WF S50000x128 S128x3 S50000x3 [1] [0] [0] [1] [] []

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KRun.lean ====
/-
  The kernel program's run, with the result array named.  Every weakly fair execution of the program from a
  memory with zero counters terminates without a fault, and in its final state every buffer that outlives the
  kernels holds what the last segment boundary gives it: the result array is read there, and each argument
  array is what it was at launch.  The segments, their chaining and the launch are those of the frame; only
  the reading of the final state keeps one more buffer.
-/
import proofs.«150699_j61246233641684_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result array at the last boundary's contents and the arguments as launched. -/
theorem run_out : θ_run defs (onTc (τ := τ) (main (F := F))) ⟨m, fun _ => 0, ρ⟩ (fun r => ∀ c : Dev nD,
      r.2.mem ((c.tc : Thread nD τ).loc main_v105) = W18 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v105 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.RunValue

end
-- ==== Proof.Spec.lean ====
/-
  The graph network both programs compute, written once, layer by layer, as whole-array functions of the
  argument arrays.  Nodes 0..49999 carry 128 features; the 1 600 000 edges (row -> col) carry the weight
  ew = 1 / a^2, a the fourth edge attribute.  With deg = 1 + (sum of ew over the edges into a node),
  dis = deg^(-1/2) where deg > 0 and 0 elsewhere, and norm = dis[row] * ew * dis[col]:

    encoder   h0 = relu([x_0..7 | mask_0..7] * W1 + b1) * W2 + b2
    one hop   h |-> relu( sum over the edges into the node of norm * (h*W)[row]  +  dis^2 * (h*W)  +  b )
    decoder   out = relu(h * W1 + b1) * W2 + b2

  The edge-indexed parts (the sums over incoming edges, the reads at an edge's endpoints) are kept as the
  host operations that state them: both programs apply the very same ones, so they are never opened.
-/
import proofs.«150699_j61246233641684_1_alg».proof.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Gnn

open Idealize.ShloMosaic Cert.ReferenceIdeal

variable {F : FTy → Type} [FloatOps F]

-- the shape relations the reference program states (slices, broadcasts, the dimension records' side conditions):
-- propositions, so any two witnesses of them are equal
variable [Cert.ReferenceIdeal.Facts₀]
open Cert.ReferenceIdeal.Facts₀

/-- An array of the given shape and element type, as the host operations take it. -/
abbrev Arr (F : FTy → Type) (s : Shape) (e : EltTy) := (⟨s, e⟩ : BufTy).Contents (Elt F)

/-! ## The graph's structure: endpoints, weights, normalisation -/

/-- The edges' source nodes: row 0 of the edge list. -/
def rowOf (ei : Arr F S2x1600000 .i32) : Arr F S1600000 .i32 :=
  shapeCast _ (extractStridedSlice S1x1600000 ![0, 0] ei slices_S2x1600000_S1x1600000_0_0) shapeCasts_S1x1600000_S1600000

/-- The edges' target nodes: row 1 of the edge list. -/
def colOf (ei : Arr F S2x1600000 .i32) : Arr F S1600000 .i32 :=
  shapeCast _ (extractStridedSlice S1x1600000 ![1, 0] ei slices_S2x1600000_S1x1600000_1_0) shapeCasts_S1x1600000_S1600000

/-- A node number read as an index: a negative one counts from the end. -/
def wrapIdx (v : Arr F S1600000 .i32) : Arr F S1600000 .i32 :=
  select (cmpi .slt v (broadcastInDim S1600000 ![] bcast_S_S1600000 (constantI S_ 32 0#32)))
    (addi v (broadcastInDim S1600000 ![] bcast_S_S1600000 (constantI S_ 32 50000#32))) v

/-- The fourth edge attribute. -/
def attrOf (ea : Arr F S1600000x4 .f32) : Arr F S1600000 .f32 :=
  shapeCast _ (extractStridedSlice S1600000x1 ![0, 3] ea slices_S1600000x4_S1600000x1_0_3) shapeCasts_S1600000x1_S1600000

/-- The edge weights, one over the squared attribute. -/
def ewOf (ea : Arr F S1600000x4 .f32) : Arr F S1600000 .f32 :=
  Host.divf (broadcastInDim S1600000 ![] bcast_S_S1600000 (constant S_ .f32 0x3F800000#32)) (mulf (attrOf ea) (attrOf ea))

/-- The weighted in-degree plus the self loop's 1, from the target nodes and the weights. -/
def degAt (col : Arr F S1600000 .i32) (ew : Arr F S1600000 .f32) : Arr F S50000 .f32 :=
  addf (Host.scatterAdd scatter_S50000_S1600000x1_S1600000_n_0_0_1
      (broadcastInDim S50000 ![] bcast_S_S50000 (constant S_ .f32 0x00000000#32))
      (broadcastInDim S1600000x1 ![0] bcast_S1600000_S1600000x1_0 col) ew)
    (broadcastInDim S50000 ![] bcast_S_S50000 (constant S_ .f32 0x3F800000#32))

/-- The inverse square root of a degree where it is positive, zero elsewhere. -/
def disAt (deg : Arr F S50000 .f32) : Arr F S50000 .f32 :=
  select (cmpf .ogt deg (broadcastInDim S50000 ![] bcast_S_S50000 (constant S_ .f32 0x00000000#32)))
    (Host.rsqrt deg)
    (broadcastInDim S50000 ![] bcast_S_S50000 (id (constant S_ .f32 0x00000000#32)))

/-- The symmetric normalisation of an edge: dis[row] * ew * dis[col]. -/
def normAt (row col : Arr F S1600000 .i32) (ew : Arr F S1600000 .f32) (dis : Arr F S50000 .f32) : Arr F S1600000 .f32 :=
  mulf (mulf (Host.gather gather_S50000_S1600000x1_S1600000_n_0_n_n_0_1_1 dis
        (broadcastInDim S1600000x1 ![0] bcast_S1600000_S1600000x1_0 (wrapIdx row))) ew)
    (Host.gather gather_S50000_S1600000x1_S1600000_n_0_n_n_0_1_1 dis
        (broadcastInDim S1600000x1 ![0] bcast_S1600000_S1600000x1_0 (wrapIdx col)))

/-- The messages summed over the edges into each node: the sum of norm * hl[row]. -/
def aggAt (row col : Arr F S1600000 .i32) (norm : Arr F S1600000 .f32) (hl : Arr F S50000x128 .f32) : Arr F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 col)
    (mulf (broadcastInDim S1600000x128 ![0, 1] bcast_S1600000x1_S1600000x128_0_1
            (broadcastInDim S1600000x1 ![0] bcast_S1600000_S1600000x1_0 norm))
          (Host.gather gather_S50000x128_S1600000x1_S1600000x128_1_0_n_n_0_1_1128 hl
            (broadcastInDim S1600000x1 ![0] bcast_S1600000_S1600000x1_0 (wrapIdx row))))

/-- The degree, from the edge list and the attributes. -/
def degOf (ei : Arr F S2x1600000 .i32) (ea : Arr F S1600000x4 .f32) : Arr F S50000 .f32 := degAt (colOf ei) (ewOf ea)

/-- The inverse square root of the degree, from the edge list and the attributes. -/
def disOf (ei : Arr F S2x1600000 .i32) (ea : Arr F S1600000x4 .f32) : Arr F S50000 .f32 := disAt (degOf ei ea)

/-- The edges' normalisation, from the edge list and the attributes. -/
def normOf (ei : Arr F S2x1600000 .i32) (ea : Arr F S1600000x4 .f32) : Arr F S1600000 .f32 :=
  normAt (rowOf ei) (colOf ei) (ewOf ea) (disOf ei ea)

/-- The self loop's coefficient, dis squared. -/
def dsqOf (ei : Arr F S2x1600000 .i32) (ea : Arr F S1600000x4 .f32) : Arr F S50000 .f32 :=
  mulf (disOf ei ea) (disOf ei ea)

/-- The summed messages, from the edge list and the attributes. -/
def aggOf (ei : Arr F S2x1600000 .i32) (ea : Arr F S1600000x4 .f32) (hl : Arr F S50000x128 .f32) : Arr F S50000x128 .f32 :=
  aggAt (rowOf ei) (colOf ei) (normOf ei ea) hl

/-! ## The dense layers -/

/-- Node features times a square weight matrix. -/
def linOf (h : Arr F S50000x128 .f32) (W : Arr F S128x128 .f32) : Arr F S50000x128 .f32 :=
  Host.dotGeneral dot_S50000x128_S128x128_S50000x128_1_0_0_1_n_n none h W

/-- A bias vector repeated along the rows. -/
def biasOf (b : Arr F S128 .f32) : Arr F S50000x128 .f32 :=
  broadcastInDim S50000x128 ![0, 1] bcast_S1x128_S50000x128_0_1 (broadcastInDim S1x128 ![1] bcast_S128_S1x128_1 b)

/-- The maximum with zero. -/
def reluOf (x : Arr F S50000x128 .f32) : Arr F S50000x128 .f32 :=
  maximumf x (broadcastInDim S50000x128 ![] bcast_S_S50000x128 (constant S_ .f32 0x00000000#32))

/-- The first eight feature columns beside the first eight mask columns. -/
def featOf (x xm : Arr F S50000x9 .f32) : Arr F S50000x16 .f32 :=
  concatenate S50000x16 1 [⟨S50000x8, extractStridedSlice S50000x8 ![0, 0] x slices_S50000x9_S50000x8_0_0⟩,
    ⟨S50000x8, extractStridedSlice S50000x8 ![0, 0] xm slices_S50000x9_S50000x8_0_0⟩] concatenates_S50000x8_S50000x8_S50000x16_d1

/-- The encoder's hidden layer before its second product. -/
def encHidOf (x xm : Arr F S50000x9 .f32) (W1 : Arr F S16x128 .f32) (b1 : Arr F S128 .f32) : Arr F S50000x128 .f32 :=
  reluOf (addf (Host.dotGeneral dot_S50000x16_S16x128_S50000x128_1_0_0_1_n_n none (featOf x xm) W1) (biasOf b1))

/-- The encoder. -/
def encOf (x xm : Arr F S50000x9 .f32) (W1 : Arr F S16x128 .f32) (b1 : Arr F S128 .f32) (W2 : Arr F S128x128 .f32)
    (b2 : Arr F S128 .f32) : Arr F S50000x128 .f32 :=
  addf (linOf (encHidOf x xm W1 b1) W2) (biasOf b2)

/-- One hop of message passing. -/
def hopOf (ei : Arr F S2x1600000 .i32) (ea : Arr F S1600000x4 .f32) (Wg : Arr F S128x128 .f32) (bg : Arr F S128 .f32)
    (h : Arr F S50000x128 .f32) : Arr F S50000x128 .f32 :=
  reluOf (addf (addf (aggOf ei ea (linOf h Wg))
      (mulf (broadcastInDim S50000x128 ![0, 1] bcast_S50000x1_S50000x128_0_1
              (broadcastInDim S50000x1 ![0] bcast_S50000_S50000x1_0 (dsqOf ei ea))) (linOf h Wg)))
    (biasOf bg))

/-- The decoder. -/
def decOf (h : Arr F S50000x128 .f32) (W1 : Arr F S128x128 .f32) (b1 : Arr F S128 .f32) (W2 : Arr F S128x3 .f32)
    (b2 : Arr F S3 .f32) : Arr F S50000x3 .f32 :=
  addf (Host.dotGeneral dot_S50000x128_S128x3_S50000x3_1_0_0_1_n_n none (reluOf (addf (linOf h W1) (biasOf b1))) W2)
    (broadcastInDim S50000x3 ![0, 1] bcast_S1x3_S50000x3_0_1 (broadcastInDim S1x3 ![1] bcast_S3_S1x3_1 b2))

/-- The whole network. -/
def netOf (x xm : Arr F S50000x9 .f32) (ei : Arr F S2x1600000 .i32) (ea : Arr F S1600000x4 .f32)
    (W1 : Arr F S16x128 .f32) (b1 : Arr F S128 .f32) (W2 : Arr F S128x128 .f32) (b2 : Arr F S128 .f32)
    (Wg : Arr F S128x128 .f32) (bg : Arr F S128 .f32)
    (Wd1 : Arr F S128x128 .f32) (bd1 : Arr F S128 .f32) (Wd2 : Arr F S128x3 .f32) (bd2 : Arr F S3 .f32) : Arr F S50000x3 .f32 :=
  decOf (hopOf ei ea Wg bg (hopOf ei ea Wg bg (hopOf ei ea Wg bg (hopOf ei ea Wg bg (encOf x xm W1 b1 W2 b2))))) Wd1 bd1 Wd2 bd2

end Cert.Gnn

end
-- ==== Proof.Keep.lean ====
/-
  Buffers the program leaves alone.  Each segment of the kernel program writes only its own results: a stretch of
  host operations writes the values it computes, a kernel region writes its output array (an input array is read
  through its window and left as it was).  A buffer that is none of a segment's results holds after the segment what
  it held before it; the chains below walk such a buffer back through the segments that lie between the point where
  it is made and the point where it is read.
-/
import proofs.«150699_j61246233641684_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A buffer that no operation of a host stretch writes keeps its contents through the stretch: every operation's
    written buffer differs from it. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The edges' endpoints, the edge normalisation and the hop bias: computed or given before the first kernel, read by every hop's host stretch -/

theorem v1_5_3 : W5 m ρ c (Proc.devRef .tc main_v1) = W3 m ρ c (Proc.devRef .tc main_v1) :=
  calc W5 m ρ c (Proc.devRef .tc main_v1)
    _ = W4 m ρ c (Proc.devRef .tc main_v1) := (W5_of_ne m ρ c main_v1 (by decide))
    _ = W3 m ρ c (Proc.devRef .tc main_v1) := (W4_of_ne m ρ c main_v1 (by decide))

theorem v1_8_5 : W8 m ρ c (Proc.devRef .tc main_v1) = W5 m ρ c (Proc.devRef .tc main_v1) :=
  calc W8 m ρ c (Proc.devRef .tc main_v1)
    _ = W7 m ρ c (Proc.devRef .tc main_v1) := (W8_of_ne m ρ c main_v1 (by decide))
    _ = W6 m ρ c (Proc.devRef .tc main_v1) := (W7_of_ne m ρ c main_v1 (by decide))
    _ = W5 m ρ c (Proc.devRef .tc main_v1) := (by host_keep hostOps2)

theorem v1_11_8 : W11 m ρ c (Proc.devRef .tc main_v1) = W8 m ρ c (Proc.devRef .tc main_v1) :=
  calc W11 m ρ c (Proc.devRef .tc main_v1)
    _ = W10 m ρ c (Proc.devRef .tc main_v1) := (W11_of_ne m ρ c main_v1 (by decide))
    _ = W9 m ρ c (Proc.devRef .tc main_v1) := (W10_of_ne m ρ c main_v1 (by decide))
    _ = W8 m ρ c (Proc.devRef .tc main_v1) := (by host_keep hostOps4)

theorem v1_14_11 : W14 m ρ c (Proc.devRef .tc main_v1) = W11 m ρ c (Proc.devRef .tc main_v1) :=
  calc W14 m ρ c (Proc.devRef .tc main_v1)
    _ = W13 m ρ c (Proc.devRef .tc main_v1) := (W14_of_ne m ρ c main_v1 (by decide))
    _ = W12 m ρ c (Proc.devRef .tc main_v1) := (W13_of_ne m ρ c main_v1 (by decide))
    _ = W11 m ρ c (Proc.devRef .tc main_v1) := (by host_keep hostOps6)

theorem v3_5_3 : W5 m ρ c (Proc.devRef .tc main_v3) = W3 m ρ c (Proc.devRef .tc main_v3) :=
  calc W5 m ρ c (Proc.devRef .tc main_v3)
    _ = W4 m ρ c (Proc.devRef .tc main_v3) := (W5_of_ne m ρ c main_v3 (by decide))
    _ = W3 m ρ c (Proc.devRef .tc main_v3) := (W4_of_ne m ρ c main_v3 (by decide))

theorem v3_8_5 : W8 m ρ c (Proc.devRef .tc main_v3) = W5 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (W7_of_ne m ρ c main_v3 (by decide))
    _ = W5 m ρ c (Proc.devRef .tc main_v3) := (by host_keep hostOps2)

theorem v3_11_8 : W11 m ρ c (Proc.devRef .tc main_v3) = W8 m ρ c (Proc.devRef .tc main_v3) :=
  calc W11 m ρ c (Proc.devRef .tc main_v3)
    _ = W10 m ρ c (Proc.devRef .tc main_v3) := (W11_of_ne m ρ c main_v3 (by decide))
    _ = W9 m ρ c (Proc.devRef .tc main_v3) := (W10_of_ne m ρ c main_v3 (by decide))
    _ = W8 m ρ c (Proc.devRef .tc main_v3) := (by host_keep hostOps4)

theorem v3_14_11 : W14 m ρ c (Proc.devRef .tc main_v3) = W11 m ρ c (Proc.devRef .tc main_v3) :=
  calc W14 m ρ c (Proc.devRef .tc main_v3)
    _ = W13 m ρ c (Proc.devRef .tc main_v3) := (W14_of_ne m ρ c main_v3 (by decide))
    _ = W12 m ρ c (Proc.devRef .tc main_v3) := (W13_of_ne m ρ c main_v3 (by decide))
    _ = W11 m ρ c (Proc.devRef .tc main_v3) := (by host_keep hostOps6)

theorem v33_5_3 : W5 m ρ c (Proc.devRef .tc main_v33) = W3 m ρ c (Proc.devRef .tc main_v33) :=
  calc W5 m ρ c (Proc.devRef .tc main_v33)
    _ = W4 m ρ c (Proc.devRef .tc main_v33) := (W5_of_ne m ρ c main_v33 (by decide))
    _ = W3 m ρ c (Proc.devRef .tc main_v33) := (W4_of_ne m ρ c main_v33 (by decide))

theorem v33_8_5 : W8 m ρ c (Proc.devRef .tc main_v33) = W5 m ρ c (Proc.devRef .tc main_v33) :=
  calc W8 m ρ c (Proc.devRef .tc main_v33)
    _ = W7 m ρ c (Proc.devRef .tc main_v33) := (W8_of_ne m ρ c main_v33 (by decide))
    _ = W6 m ρ c (Proc.devRef .tc main_v33) := (W7_of_ne m ρ c main_v33 (by decide))
    _ = W5 m ρ c (Proc.devRef .tc main_v33) := (by host_keep hostOps2)

theorem v33_11_8 : W11 m ρ c (Proc.devRef .tc main_v33) = W8 m ρ c (Proc.devRef .tc main_v33) :=
  calc W11 m ρ c (Proc.devRef .tc main_v33)
    _ = W10 m ρ c (Proc.devRef .tc main_v33) := (W11_of_ne m ρ c main_v33 (by decide))
    _ = W9 m ρ c (Proc.devRef .tc main_v33) := (W10_of_ne m ρ c main_v33 (by decide))
    _ = W8 m ρ c (Proc.devRef .tc main_v33) := (by host_keep hostOps4)

theorem v33_14_11 : W14 m ρ c (Proc.devRef .tc main_v33) = W11 m ρ c (Proc.devRef .tc main_v33) :=
  calc W14 m ρ c (Proc.devRef .tc main_v33)
    _ = W13 m ρ c (Proc.devRef .tc main_v33) := (W14_of_ne m ρ c main_v33 (by decide))
    _ = W12 m ρ c (Proc.devRef .tc main_v33) := (W13_of_ne m ρ c main_v33 (by decide))
    _ = W11 m ρ c (Proc.devRef .tc main_v33) := (by host_keep hostOps6)

theorem arg10_5_3 : W5 m ρ c (Proc.devRef .tc main_arg10) = W3 m ρ c (Proc.devRef .tc main_arg10) :=
  calc W5 m ρ c (Proc.devRef .tc main_arg10)
    _ = W4 m ρ c (Proc.devRef .tc main_arg10) := (W5_of_ne m ρ c main_arg10 (by decide))
    _ = W3 m ρ c (Proc.devRef .tc main_arg10) := (W4_of_ne m ρ c main_arg10 (by decide))

theorem arg10_8_5 : W8 m ρ c (Proc.devRef .tc main_arg10) = W5 m ρ c (Proc.devRef .tc main_arg10) :=
  calc W8 m ρ c (Proc.devRef .tc main_arg10)
    _ = W7 m ρ c (Proc.devRef .tc main_arg10) := (W8_of_ne m ρ c main_arg10 (by decide))
    _ = W6 m ρ c (Proc.devRef .tc main_arg10) := (W7_of_ne m ρ c main_arg10 (by decide))
    _ = W5 m ρ c (Proc.devRef .tc main_arg10) := (by host_keep hostOps2)

theorem arg10_11_8 : W11 m ρ c (Proc.devRef .tc main_arg10) = W8 m ρ c (Proc.devRef .tc main_arg10) :=
  calc W11 m ρ c (Proc.devRef .tc main_arg10)
    _ = W10 m ρ c (Proc.devRef .tc main_arg10) := (W11_of_ne m ρ c main_arg10 (by decide))
    _ = W9 m ρ c (Proc.devRef .tc main_arg10) := (W10_of_ne m ρ c main_arg10 (by decide))
    _ = W8 m ρ c (Proc.devRef .tc main_arg10) := (by host_keep hostOps4)

theorem arg10_14_11 : W14 m ρ c (Proc.devRef .tc main_arg10) = W11 m ρ c (Proc.devRef .tc main_arg10) :=
  calc W14 m ρ c (Proc.devRef .tc main_arg10)
    _ = W13 m ρ c (Proc.devRef .tc main_arg10) := (W14_of_ne m ρ c main_arg10 (by decide))
    _ = W12 m ρ c (Proc.devRef .tc main_arg10) := (W13_of_ne m ρ c main_arg10 (by decide))
    _ = W11 m ρ c (Proc.devRef .tc main_arg10) := (by host_keep hostOps6)

/-! ## The self loop's coefficient: an input of every combine kernel, written by none -/

theorem v35_6_3 : W6 m ρ c (Proc.devRef .tc main_v35) = W3 m ρ c (Proc.devRef .tc main_v35) :=
  calc W6 m ρ c (Proc.devRef .tc main_v35)
    _ = W5 m ρ c (Proc.devRef .tc main_v35) := (by host_keep hostOps2)
    _ = W4 m ρ c (Proc.devRef .tc main_v35) := (W5_of_ne m ρ c main_v35 (by decide))
    _ = W3 m ρ c (Proc.devRef .tc main_v35) := (W4_of_ne m ρ c main_v35 (by decide))

theorem v35_9_6 : W9 m ρ c (Proc.devRef .tc main_v35) = W6 m ρ c (Proc.devRef .tc main_v35) :=
  calc W9 m ρ c (Proc.devRef .tc main_v35)
    _ = W8 m ρ c (Proc.devRef .tc main_v35) := (by host_keep hostOps4)
    _ = W7 m ρ c (Proc.devRef .tc main_v35) := (W8_of_ne m ρ c main_v35 (by decide))
    _ = W6 m ρ c (Proc.devRef .tc main_v35) := ((W7_arr m ρ c 2).trans (((dat2 (V6 m ρ) c).arrAt_in 2 rfl _).trans (A_eq2 (V6 m ρ) c 2)))

theorem v35_12_9 : W12 m ρ c (Proc.devRef .tc main_v35) = W9 m ρ c (Proc.devRef .tc main_v35) :=
  calc W12 m ρ c (Proc.devRef .tc main_v35)
    _ = W11 m ρ c (Proc.devRef .tc main_v35) := (by host_keep hostOps6)
    _ = W10 m ρ c (Proc.devRef .tc main_v35) := (W11_of_ne m ρ c main_v35 (by decide))
    _ = W9 m ρ c (Proc.devRef .tc main_v35) := ((W10_arr m ρ c 2).trans (((dat4 (V9 m ρ) c).arrAt_in 2 rfl _).trans (A_eq4 (V9 m ρ) c 2)))

theorem v35_15_12 : W15 m ρ c (Proc.devRef .tc main_v35) = W12 m ρ c (Proc.devRef .tc main_v35) :=
  calc W15 m ρ c (Proc.devRef .tc main_v35)
    _ = W14 m ρ c (Proc.devRef .tc main_v35) := (by host_keep hostOps8)
    _ = W13 m ρ c (Proc.devRef .tc main_v35) := (W14_of_ne m ρ c main_v35 (by decide))
    _ = W12 m ρ c (Proc.devRef .tc main_v35) := ((W13_arr m ρ c 2).trans (((dat6 (V12 m ρ) c).arrAt_in 2 rfl _).trans (A_eq6 (V12 m ρ) c 2)))

/-! ## The hop's weight matrix: an input of every linear kernel, written by none -/

theorem arg9_4_3 : W4 m ρ c (Proc.devRef .tc main_arg9) = W3 m ρ c (Proc.devRef .tc main_arg9) :=
  calc W4 m ρ c (Proc.devRef .tc main_arg9)
    _ = W3 m ρ c (Proc.devRef .tc main_arg9) := (W4_of_ne m ρ c main_arg9 (by decide))

theorem arg9_7_4 : W7 m ρ c (Proc.devRef .tc main_arg9) = W4 m ρ c (Proc.devRef .tc main_arg9) :=
  calc W7 m ρ c (Proc.devRef .tc main_arg9)
    _ = W6 m ρ c (Proc.devRef .tc main_arg9) := (W7_of_ne m ρ c main_arg9 (by decide))
    _ = W5 m ρ c (Proc.devRef .tc main_arg9) := (by host_keep hostOps2)
    _ = W4 m ρ c (Proc.devRef .tc main_arg9) := ((W5_arr m ρ c 1).trans (((dat1 (V4 m ρ) c).arrAt_in 1 rfl _).trans (A_eq1 (V4 m ρ) c 1)))

theorem arg9_10_7 : W10 m ρ c (Proc.devRef .tc main_arg9) = W7 m ρ c (Proc.devRef .tc main_arg9) :=
  calc W10 m ρ c (Proc.devRef .tc main_arg9)
    _ = W9 m ρ c (Proc.devRef .tc main_arg9) := (W10_of_ne m ρ c main_arg9 (by decide))
    _ = W8 m ρ c (Proc.devRef .tc main_arg9) := (by host_keep hostOps4)
    _ = W7 m ρ c (Proc.devRef .tc main_arg9) := ((W8_arr m ρ c 1).trans (((dat3 (V7 m ρ) c).arrAt_in 1 rfl _).trans (A_eq3 (V7 m ρ) c 1)))

theorem arg9_13_10 : W13 m ρ c (Proc.devRef .tc main_arg9) = W10 m ρ c (Proc.devRef .tc main_arg9) :=
  calc W13 m ρ c (Proc.devRef .tc main_arg9)
    _ = W12 m ρ c (Proc.devRef .tc main_arg9) := (W13_of_ne m ρ c main_arg9 (by decide))
    _ = W11 m ρ c (Proc.devRef .tc main_arg9) := (by host_keep hostOps6)
    _ = W10 m ρ c (Proc.devRef .tc main_arg9) := ((W11_arr m ρ c 1).trans (((dat5 (V10 m ρ) c).arrAt_in 1 rfl _).trans (A_eq5 (V10 m ρ) c 1)))

/-! ## A hop's linear output through the host stretch that sums its messages -/

theorem v39_6_5 : W6 m ρ c (Proc.devRef .tc main_v39) = W5 m ρ c (Proc.devRef .tc main_v39) :=
  calc W6 m ρ c (Proc.devRef .tc main_v39)
    _ = W5 m ρ c (Proc.devRef .tc main_v39) := (by host_keep hostOps2)

theorem v55_9_8 : W9 m ρ c (Proc.devRef .tc main_v55) = W8 m ρ c (Proc.devRef .tc main_v55) :=
  calc W9 m ρ c (Proc.devRef .tc main_v55)
    _ = W8 m ρ c (Proc.devRef .tc main_v55) := (by host_keep hostOps4)

theorem v71_12_11 : W12 m ρ c (Proc.devRef .tc main_v71) = W11 m ρ c (Proc.devRef .tc main_v71) :=
  calc W12 m ρ c (Proc.devRef .tc main_v71)
    _ = W11 m ρ c (Proc.devRef .tc main_v71) := (by host_keep hostOps6)

theorem v87_15_14 : W15 m ρ c (Proc.devRef .tc main_v87) = W14 m ρ c (Proc.devRef .tc main_v87) :=
  calc W15 m ρ c (Proc.devRef .tc main_v87)
    _ = W14 m ρ c (Proc.devRef .tc main_v87) := (by host_keep hostOps8)

/-! ## The decoder's operands -/

theorem arg12_16_3 : W16 m ρ c (Proc.devRef .tc main_arg12) = W3 m ρ c (Proc.devRef .tc main_arg12) :=
  calc W16 m ρ c (Proc.devRef .tc main_arg12)
    _ = W15 m ρ c (Proc.devRef .tc main_arg12) := (W16_of_ne m ρ c main_arg12 (by decide))
    _ = W14 m ρ c (Proc.devRef .tc main_arg12) := (by host_keep hostOps8)
    _ = W13 m ρ c (Proc.devRef .tc main_arg12) := (W14_of_ne m ρ c main_arg12 (by decide))
    _ = W12 m ρ c (Proc.devRef .tc main_arg12) := (W13_of_ne m ρ c main_arg12 (by decide))
    _ = W11 m ρ c (Proc.devRef .tc main_arg12) := (by host_keep hostOps6)
    _ = W10 m ρ c (Proc.devRef .tc main_arg12) := (W11_of_ne m ρ c main_arg12 (by decide))
    _ = W9 m ρ c (Proc.devRef .tc main_arg12) := (W10_of_ne m ρ c main_arg12 (by decide))
    _ = W8 m ρ c (Proc.devRef .tc main_arg12) := (by host_keep hostOps4)
    _ = W7 m ρ c (Proc.devRef .tc main_arg12) := (W8_of_ne m ρ c main_arg12 (by decide))
    _ = W6 m ρ c (Proc.devRef .tc main_arg12) := (W7_of_ne m ρ c main_arg12 (by decide))
    _ = W5 m ρ c (Proc.devRef .tc main_arg12) := (by host_keep hostOps2)
    _ = W4 m ρ c (Proc.devRef .tc main_arg12) := (W5_of_ne m ρ c main_arg12 (by decide))
    _ = W3 m ρ c (Proc.devRef .tc main_arg12) := (W4_of_ne m ρ c main_arg12 (by decide))

theorem arg14_16_3 : W16 m ρ c (Proc.devRef .tc main_arg14) = W3 m ρ c (Proc.devRef .tc main_arg14) :=
  calc W16 m ρ c (Proc.devRef .tc main_arg14)
    _ = W15 m ρ c (Proc.devRef .tc main_arg14) := (W16_of_ne m ρ c main_arg14 (by decide))
    _ = W14 m ρ c (Proc.devRef .tc main_arg14) := (by host_keep hostOps8)
    _ = W13 m ρ c (Proc.devRef .tc main_arg14) := (W14_of_ne m ρ c main_arg14 (by decide))
    _ = W12 m ρ c (Proc.devRef .tc main_arg14) := (W13_of_ne m ρ c main_arg14 (by decide))
    _ = W11 m ρ c (Proc.devRef .tc main_arg14) := (by host_keep hostOps6)
    _ = W10 m ρ c (Proc.devRef .tc main_arg14) := (W11_of_ne m ρ c main_arg14 (by decide))
    _ = W9 m ρ c (Proc.devRef .tc main_arg14) := (W10_of_ne m ρ c main_arg14 (by decide))
    _ = W8 m ρ c (Proc.devRef .tc main_arg14) := (by host_keep hostOps4)
    _ = W7 m ρ c (Proc.devRef .tc main_arg14) := (W8_of_ne m ρ c main_arg14 (by decide))
    _ = W6 m ρ c (Proc.devRef .tc main_arg14) := (W7_of_ne m ρ c main_arg14 (by decide))
    _ = W5 m ρ c (Proc.devRef .tc main_arg14) := (by host_keep hostOps2)
    _ = W4 m ρ c (Proc.devRef .tc main_arg14) := (W5_of_ne m ρ c main_arg14 (by decide))
    _ = W3 m ρ c (Proc.devRef .tc main_arg14) := (W4_of_ne m ρ c main_arg14 (by decide))

theorem arg11_17_3 : W17 m ρ c (Proc.devRef .tc main_arg11) = W3 m ρ c (Proc.devRef .tc main_arg11) :=
  calc W17 m ρ c (Proc.devRef .tc main_arg11)
    _ = W16 m ρ c (Proc.devRef .tc main_arg11) := (by host_keep hostOps9)
    _ = W15 m ρ c (Proc.devRef .tc main_arg11) := (W16_of_ne m ρ c main_arg11 (by decide))
    _ = W14 m ρ c (Proc.devRef .tc main_arg11) := (by host_keep hostOps8)
    _ = W13 m ρ c (Proc.devRef .tc main_arg11) := (W14_of_ne m ρ c main_arg11 (by decide))
    _ = W12 m ρ c (Proc.devRef .tc main_arg11) := (W13_of_ne m ρ c main_arg11 (by decide))
    _ = W11 m ρ c (Proc.devRef .tc main_arg11) := (by host_keep hostOps6)
    _ = W10 m ρ c (Proc.devRef .tc main_arg11) := (W11_of_ne m ρ c main_arg11 (by decide))
    _ = W9 m ρ c (Proc.devRef .tc main_arg11) := (W10_of_ne m ρ c main_arg11 (by decide))
    _ = W8 m ρ c (Proc.devRef .tc main_arg11) := (by host_keep hostOps4)
    _ = W7 m ρ c (Proc.devRef .tc main_arg11) := (W8_of_ne m ρ c main_arg11 (by decide))
    _ = W6 m ρ c (Proc.devRef .tc main_arg11) := (W7_of_ne m ρ c main_arg11 (by decide))
    _ = W5 m ρ c (Proc.devRef .tc main_arg11) := (by host_keep hostOps2)
    _ = W4 m ρ c (Proc.devRef .tc main_arg11) := (W5_of_ne m ρ c main_arg11 (by decide))
    _ = W3 m ρ c (Proc.devRef .tc main_arg11) := (W4_of_ne m ρ c main_arg11 (by decide))

theorem arg13_17_3 : W17 m ρ c (Proc.devRef .tc main_arg13) = W3 m ρ c (Proc.devRef .tc main_arg13) :=
  calc W17 m ρ c (Proc.devRef .tc main_arg13)
    _ = W16 m ρ c (Proc.devRef .tc main_arg13) := (by host_keep hostOps9)
    _ = W15 m ρ c (Proc.devRef .tc main_arg13) := (W16_of_ne m ρ c main_arg13 (by decide))
    _ = W14 m ρ c (Proc.devRef .tc main_arg13) := (by host_keep hostOps8)
    _ = W13 m ρ c (Proc.devRef .tc main_arg13) := (W14_of_ne m ρ c main_arg13 (by decide))
    _ = W12 m ρ c (Proc.devRef .tc main_arg13) := (W13_of_ne m ρ c main_arg13 (by decide))
    _ = W11 m ρ c (Proc.devRef .tc main_arg13) := (by host_keep hostOps6)
    _ = W10 m ρ c (Proc.devRef .tc main_arg13) := (W11_of_ne m ρ c main_arg13 (by decide))
    _ = W9 m ρ c (Proc.devRef .tc main_arg13) := (W10_of_ne m ρ c main_arg13 (by decide))
    _ = W8 m ρ c (Proc.devRef .tc main_arg13) := (by host_keep hostOps4)
    _ = W7 m ρ c (Proc.devRef .tc main_arg13) := (W8_of_ne m ρ c main_arg13 (by decide))
    _ = W6 m ρ c (Proc.devRef .tc main_arg13) := (W7_of_ne m ρ c main_arg13 (by decide))
    _ = W5 m ρ c (Proc.devRef .tc main_arg13) := (by host_keep hostOps2)
    _ = W4 m ρ c (Proc.devRef .tc main_arg13) := (W5_of_ne m ρ c main_arg13 (by decide))
    _ = W3 m ρ c (Proc.devRef .tc main_arg13) := (W4_of_ne m ρ c main_arg13 (by decide))

theorem v102_17_16 : W17 m ρ c (Proc.devRef .tc main_v102) = W16 m ρ c (Proc.devRef .tc main_v102) :=
  calc W17 m ρ c (Proc.devRef .tc main_v102)
    _ = W16 m ρ c (Proc.devRef .tc main_v102) := (by host_keep hostOps9)

end Cert.KernelIdeal.Keep

end
-- ==== Proof.KHost.lean ====
/-
  The host stretches of the kernel program read back.  Between its kernels the program runs plain array operations:
  before the first kernel it cuts the edge list into its endpoints and forms the edge weights, the degree, its inverse
  square root where positive, the edges' normalisation and the self loop's coefficient; after each hop's first kernel
  it sums the normalised messages over the edges into each node; and it reshapes each bias vector to a row.  Each
  result is the specification's function of the same name applied to the contents the stretch starts from.
-/
import proofs.«150699_j61246233641684_1_alg».proof.Proof.Gen.KernelIdeal.Frame
import proofs.«150699_j61246233641684_1_alg».proof.Proof.Gen.ReferenceIdeal
import proofs.«150699_j61246233641684_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Cert.Gnn Idealize.ShloMosaic Idealize.ShloMosaic.StableHlo Idealize.ShloMosaic.TcCoe ValueIdx

variable (m : (ℓ : Loc nD τ sig) → Buf (Elt Ideal) ℓ) (ρ : Dev nD → PrngReg) (c : Dev nD)

/-! ## The stretch after each hop's first kernel: the messages summed over the edges into each node, and the hop's bias as a row -/

theorem agg_6 : W6 m ρ c (Proc.devRef .tc main_v52) = aggAt (F := Ideal) (W5 m ρ c (Proc.devRef .tc main_v1)) (W5 m ρ c (Proc.devRef .tc main_v3)) (W5 m ρ c (Proc.devRef .tc main_v33)) (W5 m ρ c (Proc.devRef .tc main_v39)) := by
  dsimp only [W6, hostOps2]
  generalize W5 m ρ c = V
  after_results_simp
  rfl

theorem bg_6 (q : Fin 128) : W6 m ρ c (Proc.devRef .tc main_v53) (ix2 (0 : Fin 1) q) = W5 m ρ c (Proc.devRef .tc main_arg10) (ix1 q) := by
  dsimp only [W6, hostOps2]
  generalize W5 m ρ c = V
  after_results_simp
  exact shapeCast_a_1a_apply _ _ (0 : Fin 1) q

theorem agg_9 : W9 m ρ c (Proc.devRef .tc main_v68) = aggAt (F := Ideal) (W8 m ρ c (Proc.devRef .tc main_v1)) (W8 m ρ c (Proc.devRef .tc main_v3)) (W8 m ρ c (Proc.devRef .tc main_v33)) (W8 m ρ c (Proc.devRef .tc main_v55)) := by
  dsimp only [W9, hostOps4]
  generalize W8 m ρ c = V
  after_results_simp
  rfl

theorem bg_9 (q : Fin 128) : W9 m ρ c (Proc.devRef .tc main_v69) (ix2 (0 : Fin 1) q) = W8 m ρ c (Proc.devRef .tc main_arg10) (ix1 q) := by
  dsimp only [W9, hostOps4]
  generalize W8 m ρ c = V
  after_results_simp
  exact shapeCast_a_1a_apply _ _ (0 : Fin 1) q

theorem agg_12 : W12 m ρ c (Proc.devRef .tc main_v84) = aggAt (F := Ideal) (W11 m ρ c (Proc.devRef .tc main_v1)) (W11 m ρ c (Proc.devRef .tc main_v3)) (W11 m ρ c (Proc.devRef .tc main_v33)) (W11 m ρ c (Proc.devRef .tc main_v71)) := by
  dsimp only [W12, hostOps6]
  generalize W11 m ρ c = V
  after_results_simp
  rfl

theorem bg_12 (q : Fin 128) : W12 m ρ c (Proc.devRef .tc main_v85) (ix2 (0 : Fin 1) q) = W11 m ρ c (Proc.devRef .tc main_arg10) (ix1 q) := by
  dsimp only [W12, hostOps6]
  generalize W11 m ρ c = V
  after_results_simp
  exact shapeCast_a_1a_apply _ _ (0 : Fin 1) q

theorem agg_15 : W15 m ρ c (Proc.devRef .tc main_v100) = aggAt (F := Ideal) (W14 m ρ c (Proc.devRef .tc main_v1)) (W14 m ρ c (Proc.devRef .tc main_v3)) (W14 m ρ c (Proc.devRef .tc main_v33)) (W14 m ρ c (Proc.devRef .tc main_v87)) := by
  dsimp only [W15, hostOps8]
  generalize W14 m ρ c = V
  after_results_simp
  rfl

theorem bg_15 (q : Fin 128) : W15 m ρ c (Proc.devRef .tc main_v101) (ix2 (0 : Fin 1) q) = W14 m ρ c (Proc.devRef .tc main_arg10) (ix1 q) := by
  dsimp only [W15, hostOps8]
  generalize W14 m ρ c = V
  after_results_simp
  exact shapeCast_a_1a_apply _ _ (0 : Fin 1) q

/-! ## The last stretch: the decoder's biases as rows -/

theorem bd1_17 (q : Fin 128) : W17 m ρ c (Proc.devRef .tc main_v103) (ix2 (0 : Fin 1) q) = W16 m ρ c (Proc.devRef .tc main_arg12) (ix1 q) := by
  dsimp only [W17, hostOps9]
  generalize W16 m ρ c = V
  after_results_simp
  exact shapeCast_a_1a_apply _ _ (0 : Fin 1) q

theorem bd2_17 (q : Fin 3) : W17 m ρ c (Proc.devRef .tc main_v104) (ix2 (0 : Fin 1) q) = W16 m ρ c (Proc.devRef .tc main_arg14) (ix1 q) := by
  dsimp only [W17, hostOps9]
  generalize W16 m ρ c = V
  after_results_simp
  exact shapeCast_a_1a_apply _ _ (0 : Fin 1) q

/-! ## The three stretches before the first kernel

The first stretch cuts the edge list into its endpoints, forms the edge weights and the degree; the second selects
the inverse square root where the degree is positive; the third forms the edges' normalisation, the self loop's
coefficient as a column and the encoder's biases as rows.  Each stretch is read back over the contents it starts
from, and the three are chained. -/

/-- A vector cast to one column reads, at (i, u), its entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem row_1 : W1 m ρ c (Proc.devRef .tc main_v1) = rowOf (F := Ideal) (m ((c : Thread nD τ).loc main_arg2)) := by
  show _ = rowOf (F := Ideal) (W0 m ρ c (Proc.devRef .tc main_arg2))
  dsimp only [W1, hostOps0]
  generalize W0 m ρ c = V
  after_results_simp
  rfl

theorem col_1 : W1 m ρ c (Proc.devRef .tc main_v3) = colOf (F := Ideal) (m ((c : Thread nD τ).loc main_arg2)) := by
  show _ = colOf (F := Ideal) (W0 m ρ c (Proc.devRef .tc main_arg2))
  dsimp only [W1, hostOps0]
  generalize W0 m ρ c = V
  after_results_simp
  rfl

theorem ew_1 : W1 m ρ c (Proc.devRef .tc main_v8) = ewOf (F := Ideal) (m ((c : Thread nD τ).loc main_arg3)) := by
  show _ = ewOf (F := Ideal) (W0 m ρ c (Proc.devRef .tc main_arg3))
  dsimp only [W1, hostOps0]
  generalize W0 m ρ c = V
  after_results_simp
  rfl

theorem pos_1 : W1 m ρ c (Proc.devRef .tc main_v15) = cmpf .ogt (degOf (F := Ideal) (m ((c : Thread nD τ).loc main_arg2)) (m ((c : Thread nD τ).loc main_arg3))) (broadcastInDim Cert.ReferenceIdeal.S50000 ![] Cert.ReferenceIdeal.Facts₀.bcast_S_S50000 (constant (F := Ideal) Cert.ReferenceIdeal.S_ .f32 0x00000000#32)) := by
  show _ = cmpf .ogt (degOf (F := Ideal) (W0 m ρ c (Proc.devRef .tc main_arg2)) (W0 m ρ c (Proc.devRef .tc main_arg3))) (broadcastInDim Cert.ReferenceIdeal.S50000 ![] Cert.ReferenceIdeal.Facts₀.bcast_S_S50000 (constant (F := Ideal) Cert.ReferenceIdeal.S_ .f32 0x00000000#32))
  dsimp only [W1, hostOps0]
  generalize W0 m ρ c = V
  after_results_simp
  rfl

theorem rsq_1 : W1 m ρ c (Proc.devRef .tc main_v16) = Host.rsqrt (F := Ideal) (s := Cert.ReferenceIdeal.S50000) (φ := .f32) (degOf (F := Ideal) (m ((c : Thread nD τ).loc main_arg2)) (m ((c : Thread nD τ).loc main_arg3))) := by
  show _ = Host.rsqrt (F := Ideal) (s := Cert.ReferenceIdeal.S50000) (φ := .f32) (degOf (F := Ideal) (W0 m ρ c (Proc.devRef .tc main_arg2)) (W0 m ρ c (Proc.devRef .tc main_arg3)))
  dsimp only [W1, hostOps0]
  generalize W0 m ρ c = V
  after_results_simp
  rfl

theorem zero_1 : W1 m ρ c (Proc.devRef .tc main_cst_3) = constant (F := Ideal) Cert.ReferenceIdeal.S_ .f32 0x00000000#32 := by
  dsimp only [W1, hostOps0]
  generalize W0 m ρ c = V
  after_results_simp

/-- The second stretch: the select, over what the first stretch left. -/
theorem sel_2 : W2 m ρ c (Proc.devRef .tc main_v17) =
    select (W1 m ρ c (Proc.devRef .tc main_v15)) (W1 m ρ c (Proc.devRef .tc main_v16))
      (broadcastInDim Cert.ReferenceIdeal.S50000 ![] Cert.ReferenceIdeal.Facts₀.bcast_S_S50000 (id (W1 m ρ c (Proc.devRef .tc main_cst_3)))) := by
  dsimp only [W2, hostOps0_1]
  generalize W1 m ρ c = V
  after_results_simp
  rfl

/-- The inverse square root of the degree where it is positive, zero elsewhere, after the second stretch. -/
theorem dis_2 : W2 m ρ c (Proc.devRef .tc main_v17) = disOf (F := Ideal) (m ((c : Thread nD τ).loc main_arg2)) (m ((c : Thread nD τ).loc main_arg3)) := by
  rw [sel_2, pos_1, rsq_1, zero_1]
  rfl

theorem row_2p : W2 m ρ c (Proc.devRef .tc main_v1) = W1 m ρ c (Proc.devRef .tc main_v1) := by
  dsimp only [W2, hostOps0_1]
  generalize W1 m ρ c = V
  after_results_simp

theorem col_2p : W2 m ρ c (Proc.devRef .tc main_v3) = W1 m ρ c (Proc.devRef .tc main_v3) := by
  dsimp only [W2, hostOps0_1]
  generalize W1 m ρ c = V
  after_results_simp

theorem ew_2p : W2 m ρ c (Proc.devRef .tc main_v8) = W1 m ρ c (Proc.devRef .tc main_v8) := by
  dsimp only [W2, hostOps0_1]
  generalize W1 m ρ c = V
  after_results_simp

/-- The third stretch: the normalisation of the edges, over what the second stretch left. -/
theorem norm_3s : W3 m ρ c (Proc.devRef .tc main_v33) =
    normAt (F := Ideal) (W2 m ρ c (Proc.devRef .tc main_v1)) (W2 m ρ c (Proc.devRef .tc main_v3)) (W2 m ρ c (Proc.devRef .tc main_v8)) (W2 m ρ c (Proc.devRef .tc main_v17)) := by
  dsimp only [W3, hostOps0_2]
  generalize W2 m ρ c = V
  after_results_simp
  rfl

theorem norm_3 : W3 m ρ c (Proc.devRef .tc main_v33) = normOf (F := Ideal) (m ((c : Thread nD τ).loc main_arg2)) (m ((c : Thread nD τ).loc main_arg3)) := by
  rw [norm_3s, row_2p, col_2p, ew_2p, row_1, col_1, ew_1, dis_2]
  rfl

/-- The third stretch: the self loop's coefficient as a column, over what the second stretch left. -/
theorem dsq_3s (r : Fin 50000) : W3 m ρ c (Proc.devRef .tc main_v35) (ix2 r (0 : Fin 1)) =
    mulf (F := Ideal) (s := Cert.ReferenceIdeal.S50000) (φ := .f32) (W2 m ρ c (Proc.devRef .tc main_v17)) (W2 m ρ c (Proc.devRef .tc main_v17)) (ix1 r) := by
  dsimp only [W3, hostOps0_2]
  generalize W2 m ρ c = V
  after_results_simp
  exact shapeCast_a_a1_apply _ _ r (0 : Fin 1)

theorem dsq_3 (r : Fin 50000) : W3 m ρ c (Proc.devRef .tc main_v35) (ix2 r (0 : Fin 1)) = dsqOf (F := Ideal) (m ((c : Thread nD τ).loc main_arg2)) (m ((c : Thread nD τ).loc main_arg3)) (ix1 r) := by
  rw [dsq_3s, dis_2]
  rfl

/-! The arguments the three stretches do not write, the endpoints, and the encoder's biases as rows, at the first kernel's entry. -/

theorem arg0_3 : W3 m ρ c (Proc.devRef .tc main_arg0) = m ((c : Thread nD τ).loc main_arg0) := by
  show _ = W0 m ρ c (Proc.devRef .tc main_arg0)
  dsimp only [W3, W2, W1, hostOps0_2, hostOps0_1, hostOps0]
  generalize W0 m ρ c = V
  after_results_simp

theorem arg1_3 : W3 m ρ c (Proc.devRef .tc main_arg1) = m ((c : Thread nD τ).loc main_arg1) := by
  show _ = W0 m ρ c (Proc.devRef .tc main_arg1)
  dsimp only [W3, W2, W1, hostOps0_2, hostOps0_1, hostOps0]
  generalize W0 m ρ c = V
  after_results_simp

theorem arg5_3 : W3 m ρ c (Proc.devRef .tc main_arg5) = m ((c : Thread nD τ).loc main_arg5) := by
  show _ = W0 m ρ c (Proc.devRef .tc main_arg5)
  dsimp only [W3, W2, W1, hostOps0_2, hostOps0_1, hostOps0]
  generalize W0 m ρ c = V
  after_results_simp

theorem arg7_3 : W3 m ρ c (Proc.devRef .tc main_arg7) = m ((c : Thread nD τ).loc main_arg7) := by
  show _ = W0 m ρ c (Proc.devRef .tc main_arg7)
  dsimp only [W3, W2, W1, hostOps0_2, hostOps0_1, hostOps0]
  generalize W0 m ρ c = V
  after_results_simp

theorem arg9_3 : W3 m ρ c (Proc.devRef .tc main_arg9) = m ((c : Thread nD τ).loc main_arg9) := by
  show _ = W0 m ρ c (Proc.devRef .tc main_arg9)
  dsimp only [W3, W2, W1, hostOps0_2, hostOps0_1, hostOps0]
  generalize W0 m ρ c = V
  after_results_simp

theorem arg10_3 : W3 m ρ c (Proc.devRef .tc main_arg10) = m ((c : Thread nD τ).loc main_arg10) := by
  show _ = W0 m ρ c (Proc.devRef .tc main_arg10)
  dsimp only [W3, W2, W1, hostOps0_2, hostOps0_1, hostOps0]
  generalize W0 m ρ c = V
  after_results_simp

theorem arg11_3 : W3 m ρ c (Proc.devRef .tc main_arg11) = m ((c : Thread nD τ).loc main_arg11) := by
  show _ = W0 m ρ c (Proc.devRef .tc main_arg11)
  dsimp only [W3, W2, W1, hostOps0_2, hostOps0_1, hostOps0]
  generalize W0 m ρ c = V
  after_results_simp

theorem arg12_3 : W3 m ρ c (Proc.devRef .tc main_arg12) = m ((c : Thread nD τ).loc main_arg12) := by
  show _ = W0 m ρ c (Proc.devRef .tc main_arg12)
  dsimp only [W3, W2, W1, hostOps0_2, hostOps0_1, hostOps0]
  generalize W0 m ρ c = V
  after_results_simp

theorem arg13_3 : W3 m ρ c (Proc.devRef .tc main_arg13) = m ((c : Thread nD τ).loc main_arg13) := by
  show _ = W0 m ρ c (Proc.devRef .tc main_arg13)
  dsimp only [W3, W2, W1, hostOps0_2, hostOps0_1, hostOps0]
  generalize W0 m ρ c = V
  after_results_simp

theorem arg14_3 : W3 m ρ c (Proc.devRef .tc main_arg14) = m ((c : Thread nD τ).loc main_arg14) := by
  show _ = W0 m ρ c (Proc.devRef .tc main_arg14)
  dsimp only [W3, W2, W1, hostOps0_2, hostOps0_1, hostOps0]
  generalize W0 m ρ c = V
  after_results_simp

theorem row_3 : W3 m ρ c (Proc.devRef .tc main_v1) = rowOf (F := Ideal) (m ((c : Thread nD τ).loc main_arg2)) := by
  show _ = rowOf (F := Ideal) (W0 m ρ c (Proc.devRef .tc main_arg2))
  dsimp only [W3, W2, W1, hostOps0_2, hostOps0_1, hostOps0]
  generalize W0 m ρ c = V
  after_results_simp
  rfl

theorem col_3 : W3 m ρ c (Proc.devRef .tc main_v3) = colOf (F := Ideal) (m ((c : Thread nD τ).loc main_arg2)) := by
  show _ = colOf (F := Ideal) (W0 m ρ c (Proc.devRef .tc main_arg2))
  dsimp only [W3, W2, W1, hostOps0_2, hostOps0_1, hostOps0]
  generalize W0 m ρ c = V
  after_results_simp
  rfl

theorem b1_3 (q : Fin 128) : W3 m ρ c (Proc.devRef .tc main_v36) (ix2 (0 : Fin 1) q) = m ((c : Thread nD τ).loc main_arg6) (ix1 q) := by
  show _ = W0 m ρ c (Proc.devRef .tc main_arg6) (ix1 q)
  dsimp only [W3, W2, W1, hostOps0_2, hostOps0_1, hostOps0]
  generalize W0 m ρ c = V
  after_results_simp
  exact shapeCast_a_1a_apply _ _ (0 : Fin 1) q

theorem b2_3 (q : Fin 128) : W3 m ρ c (Proc.devRef .tc main_v37) (ix2 (0 : Fin 1) q) = m ((c : Thread nD τ).loc main_arg8) (ix1 q) := by
  show _ = W0 m ρ c (Proc.devRef .tc main_arg8) (ix1 q)
  dsimp only [W3, W2, W1, hostOps0_2, hostOps0_1, hostOps0]
  generalize W0 m ρ c = V
  after_results_simp
  exact shapeCast_a_1a_apply _ _ (0 : Fin 1) q

end Cert.KernelIdeal.Host

end
-- ==== Proof.SpecApply.lean ====
/-
  The layers of the graph network read at one index.  Each whole-array function of the specification, applied at a
  row r and a column q, is written out in the entries of its arguments: a product of matrices is the sum over the
  contracted axis, a bias row is its entry at the column, the maximum with zero is taken entry by entry.  The sums
  over the edges into a node and the normalisation coefficients stay as they are stated.
-/
import proofs.«150699_j61246233641684_1_alg».proof.Proof.Spec
import Idealize.ShloMosaic.PureOps.Ideal.Laws
import Idealize.ShloMosaic.Lib.ValueIdx
import Idealize.ShloMosaic.Lib.Pipeline.Value

noncomputable section

namespace Cert.Gnn

open Idealize.ShloMosaic ValueIdx Cert.ReferenceIdeal

-- the shape relations the reference program states: propositions, so any two witnesses of them are equal
variable [Cert.ReferenceIdeal.Facts₀]
open Cert.ReferenceIdeal.Facts₀

/-! The contraction `dot_S50000x128_S128x128_S50000x128_1_0_0_1_n_n`: rows of a [50000, 128] array against columns of a [128, 128] one. -/

theorem dotSq_lhs0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
theorem dotSq_lhs1 (i : S50000x128.Idx) (c : dot_S50000x128_S128x128_S50000x128_1_0_0_1_n_n.contr.Idx) :
    (dot_S50000x128_S128x128_S50000x128_1_0_0_1_n_n.lhsIdx i c 1).val = (c ⟨0, Nat.one_pos⟩).val :=
  dot_S50000x128_S128x128_S50000x128_1_0_0_1_n_n.lhsIdx_val_of_single rfl i c
theorem dotSq_rhs0 (i : S50000x128.Idx) (c : dot_S50000x128_S128x128_S50000x128_1_0_0_1_n_n.contr.Idx) :
    (dot_S50000x128_S128x128_S50000x128_1_0_0_1_n_n.rhsIdx i c 0).val = (c ⟨0, Nat.one_pos⟩).val :=
  dot_S50000x128_S128x128_S50000x128_1_0_0_1_n_n.rhsIdx_val_of_single rfl i c
theorem dotSq_rhs1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The product read at (r, q): the sum over the contracted axis of row r of the left operand times column q of the right. -/
theorem dotSq_apply (y : Arr Ideal S50000x128 .f32) (W : Arr Ideal S128x128 .f32) (r : Fin 50000) (q : Fin 128) :
    Host.dotGeneral (F := Ideal) (φ₁ := .f32) (φ₂ := .f32) dot_S50000x128_S128x128_S50000x128_1_0_0_1_n_n none y W (ix2 r q) = ∑ k : Fin 128, y (ix2 r k) * W (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact dotSq_lhs0 _ _
    | ⟨1, _⟩ => exact (dotSq_lhs1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (dotSq_rhs0 _ _).trans hk
    | ⟨1, _⟩ => exact dotSq_rhs1 _ _)
  rw [el, er]

/-! The contraction `dot_S50000x128_S128x3_S50000x3_1_0_0_1_n_n`: rows of a [50000, 128] array against columns of a [128, 3] one. -/

theorem dotDec_lhs0 (i : S50000x3.Idx) (c : dot_S50000x128_S128x3_S50000x3_1_0_0_1_n_n.contr.Idx) :
    (dot_S50000x128_S128x3_S50000x3_1_0_0_1_n_n.lhsIdx i c 0).val = (i 0).val := by
  unfold DotDims.lhsIdx
  rw [dif_neg (show ¬(0 : Fin S50000x128.rank) ∈ dot_S50000x128_S128x3_S50000x3_1_0_0_1_n_n.lhsBatch from List.not_mem_nil),
    dif_pos (show (0 : Fin S50000x128.rank) ∈ dot_S50000x128_S128x3_S50000x3_1_0_0_1_n_n.lhsNonContracting from List.mem_singleton.mpr rfl)]
  rfl
theorem dotDec_lhs1 (i : S50000x3.Idx) (c : dot_S50000x128_S128x3_S50000x3_1_0_0_1_n_n.contr.Idx) :
    (dot_S50000x128_S128x3_S50000x3_1_0_0_1_n_n.lhsIdx i c 1).val = (c ⟨0, Nat.one_pos⟩).val :=
  dot_S50000x128_S128x3_S50000x3_1_0_0_1_n_n.lhsIdx_val_of_single rfl i c
theorem dotDec_rhs0 (i : S50000x3.Idx) (c : dot_S50000x128_S128x3_S50000x3_1_0_0_1_n_n.contr.Idx) :
    (dot_S50000x128_S128x3_S50000x3_1_0_0_1_n_n.rhsIdx i c 0).val = (c ⟨0, Nat.one_pos⟩).val :=
  dot_S50000x128_S128x3_S50000x3_1_0_0_1_n_n.rhsIdx_val_of_single rfl i c
theorem dotDec_rhs1 (i : S50000x3.Idx) (c : dot_S50000x128_S128x3_S50000x3_1_0_0_1_n_n.contr.Idx) :
    (dot_S50000x128_S128x3_S50000x3_1_0_0_1_n_n.rhsIdx i c 1).val = (i 1).val := by
  unfold DotDims.rhsIdx
  rw [dif_neg (show ¬(1 : Fin S128x3.rank) ∈ dot_S50000x128_S128x3_S50000x3_1_0_0_1_n_n.rhsBatch from List.not_mem_nil),
    dif_pos (show (1 : Fin S128x3.rank) ∈ dot_S50000x128_S128x3_S50000x3_1_0_0_1_n_n.rhsNonContracting from List.mem_singleton.mpr rfl)]
  rfl

/-- The product read at (r, q): the sum over the contracted axis of row r of the left operand times column q of the right. -/
theorem dotDec_apply (y : Arr Ideal S50000x128 .f32) (W : Arr Ideal S128x3 .f32) (r : Fin 50000) (q : Fin 3) :
    Host.dotGeneral (F := Ideal) (φ₁ := .f32) (φ₂ := .f32) dot_S50000x128_S128x3_S50000x3_1_0_0_1_n_n none y W (ix2 r q) = ∑ k : Fin 128, y (ix2 r k) * W (ix2 k q) := by
  simp only [Host.dotGeneral]
  rw [Ideal.dotGeneral_apply, ← Equiv.sum_comp (ValueIdx.contrEquiv1 dot_S50000x128_S128x3_S50000x3_1_0_0_1_n_n 128 rfl rfl).symm]
  refine Finset.sum_congr rfl fun k _ => ?_
  have hk := ValueIdx.contrEquiv1_symm_val dot_S50000x128_S128x3_S50000x3_1_0_0_1_n_n 128 rfl rfl k
  have el : dot_S50000x128_S128x3_S50000x3_1_0_0_1_n_n.lhsIdx (ix2 r q) ((ValueIdx.contrEquiv1 dot_S50000x128_S128x3_S50000x3_1_0_0_1_n_n 128 rfl rfl).symm k) = ix2 r k := funext fun a => Fin.ext (by
    match a with
    | ⟨0, _⟩ => exact dotDec_lhs0 _ _
    | ⟨1, _⟩ => exact (dotDec_lhs1 _ _).trans hk)
  have er : dot_S50000x128_S128x3_S50000x3_1_0_0_1_n_n.rhsIdx (ix2 r q) ((ValueIdx.contrEquiv1 dot_S50000x128_S128x3_S50000x3_1_0_0_1_n_n 128 rfl rfl).symm k) = ix2 k q := funext fun a => Fin.ext (by
    match a with
    | ⟨0, _⟩ => exact (dotDec_rhs0 _ _).trans hk
    | ⟨1, _⟩ => exact dotDec_rhs1 _ _)
  rw [el, er]

/-! The contraction `dot_S50000x16_S16x128_S50000x128_1_0_0_1_n_n`: rows of a [50000, 16] array against columns of a [16, 128] one. -/

theorem dotEnc_lhs0 (i : S50000x128.Idx) (c : dot_S50000x16_S16x128_S50000x128_1_0_0_1_n_n.contr.Idx) :
    (dot_S50000x16_S16x128_S50000x128_1_0_0_1_n_n.lhsIdx i c 0).val = (i 0).val := by
  unfold DotDims.lhsIdx
  rw [dif_neg (show ¬(0 : Fin S50000x16.rank) ∈ dot_S50000x16_S16x128_S50000x128_1_0_0_1_n_n.lhsBatch from List.not_mem_nil),
    dif_pos (show (0 : Fin S50000x16.rank) ∈ dot_S50000x16_S16x128_S50000x128_1_0_0_1_n_n.lhsNonContracting from List.mem_singleton.mpr rfl)]
  rfl
theorem dotEnc_lhs1 (i : S50000x128.Idx) (c : dot_S50000x16_S16x128_S50000x128_1_0_0_1_n_n.contr.Idx) :
    (dot_S50000x16_S16x128_S50000x128_1_0_0_1_n_n.lhsIdx i c 1).val = (c ⟨0, Nat.one_pos⟩).val :=
  dot_S50000x16_S16x128_S50000x128_1_0_0_1_n_n.lhsIdx_val_of_single rfl i c
theorem dotEnc_rhs0 (i : S50000x128.Idx) (c : dot_S50000x16_S16x128_S50000x128_1_0_0_1_n_n.contr.Idx) :
    (dot_S50000x16_S16x128_S50000x128_1_0_0_1_n_n.rhsIdx i c 0).val = (c ⟨0, Nat.one_pos⟩).val :=
  dot_S50000x16_S16x128_S50000x128_1_0_0_1_n_n.rhsIdx_val_of_single rfl i c
theorem dotEnc_rhs1 (i : S50000x128.Idx) (c : dot_S50000x16_S16x128_S50000x128_1_0_0_1_n_n.contr.Idx) :
    (dot_S50000x16_S16x128_S50000x128_1_0_0_1_n_n.rhsIdx i c 1).val = (i 1).val := by
  unfold DotDims.rhsIdx
  rw [dif_neg (show ¬(1 : Fin S16x128.rank) ∈ dot_S50000x16_S16x128_S50000x128_1_0_0_1_n_n.rhsBatch from List.not_mem_nil),
    dif_pos (show (1 : Fin S16x128.rank) ∈ dot_S50000x16_S16x128_S50000x128_1_0_0_1_n_n.rhsNonContracting from List.mem_singleton.mpr rfl)]
  rfl

/-- The product read at (r, q): the sum over the contracted axis of row r of the left operand times column q of the right. -/
theorem dotEnc_apply (y : Arr Ideal S50000x16 .f32) (W : Arr Ideal S16x128 .f32) (r : Fin 50000) (q : Fin 128) :
    Host.dotGeneral (F := Ideal) (φ₁ := .f32) (φ₂ := .f32) dot_S50000x16_S16x128_S50000x128_1_0_0_1_n_n none y W (ix2 r q) = ∑ k : Fin 16, y (ix2 r k) * W (ix2 k q) := by
  simp only [Host.dotGeneral]
  rw [Ideal.dotGeneral_apply, ← Equiv.sum_comp (ValueIdx.contrEquiv1 dot_S50000x16_S16x128_S50000x128_1_0_0_1_n_n 16 rfl rfl).symm]
  refine Finset.sum_congr rfl fun k _ => ?_
  have hk := ValueIdx.contrEquiv1_symm_val dot_S50000x16_S16x128_S50000x128_1_0_0_1_n_n 16 rfl rfl k
  have el : dot_S50000x16_S16x128_S50000x128_1_0_0_1_n_n.lhsIdx (ix2 r q) ((ValueIdx.contrEquiv1 dot_S50000x16_S16x128_S50000x128_1_0_0_1_n_n 16 rfl rfl).symm k) = ix2 r k := funext fun a => Fin.ext (by
    match a with
    | ⟨0, _⟩ => exact dotEnc_lhs0 _ _
    | ⟨1, _⟩ => exact (dotEnc_lhs1 _ _).trans hk)
  have er : dot_S50000x16_S16x128_S50000x128_1_0_0_1_n_n.rhsIdx (ix2 r q) ((ValueIdx.contrEquiv1 dot_S50000x16_S16x128_S50000x128_1_0_0_1_n_n 16 rfl rfl).symm k) = ix2 k q := funext fun a => Fin.ext (by
    match a with
    | ⟨0, _⟩ => exact (dotEnc_rhs0 _ _).trans hk
    | ⟨1, _⟩ => exact dotEnc_rhs1 _ _)
  rw [el, er]

/-! ## The dense layer, the bias, the maximum with zero -/

theorem linOf_apply (h : Arr Ideal S50000x128 .f32) (W : Arr Ideal S128x128 .f32) (r : Fin 50000) (q : Fin 128) :
    linOf (F := Ideal) h W (ix2 r q) = ∑ k : Fin 128, h (ix2 r k) * W (ix2 k q) := by
  unfold linOf
  exact dotSq_apply h W r q

/-- A bias repeated along the rows reads, at (r, q), its entry q: first the row [1, 128] at (0, q), then the vector. -/
theorem biasOf_apply (b : Arr Ideal S128 .f32) (r : Fin 50000) (q : Fin 128) : biasOf (F := Ideal) b (ix2 r q) = b (ix1 q) := by
  unfold biasOf
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero splat reads zero everywhere. -/
theorem zeros_apply (i : S50000x128.Idx) :
    broadcastInDim S50000x128 ![] bcast_S_S50000x128 (constant (F := Ideal) S_ .f32 0x00000000#32) i = 0 :=
  (broadcastInDim_apply _ bcast_S_S50000x128 _ i ix0 (fun a => a.elim0)).trans
    ((constant_apply _ _).trans Ideal.ofBits_zero_f32)

theorem reluOf_apply (x : Arr Ideal S50000x128 .f32) (i : S50000x128.Idx) : reluOf (F := Ideal) x i = max (x i) 0 := by
  unfold reluOf
  refine (maximumf_apply _ _ i).trans ?_
  rw [zeros_apply]

/-! ## One hop -/

/-- The self loop's coefficient repeated along the columns reads, at (r, q), its entry r. -/
theorem colBcast_apply (d : Arr Ideal S50000 .f32) (r : Fin 50000) (q : Fin 128) :
    broadcastInDim S50000x128 ![0, 1] bcast_S50000x1_S50000x128_0_1
      (broadcastInDim S50000x1 ![0] bcast_S50000_S50000x1_0 d) (ix2 r q) = d (ix1 r) := by
  refine (broadcastInDim_apply _ bcast_S50000x1_S50000x128_0_1 _ (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])).trans ?_
  exact broadcastInDim_apply _ bcast_S50000_S50000x1_0 d (ix2 r (0 : Fin 1)) (ix1 r) (fun a => match a with
    | ⟨0, _⟩ => by show r.val = if (50000 : Nat) = 1 then 0 else r.val; rw [if_neg (by decide)])

theorem hopOf_apply (ei : Arr Ideal S2x1600000 .i32) (ea : Arr Ideal S1600000x4 .f32) (Wg : Arr Ideal S128x128 .f32) (bg : Arr Ideal S128 .f32) (h : Arr Ideal S50000x128 .f32) (r : Fin 50000) (q : Fin 128) :
    hopOf (F := Ideal) ei ea Wg bg h (ix2 r q) = max (aggOf ei ea (linOf h Wg) (ix2 r q) + dsqOf ei ea (ix1 r) * linOf h Wg (ix2 r q) + bg (ix1 q)) 0 := by
  unfold hopOf
  generalize aggOf ei ea (linOf h Wg) = A
  generalize linOf h Wg = Lh
  generalize dsqOf ei ea = d
  rw [reluOf_apply, addf_apply, addf_apply, mulf_apply, colBcast_apply, biasOf_apply]

/-! ## The decoder -/

/-- The decoder's bias repeated along the rows reads, at (r, q), its entry q. -/
theorem bias3_apply (b : Arr Ideal S3 .f32) (r : Fin 50000) (q : Fin 3) :
    broadcastInDim S50000x3 ![0, 1] bcast_S1x3_S50000x3_0_1 (broadcastInDim S1x3 ![1] bcast_S3_S1x3_1 b) (ix2 r q) = b (ix1 q) := by
  refine (broadcastInDim_apply _ bcast_S1x3_S50000x3_0_1 _ (ix2 r q) (ix2 (0 : Fin 1) q) (fun a => match a with
    | ⟨0, _⟩ => by show 0 = if (1 : Nat) = 1 then 0 else r.val; rw [if_pos rfl]
    | ⟨1, _⟩ => by show q.val = if (3 : Nat) = 1 then 0 else q.val; rw [if_neg (by decide)])).trans ?_
  exact broadcastInDim_apply _ bcast_S3_S1x3_1 b (ix2 (0 : Fin 1) q) (ix1 q) (fun a => match a with
    | ⟨0, _⟩ => by show q.val = if (3 : Nat) = 1 then 0 else q.val; rw [if_neg (by decide)])

theorem decOf_apply (h : Arr Ideal S50000x128 .f32) (W1 : Arr Ideal S128x128 .f32) (b1 : Arr Ideal S128 .f32) (W2 : Arr Ideal S128x3 .f32) (b2 : Arr Ideal S3 .f32) (r : Fin 50000) (q : Fin 3) :
    decOf (F := Ideal) h W1 b1 W2 b2 (ix2 r q) = (∑ k : Fin 128, max (linOf h W1 (ix2 r k) + b1 (ix1 k)) 0 * W2 (ix2 k q)) + b2 (ix1 q) := by
  unfold decOf
  generalize linOf h W1 = Lh
  rw [addf_apply, bias3_apply, dotDec_apply]
  refine congrArg (· + b2 (ix1 q)) (Finset.sum_congr rfl fun k _ => ?_)
  rw [reluOf_apply, addf_apply, biasOf_apply]

/-! ## The encoder -/

theorem encOf_apply (x xm : Arr Ideal S50000x9 .f32) (W1 : Arr Ideal S16x128 .f32) (b1 : Arr Ideal S128 .f32) (W2 : Arr Ideal S128x128 .f32) (b2 : Arr Ideal S128 .f32) (r : Fin 50000) (q : Fin 128) :
    encOf (F := Ideal) x xm W1 b1 W2 b2 (ix2 r q) = (∑ k : Fin 128, encHidOf x xm W1 b1 (ix2 r k) * W2 (ix2 k q)) + b2 (ix1 q) := by
  unfold encOf
  generalize encHidOf x xm W1 b1 = H
  rw [addf_apply, biasOf_apply, linOf_apply]

/-- Column l < 8 of the joined features is column l of the node features. -/
theorem featOf_apply_left (x xm : Arr Ideal S50000x9 .f32) (r : Fin 50000) (l : Fin 8) :
    featOf (F := Ideal) x xm (ix2 r (Fin.castAdd 8 l)) = x (ix2 r (Fin.castLE (by decide) l)) := by
  unfold featOf
  refine (concatenate_pair_apply_left (1 : Fin S50000x16.rank) _ _ concatenates_S50000x8_S50000x8_S50000x16_d1
    (ix2 r (Fin.castAdd 8 l)) rfl (ix2 r l) (fun b => match b with
      | ⟨0, _⟩ => rfl
      | ⟨1, _⟩ => rfl)).trans ?_
  exact extractStridedSlice_apply ![0, 0] x slices_S50000x9_S50000x8_0_0 (ix2 r l) (ix2 r (Fin.castLE (by decide) l)) (fun a => match a with
    | ⟨0, _⟩ => by show r.val = 0 + r.val; omega
    | ⟨1, _⟩ => by show l.val = 0 + l.val; omega)

/-- Column 8 + l of the joined features is column l of the mask. -/
theorem featOf_apply_right (x xm : Arr Ideal S50000x9 .f32) (r : Fin 50000) (l : Fin 8) :
    featOf (F := Ideal) x xm (ix2 r (Fin.natAdd 8 l)) = xm (ix2 r (Fin.castLE (by decide) l)) := by
  unfold featOf
  refine (concatenate_pair_apply_right (1 : Fin S50000x16.rank) _ _ concatenates_S50000x8_S50000x8_S50000x16_d1
    (ix2 r (Fin.natAdd 8 l)) rfl rfl (ix2 r l) (fun b => match b with
      | ⟨0, _⟩ => fun _ => rfl
      | ⟨1, _⟩ => fun hne => absurd rfl hne)
    (by show l.val + 8 = 8 + l.val; omega)).trans ?_
  exact extractStridedSlice_apply ![0, 0] xm slices_S50000x9_S50000x8_0_0 (ix2 r l) (ix2 r (Fin.castLE (by decide) l)) (fun a => match a with
    | ⟨0, _⟩ => by show r.val = 0 + r.val; omega
    | ⟨1, _⟩ => by show l.val = 0 + l.val; omega)

theorem encHidOf_apply (x xm : Arr Ideal S50000x9 .f32) (W1 : Arr Ideal S16x128 .f32) (b1 : Arr Ideal S128 .f32) (r : Fin 50000) (k : Fin 128) :
    encHidOf (F := Ideal) x xm W1 b1 (ix2 r k) = max ((∑ l : Fin 8, x (ix2 r (Fin.castLE (by decide) l)) * W1 (ix2 (Fin.castAdd 8 l) k) + ∑ l : Fin 8, xm (ix2 r (Fin.castLE (by decide) l)) * W1 (ix2 (Fin.natAdd 8 l) k)) + b1 (ix1 k)) 0 := by
  unfold encHidOf
  rw [reluOf_apply, addf_apply, biasOf_apply, dotEnc_apply]
  refine congrArg (fun t => max (t + b1 (ix1 k)) 0) ?_
  refine (Fin.sum_univ_add (fun j : Fin (8 + 8) => featOf x xm (ix2 r j) * W1 (ix2 j k))).trans ?_
  refine congrArg₂ (· + ·) (Finset.sum_congr rfl fun l _ => ?_) (Finset.sum_congr rfl fun l _ => ?_)
  · rw [featOf_apply_left]
  · rw [featOf_apply_right]

end Cert.Gnn

end
-- ==== Proof.KBody.lean ====
/- The arithmetic of the kernel bodies read at an index, at the ideal instance (extended reals): the linear body is a
   128-term dot product, the combine body a rectified affine combination, the decoder and the encoder two chained
   products with a rectification between them. -/
import proofs.«150699_j61246233641684_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic ValueIdx

/-! ### The block product [5000,128] · [128,128], read at an index -/

theorem mmA_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mmA_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem mmA_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem mmA_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero accumulator the product at row `p`, column `q` is the exact sum over the 128 contracted positions. -/
theorem mmA_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun d => Fin.ext (by
      match d with
      | ⟨0, _⟩ => exact mmA_lhs0 _ _
      | ⟨1, _⟩ => exact (mmA_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun d => Fin.ext (by
      match d with
      | ⟨0, _⟩ => exact (mmA_rhs0 _ _).trans hk
      | ⟨1, _⟩ => exact mmA_rhs1 _ _)
  rw [el, er]

/-! ### The block product [5000,8] · [8,128], read at an index -/

theorem mmB_lhs0 (i : S5000x128.Idx) (c : dot_S5000x8_S8x128_S5000x128_1_0_0_1_n_n.contr.Idx) :
    (dot_S5000x8_S8x128_S5000x128_1_0_0_1_n_n.lhsIdx i c 0).val = (i 0).val := by
  unfold DotDims.lhsIdx
  rw [dif_neg (show ¬(0 : Fin S5000x8.rank) ∈ dot_S5000x8_S8x128_S5000x128_1_0_0_1_n_n.lhsBatch by decide),
    dif_pos (show (0 : Fin S5000x8.rank) ∈ dot_S5000x8_S8x128_S5000x128_1_0_0_1_n_n.lhsNonContracting by decide)]
  rfl
theorem mmB_lhs1 (i : S5000x128.Idx) (c : dot_S5000x8_S8x128_S5000x128_1_0_0_1_n_n.contr.Idx) :
    (dot_S5000x8_S8x128_S5000x128_1_0_0_1_n_n.lhsIdx i c 1).val = (c ⟨0, by decide⟩).val :=
  dot_S5000x8_S8x128_S5000x128_1_0_0_1_n_n.lhsIdx_val_of_single rfl i c
theorem mmB_rhs0 (i : S5000x128.Idx) (c : dot_S5000x8_S8x128_S5000x128_1_0_0_1_n_n.contr.Idx) :
    (dot_S5000x8_S8x128_S5000x128_1_0_0_1_n_n.rhsIdx i c 0).val = (c ⟨0, by decide⟩).val :=
  dot_S5000x8_S8x128_S5000x128_1_0_0_1_n_n.rhsIdx_val_of_single rfl i c
theorem mmB_rhs1 (i : S5000x128.Idx) (c : dot_S5000x8_S8x128_S5000x128_1_0_0_1_n_n.contr.Idx) :
    (dot_S5000x8_S8x128_S5000x128_1_0_0_1_n_n.rhsIdx i c 1).val = (i 1).val := by
  unfold DotDims.rhsIdx
  rw [dif_neg (show ¬(1 : Fin S8x128.rank) ∈ dot_S5000x8_S8x128_S5000x128_1_0_0_1_n_n.rhsBatch by decide),
    dif_pos (show (1 : Fin S8x128.rank) ∈ dot_S5000x8_S8x128_S5000x128_1_0_0_1_n_n.rhsNonContracting by decide)]
  rfl

/-- Into the zero accumulator the product at row `p`, column `q` is the exact sum over the 8 contracted positions. -/
theorem mmB_apply (a : FVec Ideal S5000x8 .bf16) (b : FVec Ideal S8x128 .bf16) (p : Fin 5000) (q : Fin 128) :
    matmul dot_S5000x8_S8x128_S5000x128_1_0_0_1_n_n none a b (constant S5000x128 .f32 0x00000000#32) (ix2 p q)
      = ∑ k : Fin 8, a (ix2 p k) * b (ix2 k q) := by
  refine (Ideal.matmul_constant_zero_apply dot_S5000x8_S8x128_S5000x128_1_0_0_1_n_n none a b (ix2 p q)).trans ?_
  rw [← Equiv.sum_comp (contrEquiv1 dot_S5000x8_S8x128_S5000x128_1_0_0_1_n_n 8 rfl rfl).symm]
  refine Finset.sum_congr rfl fun k _ => ?_
  have hk := contrEquiv1_symm_val dot_S5000x8_S8x128_S5000x128_1_0_0_1_n_n 8 rfl rfl k
  have el : dot_S5000x8_S8x128_S5000x128_1_0_0_1_n_n.lhsIdx (ix2 p q) ((contrEquiv1 dot_S5000x8_S8x128_S5000x128_1_0_0_1_n_n 8 rfl rfl).symm k) = ix2 p k :=
    funext fun d => Fin.ext (by
      match d with
      | ⟨0, _⟩ => exact mmB_lhs0 _ _
      | ⟨1, _⟩ => exact (mmB_lhs1 _ _).trans hk)
  have er : dot_S5000x8_S8x128_S5000x128_1_0_0_1_n_n.rhsIdx (ix2 p q) ((contrEquiv1 dot_S5000x8_S8x128_S5000x128_1_0_0_1_n_n 8 rfl rfl).symm k) = ix2 k q :=
    funext fun d => Fin.ext (by
      match d with
      | ⟨0, _⟩ => exact (mmB_rhs0 _ _).trans hk
      | ⟨1, _⟩ => exact mmB_rhs1 _ _)
  rw [el, er]

/-! ### The block product [5000,128] · [128,3], read at an index -/

theorem mmC_lhs0 (i : S5000x3.Idx) (c : dot_S5000x128_S128x3_S5000x3_1_0_0_1_n_n.contr.Idx) :
    (dot_S5000x128_S128x3_S5000x3_1_0_0_1_n_n.lhsIdx i c 0).val = (i 0).val := by
  unfold DotDims.lhsIdx
  rw [dif_neg (show ¬(0 : Fin S5000x128.rank) ∈ dot_S5000x128_S128x3_S5000x3_1_0_0_1_n_n.lhsBatch by decide),
    dif_pos (show (0 : Fin S5000x128.rank) ∈ dot_S5000x128_S128x3_S5000x3_1_0_0_1_n_n.lhsNonContracting by decide)]
  rfl
theorem mmC_lhs1 (i : S5000x3.Idx) (c : dot_S5000x128_S128x3_S5000x3_1_0_0_1_n_n.contr.Idx) :
    (dot_S5000x128_S128x3_S5000x3_1_0_0_1_n_n.lhsIdx i c 1).val = (c ⟨0, by decide⟩).val :=
  dot_S5000x128_S128x3_S5000x3_1_0_0_1_n_n.lhsIdx_val_of_single rfl i c
theorem mmC_rhs0 (i : S5000x3.Idx) (c : dot_S5000x128_S128x3_S5000x3_1_0_0_1_n_n.contr.Idx) :
    (dot_S5000x128_S128x3_S5000x3_1_0_0_1_n_n.rhsIdx i c 0).val = (c ⟨0, by decide⟩).val :=
  dot_S5000x128_S128x3_S5000x3_1_0_0_1_n_n.rhsIdx_val_of_single rfl i c
theorem mmC_rhs1 (i : S5000x3.Idx) (c : dot_S5000x128_S128x3_S5000x3_1_0_0_1_n_n.contr.Idx) :
    (dot_S5000x128_S128x3_S5000x3_1_0_0_1_n_n.rhsIdx i c 1).val = (i 1).val := by
  unfold DotDims.rhsIdx
  rw [dif_neg (show ¬(1 : Fin S128x3.rank) ∈ dot_S5000x128_S128x3_S5000x3_1_0_0_1_n_n.rhsBatch by decide),
    dif_pos (show (1 : Fin S128x3.rank) ∈ dot_S5000x128_S128x3_S5000x3_1_0_0_1_n_n.rhsNonContracting by decide)]
  rfl

/-- Into the zero accumulator the product at row `p`, column `q` is the exact sum over the 128 contracted positions. -/
theorem mmC_apply (a : FVec Ideal S5000x128 .bf16) (b : FVec Ideal S128x3 .bf16) (p : Fin 5000) (q : Fin 3) :
    matmul dot_S5000x128_S128x3_S5000x3_1_0_0_1_n_n none a b (constant S5000x3 .f32 0x00000000#32) (ix2 p q)
      = ∑ k : Fin 128, a (ix2 p k) * b (ix2 k q) := by
  refine (Ideal.matmul_constant_zero_apply dot_S5000x128_S128x3_S5000x3_1_0_0_1_n_n none a b (ix2 p q)).trans ?_
  rw [← Equiv.sum_comp (contrEquiv1 dot_S5000x128_S128x3_S5000x3_1_0_0_1_n_n 128 rfl rfl).symm]
  refine Finset.sum_congr rfl fun k _ => ?_
  have hk := contrEquiv1_symm_val dot_S5000x128_S128x3_S5000x3_1_0_0_1_n_n 128 rfl rfl k
  have el : dot_S5000x128_S128x3_S5000x3_1_0_0_1_n_n.lhsIdx (ix2 p q) ((contrEquiv1 dot_S5000x128_S128x3_S5000x3_1_0_0_1_n_n 128 rfl rfl).symm k) = ix2 p k :=
    funext fun d => Fin.ext (by
      match d with
      | ⟨0, _⟩ => exact mmC_lhs0 _ _
      | ⟨1, _⟩ => exact (mmC_lhs1 _ _).trans hk)
  have er : dot_S5000x128_S128x3_S5000x3_1_0_0_1_n_n.rhsIdx (ix2 p q) ((contrEquiv1 dot_S5000x128_S128x3_S5000x3_1_0_0_1_n_n 128 rfl rfl).symm k) = ix2 k q :=
    funext fun d => Fin.ext (by
      match d with
      | ⟨0, _⟩ => exact (mmC_rhs0 _ _).trans hk
      | ⟨1, _⟩ => exact mmC_rhs1 _ _)
  rw [el, er]

/-! ### Broadcasts read at an index -/

/-- A row vector broadcast down the 5000 rows reads its column. -/
theorem bc_row128 {α : Type} (x : S1x128.Idx → α) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A column vector broadcast across the 128 columns reads its row. -/
theorem bc_col128 {α : Type} (x : S5000x1.Idx → α) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- A 3-wide row vector broadcast down the 5000 rows reads its column. -/
theorem bc_row3 {α : Type} (x : S1x3.Idx → α) (p : Fin 5000) (q : Fin 3) :
    broadcastTo S5000x3 x broadcasts_S1x3_S5000x3 (ix2 p q) = x (ix2 (0 : Fin 1) q) :=
  broadcastTo_apply x broadcasts_S1x3_S5000x3 (ix2 p q) (ix2 (0 : Fin 1) q) (fun a => match a with
    | ⟨0, _⟩ => by show (0 : Nat) = if (1 : Nat) = 1 then 0 else p.val; rw [if_pos rfl]
    | ⟨1, _⟩ => by show q.val = if (3 : Nat) = 1 then 0 else q.val; rw [if_neg (by decide)])

/-! ### The two halves of the first weight, read at an index -/

/-- Rows 0..7 of the 16-row weight. -/
theorem slice_lo {α : Type} (x : S16x128.Idx → α) (l : Fin 8) (k : Fin 128) :
    extractStridedSlice S8x128 ![0, 0] x slices_S16x128_o0_0_S8x128 (ix2 l k) = x (ix2 (Fin.castAdd 8 l) k) :=
  extractStridedSlice_apply ![0, 0] x slices_S16x128_o0_0_S8x128 (ix2 l k) (ix2 (Fin.castAdd 8 l) k) (fun a => match a with
    | ⟨0, _⟩ => by show l.val = 0 + l.val; omega
    | ⟨1, _⟩ => by show k.val = 0 + k.val; omega)

/-- Rows 8..15 of the 16-row weight. -/
theorem slice_hi {α : Type} (x : S16x128.Idx → α) (l : Fin 8) (k : Fin 128) :
    extractStridedSlice S8x128 ![8, 0] x slices_S16x128_o8_0_S8x128 (ix2 l k) = x (ix2 (Fin.natAdd 8 l) k) :=
  extractStridedSlice_apply ![8, 0] x slices_S16x128_o8_0_S8x128 (ix2 l k) (ix2 (Fin.natAdd 8 l) k) (fun a => match a with
    | ⟨0, _⟩ => by show 8 + l.val = 8 + l.val; rfl
    | ⟨1, _⟩ => by show k.val = 0 + k.val; omega)

/-! ### The linear body -/

/-- The linear body at row `p`, column `q`: the dot product of row `p` of the block with column `q` of the weight. -/
theorem lin_pay (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [shapeCast_self]
  exact mmA_apply _ _ p q

theorem k3_eq : @k3_pay1 = @k1_pay1 := rfl
theorem k5_eq : @k5_pay1 = @k1_pay1 := rfl
theorem k7_eq : @k7_pay1 = @k1_pay1 := rfl

/-! ### The combine body -/

/-- The combine body at row `p`, column `q`: the self term plus the row's scale times the aggregate plus the bias,
    rectified. -/
theorem comb_pay (v0 : Vec Ideal S5000x128 .f32) (v2 : Vec Ideal S5000x1 .f32) (v4 : Vec Ideal S5000x128 .f32)
    (v9 : Vec Ideal S1x128 .f32) (p : Fin 5000) (q : Fin 128) :
    k2_pay1 (F := Ideal) v0 v2 v4 v9 (ix2 p q)
      = max (v0 (ix2 p q) + v2 (ix2 p (0 : Fin 1)) * v4 (ix2 p q) + v9 (ix2 (0 : Fin 1) q)) 0 := by
  unfold k2_pay1
  simp only [shapeCast_self]
  show max (v0 (ix2 p q) + broadcastTo S5000x128 v2 broadcasts_S5000x1_S5000x128 (ix2 p q) * v4 (ix2 p q)
      + broadcastTo S5000x128 v9 broadcasts_S1x128_S5000x128 (ix2 p q)) (Ideal.ofBits .f32 0x00000000#32) = _
  rw [bc_col128, bc_row128, Ideal.ofBits_zero_f32]

theorem k4_eq : @k4_pay1 = @k2_pay1 := rfl
theorem k6_eq : @k6_pay1 = @k2_pay1 := rfl
theorem k8_eq : @k8_pay1 = @k2_pay1 := rfl

/-! ### The decoder body -/

/-- The decoder body at row `p`, column `q`: a rectified affine layer followed by an affine layer. -/
theorem dec_pay (v0 : Vec Ideal S5000x128 .f32) (v3 : Vec Ideal S128x128 .f32) (v6 : Vec Ideal S1x128 .f32)
    (v13 : Vec Ideal S128x3 .f32) (v16 : Vec Ideal S1x3 .f32) (p : Fin 5000) (q : Fin 3) :
    k9_pay1 (F := Ideal) v0 v3 v6 v13 v16 (ix2 p q)
      = (∑ k : Fin 128, max ((∑ l : Fin 128, v0 (ix2 p l) * v3 (ix2 l k)) + v6 (ix2 (0 : Fin 1) k)) 0 * v13 (ix2 k q))
        + v16 (ix2 (0 : Fin 1) q) := by
  unfold k9_pay1
  simp only [shapeCast_self]
  refine (addf_apply _ _ (ix2 p q)).trans ?_
  rw [bc_row3, mmC_apply]
  refine congrArg (· + v16 (ix2 (0 : Fin 1) q)) (Finset.sum_congr rfl fun k _ => ?_)
  refine congrArg (· * v13 (ix2 k q)) ?_
  show max (matmul (F := Ideal) dot_S5000x128_S128x128_S5000x128_1_0_0_1_n_n none (truncf .bf16 v0 bitsLt_bf16_f32) (truncf .bf16 v3 bitsLt_bf16_f32)
        (constant S5000x128 .f32 0x00000000#32) (ix2 p k)
      + broadcastTo S5000x128 v6 broadcasts_S1x128_S5000x128 (ix2 p k)) (Ideal.ofBits .f32 0x00000000#32) = _
  rw [mmA_apply, bc_row128, Ideal.ofBits_zero_f32]
  rfl

/-! ### The encoder body -/

/-- The encoder body at row `p`, column `q`: the feature block against rows 0..7 of the first weight plus the mask block
    against rows 8..15, plus the bias, rectified; then the second affine layer. -/
theorem enc_pay (v0 v2 : Vec Ideal S5000x8 .f32) (v4 : Vec Ideal S16x128 .f32) (v11 : Vec Ideal S1x128 .f32)
    (v18 : Vec Ideal S128x128 .f32) (v21 : Vec Ideal S1x128 .f32) (p : Fin 5000) (q : Fin 128) :
    k0_pay1 (F := Ideal) v0 v2 v4 v11 v18 v21 (ix2 p q)
      = (∑ k : Fin 128, max ((∑ l : Fin 8, v0 (ix2 p l) * v4 (ix2 (Fin.castAdd 8 l) k)
            + ∑ l : Fin 8, v2 (ix2 p l) * v4 (ix2 (Fin.natAdd 8 l) k)) + v11 (ix2 (0 : Fin 1) k)) 0 * v18 (ix2 k q))
        + v21 (ix2 (0 : Fin 1) q) := by
  unfold k0_pay1
  simp only [shapeCast_self]
  refine (addf_apply _ _ (ix2 p q)).trans ?_
  rw [bc_row128, mmA_apply]
  refine congrArg (· + v21 (ix2 (0 : Fin 1) q)) (Finset.sum_congr rfl fun k _ => ?_)
  refine congrArg (· * v18 (ix2 k q)) ?_
  show max (matmul (F := Ideal) dot_S5000x8_S8x128_S5000x128_1_0_0_1_n_n none (truncf .bf16 v0 bitsLt_bf16_f32)
          (extractStridedSlice S8x128 ![0, 0] (truncf .bf16 v4 bitsLt_bf16_f32) slices_S16x128_o0_0_S8x128)
          (constant S5000x128 .f32 0x00000000#32) (ix2 p k)
        + matmul (F := Ideal) dot_S5000x8_S8x128_S5000x128_1_0_0_1_n_n none (truncf .bf16 v2 bitsLt_bf16_f32)
          (extractStridedSlice S8x128 ![8, 0] (truncf .bf16 v4 bitsLt_bf16_f32) slices_S16x128_o8_0_S8x128)
          (constant S5000x128 .f32 0x00000000#32) (ix2 p k)
        + broadcastTo S5000x128 v11 broadcasts_S1x128_S5000x128 (ix2 p k)) (Ideal.ofBits .f32 0x00000000#32) = _
  rw [mmB_apply, mmB_apply, bc_row128, Ideal.ofBits_zero_f32]
  simp only [slice_lo, slice_hi]
  rfl

end Cert.KernelIdeal.Body
-- ==== Proof.KReg0.lean ====
/- From blocks to the array for the encoder region: each of the ten grid points writes the rows of its block of the
   encoder's output, and the ten blocks tile the array. -/
import proofs.«150699_j61246233641684_1_alg».proof.Proof.Gen.KernelIdeal.Frame
import proofs.«150699_j61246233641684_1_alg».proof.Proof.Gen.ReferenceIdeal
import proofs.«150699_j61246233641684_1_alg».proof.Proof.Spec
import proofs.«150699_j61246233641684_1_alg».proof.Proof.SpecApply
import proofs.«150699_j61246233641684_1_alg».proof.Proof.KBody
import Idealize.ShloMosaic.Lib.ValueIdx
import Idealize.ShloMosaic.Lib.Pipeline.Value

noncomputable section

open scoped BigOperators

namespace Cert.KernelIdeal.Reg

open Cert.KernelIdeal Cert.KernelIdeal.Gen Cert.Gnn Idealize.ShloMosaic ValueIdx
open Idealize.ShloMosaic.TcCoe
open Idealize.ShloMosaic.Pipeline (Dat)

variable (V : (c : Dev nD) → (b : Ref sig .tc) → Buf (Elt Ideal) ((c : Thread nD τ).loc b))

theorem hzE : (![0, 0] : Fin 2 → Nat) = fun _ => 0 := funext fun a => by fin_cases a <;> rfl

/-- The encoder body on blocks holding the first eight columns of rows `T * 5000 …` of the features and of the mask,
    against the two weights and the two bias rows, is the encoder at those rows. -/
theorem enc_block (X0 X1 : Vec Ideal S5000x8 .f32) (X2 : Vec Ideal S16x128 .f32) (X3 : Vec Ideal S1x128 .f32)
    (X4 : Vec Ideal S128x128 .f32) (X5 : Vec Ideal S1x128 .f32)
    (x xm : Arr Ideal Cert.ReferenceIdeal.S50000x9 .f32) (W1 : Arr Ideal Cert.ReferenceIdeal.S16x128 .f32)
    (b1 : Arr Ideal Cert.ReferenceIdeal.S128 .f32) (W2 : Arr Ideal Cert.ReferenceIdeal.S128x128 .f32)
    (b2 : Arr Ideal Cert.ReferenceIdeal.S128 .f32) (T : Nat) (hT : T < 10)
    (h0 : ∀ (p : Fin 5000) (l : Fin 8),
      X0 (ix2 p l) = x (ix2 ⟨T * 5000 + p.val, by omega⟩ (Fin.castLE (by decide) l)))
    (h1 : ∀ (p : Fin 5000) (l : Fin 8),
      X1 (ix2 p l) = xm (ix2 ⟨T * 5000 + p.val, by omega⟩ (Fin.castLE (by decide) l)))
    (h2 : ∀ (a : Fin 16) (k : Fin 128), X2 (ix2 a k) = W1 (ix2 a k))
    (h3 : ∀ k : Fin 128, X3 (ix2 (0 : Fin 1) k) = b1 (ix1 k))
    (h4 : ∀ k q : Fin 128, X4 (ix2 k q) = W2 (ix2 k q))
    (h5 : ∀ q : Fin 128, X5 (ix2 (0 : Fin 1) q) = b2 (ix1 q)) (p : Fin 5000) (q : Fin 128) :
    k0_pay1 (F := Ideal) X0 X1 X2 X3 X4 X5 (ix2 p q)
      = encOf (F := Ideal) x xm W1 b1 W2 b2 (ix2 ⟨T * 5000 + p.val, by omega⟩ q) := by
  rw [Body.enc_pay, encOf_apply, h5]
  refine congrArg (· + b2 (ix1 q)) (Finset.sum_congr rfl fun k _ => ?_)
  rw [encHidOf_apply, h3, h4]
  refine congrArg (fun s => max (s + b1 (ix1 k)) 0 * W2 (ix2 k q)) ?_
  refine congrArg₂ (· + ·) (Finset.sum_congr rfl fun l _ => ?_) (Finset.sum_congr rfl fun l _ => ?_)
  · exact congrArg₂ (· * ·) (h0 p l) (h2 (Fin.castAdd 8 l) k)
  · exact congrArg₂ (· * ·) (h1 p l) (h2 (Fin.natAdd 8 l) k)

/-! ## Region 0: the encoder, block by block -/

/-- The printed index maps, decided over the grid: a row-tiled window sits at block (t, 0), a whole-array window at (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ t.val < 10 :=
  (by decide +kernel : ∀ t : Fin grid0.N, _)

/-- The first eight columns the body loads of window 0's block at point `t`, read at literal coordinates, are the array
    `main_arg0` at the block's place. -/
theorem blk0_0 (c : Dev nD) (t : Fin cfg0.N) (p : Fin 5000) (l : Fin 8) (hr : t.val * 5000 + p.val < 50000) :
    View.ld (iblk0 V c 0 t) r0_0 (ix2 p l)
      = V c main_arg0 (ix2 ⟨t.val * 5000 + p.val, hr⟩ (Fin.castLE (by decide) l)) := by
  obtain ⟨e0, e1, e2, e3, e4, e5, e6, e7, e8, e9, e10, e11, e12, e13, e14⟩ := idx_facts0 t
  show V c main_arg0 (((cfg0.win 0).blk t).view.emb (r0_0.emb (ix2 p l))) = _
  refine congrArg (V c main_arg0) (funext fun a => Fin.ext ?_)
  match a with
  | ⟨0, _⟩ => show win0_0.index t (0 : Fin 2) * 5000 + 1 * (0 + 1 * p.val) = t.val * 5000 + p.val; rw [e0]; omega
  | ⟨1, _⟩ => show win0_0.index t (1 : Fin 2) * 9 + 1 * (0 + 1 * l.val) = l.val; rw [e1]; omega

/-- The first eight columns the body loads of window 1's block at point `t`, read at literal coordinates, are the array
    `main_arg1` at the block's place. -/
theorem blk0_1 (c : Dev nD) (t : Fin cfg0.N) (p : Fin 5000) (l : Fin 8) (hr : t.val * 5000 + p.val < 50000) :
    View.ld (iblk0 V c 1 t) r0_0 (ix2 p l)
      = V c main_arg1 (ix2 ⟨t.val * 5000 + p.val, hr⟩ (Fin.castLE (by decide) l)) := by
  obtain ⟨e0, e1, e2, e3, e4, e5, e6, e7, e8, e9, e10, e11, e12, e13, e14⟩ := idx_facts0 t
  show V c main_arg1 (((cfg0.win 1).blk t).view.emb (r0_0.emb (ix2 p l))) = _
  refine congrArg (V c main_arg1) (funext fun a => Fin.ext ?_)
  match a with
  | ⟨0, _⟩ => show win0_1.index t (0 : Fin 2) * 5000 + 1 * (0 + 1 * p.val) = t.val * 5000 + p.val; rw [e2]; omega
  | ⟨1, _⟩ => show win0_1.index t (1 : Fin 2) * 9 + 1 * (0 + 1 * l.val) = l.val; rw [e3]; omega

/-- Window 2's block at point `t`, read at literal coordinates, is the array `main_arg5` at the block's place. -/
theorem blk0_2 (c : Dev nD) (t : Fin cfg0.N) (p : Fin 16) (q : Fin 128) :
    iblk0 V c 2 t (ix2 p q) = V c main_arg5 (ix2 p q) := by
  obtain ⟨e0, e1, e2, e3, e4, e5, e6, e7, e8, e9, e10, e11, e12, e13, e14⟩ := idx_facts0 t
  show V c main_arg5 (((cfg0.win 2).blk t).view.emb (ix2 p q)) = _
  refine congrArg (V c main_arg5) (funext fun a => Fin.ext ?_)
  match a with
  | ⟨0, _⟩ => show win0_2.index t (0 : Fin 2) * 16 + 1 * p.val = p.val; rw [e4]; omega
  | ⟨1, _⟩ => show win0_2.index t (1 : Fin 2) * 128 + 1 * q.val = q.val; rw [e5]; omega

/-- Window 3's block at point `t`, read at literal coordinates, is the array `main_v36` at the block's place. -/
theorem blk0_3 (c : Dev nD) (t : Fin cfg0.N) (q : Fin 128) :
    iblk0 V c 3 t (ix2 (0 : Fin 1) q) = V c main_v36 (ix2 (0 : Fin 1) q) := by
  obtain ⟨e0, e1, e2, e3, e4, e5, e6, e7, e8, e9, e10, e11, e12, e13, e14⟩ := idx_facts0 t
  show V c main_v36 (((cfg0.win 3).blk t).view.emb (ix2 (0 : Fin 1) q)) = _
  refine congrArg (V c main_v36) (funext fun a => Fin.ext ?_)
  match a with
  | ⟨0, _⟩ => show win0_3.index t (0 : Fin 2) * 1 + 1 * 0 = 0; rw [e6]
  | ⟨1, _⟩ => show win0_3.index t (1 : Fin 2) * 128 + 1 * q.val = q.val; rw [e7]; omega

/-- Window 4's block at point `t`, read at literal coordinates, is the array `main_arg7` at the block's place. -/
theorem blk0_4 (c : Dev nD) (t : Fin cfg0.N) (p : Fin 128) (q : Fin 128) :
    iblk0 V c 4 t (ix2 p q) = V c main_arg7 (ix2 p q) := by
  obtain ⟨e0, e1, e2, e3, e4, e5, e6, e7, e8, e9, e10, e11, e12, e13, e14⟩ := idx_facts0 t
  show V c main_arg7 (((cfg0.win 4).blk t).view.emb (ix2 p q)) = _
  refine congrArg (V c main_arg7) (funext fun a => Fin.ext ?_)
  match a with
  | ⟨0, _⟩ => show win0_4.index t (0 : Fin 2) * 128 + 1 * p.val = p.val; rw [e8]; omega
  | ⟨1, _⟩ => show win0_4.index t (1 : Fin 2) * 128 + 1 * q.val = q.val; rw [e9]; omega

/-- Window 5's block at point `t`, read at literal coordinates, is the array `main_v37` at the block's place. -/
theorem blk0_5 (c : Dev nD) (t : Fin cfg0.N) (q : Fin 128) :
    iblk0 V c 5 t (ix2 (0 : Fin 1) q) = V c main_v37 (ix2 (0 : Fin 1) q) := by
  obtain ⟨e0, e1, e2, e3, e4, e5, e6, e7, e8, e9, e10, e11, e12, e13, e14⟩ := idx_facts0 t
  show V c main_v37 (((cfg0.win 5).blk t).view.emb (ix2 (0 : Fin 1) q)) = _
  refine congrArg (V c main_v37) (funext fun a => Fin.ext ?_)
  match a with
  | ⟨0, _⟩ => show win0_5.index t (0 : Fin 2) * 1 + 1 * 0 = 0; rw [e10]
  | ⟨1, _⟩ => show win0_5.index t (1 : Fin 2) * 128 + 1 * q.val = q.val; rw [e11]; omega

/-- WHAT POINT `t` WRITES BACK is block `t` of any array `G` whose rows `t * 5000 …` the body computes from the
    point's blocks. -/
theorem flushed0_of (c : Dev nD) (G : Arr Ideal Cert.ReferenceIdeal.S50000x128 .f32) (t : Fin cfg0.N) (hT : t.val < 10)
    (hG : ∀ (p : Fin 5000) (q : Fin 128),
      k0_pay1 (F := Ideal) (View.ld (iblk0 V c 0 t) r0_0) (View.ld (iblk0 V c 1 t) r0_0) (iblk0 V c 2 t) (iblk0 V c 3 t) (iblk0 V c 4 t) (iblk0 V c 5 t) (ix2 p q)
        = G (ix2 ⟨t.val * 5000 + p.val, by omega⟩ q)) :
    (dat0 V c).flushed 6 t = ((cfg0.win 6).blk t).view.read (Elt Ideal) G := by
  show (cfg0.win 6).cut (grid0.coords t) ((dat0 V c).after 6 t) = _
  rw [after0_6]
  unfold out0_6
  rw [View.canon_unit_zero hzE]
  simp only [View.ld_unit_zero (S := S16x128) hzE,
    View.ld_unit_zero (S := S1x128) hzE,
    View.ld_unit_zero (S := S128x128) hzE]
  obtain ⟨e0, e1, e2, e3, e4, e5, e6, e7, e8, e9, e10, e11, e12, e13, e14⟩ := idx_facts0 t
  refine funext fun (j : S5000x128.Idx) => ?_
  obtain ⟨p, q, rfl⟩ : ∃ (p : Fin 5000) (q : Fin 128), j = ix2 p q := ⟨j 0, j 1, eq_ix2 j⟩
  show k0_pay1 (F := Ideal) (View.ld (iblk0 V c 0 t) r0_0) (View.ld (iblk0 V c 1 t) r0_0) (iblk0 V c 2 t) (iblk0 V c 3 t) (iblk0 V c 4 t) (iblk0 V c 5 t) (ix2 p q)
      = G (((cfg0.win 6).blk t).view.emb (ix2 p q))
  refine (hG p q).trans (congrArg G (funext fun a => Fin.ext ?_))
  match a with
  | ⟨0, _⟩ => show t.val * 5000 + p.val = win0_6.index t (0 : Fin 2) * 5000 + 1 * p.val; rw [e12]; omega
  | ⟨1, _⟩ => show q.val = win0_6.index t (1 : Fin 2) * 128 + 1 * q.val; rw [e13]; omega

/-- An index of the array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v38).slice (win0_6.rect t)).set ↔ _
  rw [View.set_slice_whole, Rect.mem_set_unit]
  exact Iff.rfl

/-- Every row lies in the block of the point numbered by its quotient by 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := by decide
  obtain ⟨t, ht⟩ : ∃ t : Fin cfg0.N, t.val = (i 0).val / 5000 := ⟨⟨(i 0).val / 5000, by rw [hN]; omega⟩, rfl⟩
  refine ⟨t, flush0_6 t, ?_⟩
  rw [mem_blk0]
  obtain ⟨e0, e1, e2, e3, e4, e5, e6, e7, e8, e9, e10, e11, e12, e13, e14⟩ := idx_facts0 t
  intro a
  match a with
  | ⟨0, _⟩ =>
    show win0_6.index t (0 : Fin 2) * 5000 ≤ (i 0).val ∧ (i 0).val < win0_6.index t (0 : Fin 2) * 5000 + 5000
    rw [e12, ht]; omega
  | ⟨1, _⟩ =>
    show win0_6.index t (1 : Fin 2) * 128 ≤ (i 1).val ∧ (i 1).val < win0_6.index t (1 : Fin 2) * 128 + 128
    rw [e13]; omega

/-- WHAT POINT `t` WRITES BACK is block `t` of the encoder of the features and the mask, when the region finds them,
    the two weights and the two biases (as rows) in its arrays. -/
theorem flushed0_eq (c : Dev nD) (x xm : Arr Ideal Cert.ReferenceIdeal.S50000x9 .f32) (W1 : Arr Ideal Cert.ReferenceIdeal.S16x128 .f32)
    (b1 : Arr Ideal Cert.ReferenceIdeal.S128 .f32) (W2 : Arr Ideal Cert.ReferenceIdeal.S128x128 .f32)
    (b2 : Arr Ideal Cert.ReferenceIdeal.S128 .f32)
    (h0 : V c main_arg0 = x) (h1 : V c main_arg1 = xm) (h2 : V c main_arg5 = W1)
    (h3 : ∀ q : Fin 128, V c main_v36 (ix2 (0 : Fin 1) q) = b1 (ix1 q)) (h4 : V c main_arg7 = W2)
    (h5 : ∀ q : Fin 128, V c main_v37 (ix2 (0 : Fin 1) q) = b2 (ix1 q)) (t : Fin cfg0.N) :
    (dat0 V c).flushed 6 t
      = ((cfg0.win 6).blk t).view.read (Elt Ideal) (encOf (F := Ideal) x xm W1 b1 W2 b2) := by
  obtain ⟨-, -, -, -, -, -, -, -, -, -, -, -, -, -, hT⟩ := idx_facts0 t
  exact flushed0_of V c (encOf (F := Ideal) x xm W1 b1 W2 b2) t hT fun p q =>
    enc_block (View.ld (iblk0 V c 0 t) r0_0) (View.ld (iblk0 V c 1 t) r0_0) (iblk0 V c 2 t) (iblk0 V c 3 t)
      (iblk0 V c 4 t) (iblk0 V c 5 t) x xm W1 b1 W2 b2 t.val hT
      (fun p l => (blk0_0 V c t p l (by omega)).trans (congrFun h0 _))
      (fun p l => (blk0_1 V c t p l (by omega)).trans (congrFun h1 _))
      (fun a k => (blk0_2 V c t a k).trans (congrFun h2 _))
      (fun k => (blk0_3 V c t k).trans (h3 k))
      (fun k q => (blk0_4 V c t k q).trans (congrFun h4 _))
      (fun q => (blk0_5 V c t q).trans (h5 q)) p q

/-- THE ARRAY after region 0: the encoder of the features and the mask. -/
theorem final0 (c : Dev nD) (x xm : Arr Ideal Cert.ReferenceIdeal.S50000x9 .f32) (W1 : Arr Ideal Cert.ReferenceIdeal.S16x128 .f32)
    (b1 : Arr Ideal Cert.ReferenceIdeal.S128 .f32) (W2 : Arr Ideal Cert.ReferenceIdeal.S128x128 .f32)
    (b2 : Arr Ideal Cert.ReferenceIdeal.S128 .f32)
    (h0 : V c main_arg0 = x) (h1 : V c main_arg1 = xm) (h2 : V c main_arg5 = W1)
    (h3 : ∀ q : Fin 128, V c main_v36 (ix2 (0 : Fin 1) q) = b1 (ix1 q)) (h4 : V c main_arg7 = W2)
    (h5 : ∀ q : Fin 128, V c main_v37 (ix2 (0 : Fin 1) q) = b2 (ix1 q)) :
    (dat0 V c).arrAt 6 cfg0.N = encOf (F := Ideal) x xm W1 b1 W2 b2 :=
  (dat0 V c).arrAt_eq_of_cover 6 _ (fun t _ => flushed0_eq V c x xm W1 b1 W2 b2 h0 h1 h2 h3 h4 h5 t) (cover0)

end Cert.KernelIdeal.Reg
-- ==== Proof.KReg1.lean ====
/- From blocks to the array for the four linear regions: each of the ten grid points writes the rows of its block of the
   product of the node features and the weight, and the ten blocks tile the array. -/
import proofs.«150699_j61246233641684_1_alg».proof.Proof.Gen.KernelIdeal.Frame
import proofs.«150699_j61246233641684_1_alg».proof.Proof.Gen.ReferenceIdeal
import proofs.«150699_j61246233641684_1_alg».proof.Proof.Spec
import proofs.«150699_j61246233641684_1_alg».proof.Proof.SpecApply
import proofs.«150699_j61246233641684_1_alg».proof.Proof.KBody
import Idealize.ShloMosaic.Lib.ValueIdx
import Idealize.ShloMosaic.Lib.Pipeline.Value

noncomputable section

open scoped BigOperators

namespace Cert.KernelIdeal.Reg

open Cert.KernelIdeal Cert.KernelIdeal.Gen Cert.Gnn Idealize.ShloMosaic ValueIdx
open Idealize.ShloMosaic.TcCoe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The linear body on a block whose rows are rows `T * 5000 …` of the array `H`, against the whole weight `W`,
    is the product `H W` at those rows. -/
theorem lin_block (X0 : Vec Ideal S5000x128 .f32) (X1 : Vec Ideal S128x128 .f32)
    (H : Arr Ideal Cert.ReferenceIdeal.S50000x128 .f32) (W : Arr Ideal Cert.ReferenceIdeal.S128x128 .f32)
    (T : Nat) (hT : T < 10)
    (h0 : ∀ (p : Fin 5000) (k : Fin 128), X0 (ix2 p k) = H (ix2 ⟨T * 5000 + p.val, by omega⟩ k))
    (h1 : ∀ k q : Fin 128, X1 (ix2 k q) = W (ix2 k q)) (p : Fin 5000) (q : Fin 128) :
    k1_pay1 (F := Ideal) X0 X1 (ix2 p q) = linOf (F := Ideal) H W (ix2 ⟨T * 5000 + p.val, by omega⟩ q) := by
  rw [Body.lin_pay, linOf_apply]
  exact Finset.sum_congr rfl fun k _ => by rw [h0, h1]

/-! ## Region 1: a linear layer, block by block -/

/-- The printed index maps, decided over the grid: the row-tiled windows sit at block (t, 0), the weight at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- WHAT POINT `t` WRITES BACK is block `t` of the product of the two arrays as the region finds them. -/
theorem flushed1_eq (c : Dev nD) (t : Fin cfg1.N) :
    (dat1 V c).flushed 2 t
      = ((cfg1.win 2).blk t).view.read (Elt Ideal) (linOf (F := Ideal) (V c main_v38) (V c main_arg9)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5, e6⟩ := idx_facts1 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
      = linOf (F := Ideal) (V c main_v38) (V c main_arg9) (((cfg1.win 2).blk t).view.emb (ix2 p q))
  refine (lin_block (iblk1 V c 0 t) (iblk1 V c 1 t) (V c main_v38) (V c main_arg9) t.val e6 ?_ ?_ p q).trans ?_
  · intro p k
    show V c main_v38 (((cfg1.win 0).blk t).view.emb (ix2 p k)) = _
    refine congrArg (V c main_v38) (funext fun a => Fin.ext ?_)
    match a with
    | ⟨0, _⟩ => show win1_0.index t (0 : Fin 2) * 5000 + 1 * p.val = t.val * 5000 + p.val; rw [e0]; omega
    | ⟨1, _⟩ => show win1_0.index t (1 : Fin 2) * 128 + 1 * k.val = k.val; rw [e1]; omega
  · intro k q
    show V c main_arg9 (((cfg1.win 1).blk t).view.emb (ix2 k q)) = _
    refine congrArg (V c main_arg9) (funext fun a => Fin.ext ?_)
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  · refine congrArg (linOf (F := Ideal) (V c main_v38) (V c main_arg9)) (funext fun a => Fin.ext ?_)
    match a with
    | ⟨0, _⟩ => show t.val * 5000 + p.val = win1_2.index t (0 : Fin 2) * 5000 + 1 * p.val; rw [e4]; omega
    | ⟨1, _⟩ => show q.val = win1_2.index t (1 : Fin 2) * 128 + 1 * q.val; rw [e5]; omega

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v39).slice (win1_2.rect t)).set ↔ _
  rw [View.set_slice_whole, Rect.mem_set_unit]
  exact Iff.rfl

/-- Every row lies in the block of the point numbered by its quotient by 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := by decide
  obtain ⟨t, ht⟩ : ∃ t : Fin cfg1.N, t.val = (i 0).val / 5000 := ⟨⟨(i 0).val / 5000, by rw [hN]; omega⟩, rfl⟩
  refine ⟨t, flush1_2 t, ?_⟩
  rw [mem_blk1]
  obtain ⟨e0, e1, e2, e3, e4, e5, e6⟩ := idx_facts1 t
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- THE ARRAY after region 1: the product of the node features and the weight. -/
theorem final1 (c : Dev nD) (H : Arr Ideal Cert.ReferenceIdeal.S50000x128 .f32) (W : Arr Ideal Cert.ReferenceIdeal.S128x128 .f32)
    (hH : V c main_v38 = H) (hW : V c main_arg9 = W) : (dat1 V c).arrAt 2 cfg1.N = linOf (F := Ideal) H W := by
  subst hH hW
  exact (dat1 V c).arrAt_eq_of_cover 2 _ (fun t _ => flushed1_eq V c t) (cover1)

/-! ## Region 3: a linear layer, block by block -/

/-- The printed index maps, decided over the grid: the row-tiled windows sit at block (t, 0), the weight at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- WHAT POINT `t` WRITES BACK is block `t` of the product of the two arrays as the region finds them. -/
theorem flushed3_eq (c : Dev nD) (t : Fin cfg3.N) :
    (dat3 V c).flushed 2 t
      = ((cfg3.win 2).blk t).view.read (Elt Ideal) (linOf (F := Ideal) (V c main_v54) (V c main_arg9)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  rw [Body.k3_eq]
  obtain ⟨e0, e1, e2, e3, e4, e5, e6⟩ := idx_facts3 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk3 V c 0 t) (iblk3 V c 1 t) (ix2 p q)
      = linOf (F := Ideal) (V c main_v54) (V c main_arg9) (((cfg3.win 2).blk t).view.emb (ix2 p q))
  refine (lin_block (iblk3 V c 0 t) (iblk3 V c 1 t) (V c main_v54) (V c main_arg9) t.val e6 ?_ ?_ p q).trans ?_
  · intro p k
    show V c main_v54 (((cfg3.win 0).blk t).view.emb (ix2 p k)) = _
    refine congrArg (V c main_v54) (funext fun a => Fin.ext ?_)
    match a with
    | ⟨0, _⟩ => show win3_0.index t (0 : Fin 2) * 5000 + 1 * p.val = t.val * 5000 + p.val; rw [e0]; omega
    | ⟨1, _⟩ => show win3_0.index t (1 : Fin 2) * 128 + 1 * k.val = k.val; rw [e1]; omega
  · intro k q
    show V c main_arg9 (((cfg3.win 1).blk t).view.emb (ix2 k q)) = _
    refine congrArg (V c main_arg9) (funext fun a => Fin.ext ?_)
    match a with
    | ⟨0, _⟩ => show win3_1.index t (0 : Fin 2) * 128 + 1 * k.val = k.val; rw [e2]; omega
    | ⟨1, _⟩ => show win3_1.index t (1 : Fin 2) * 128 + 1 * q.val = q.val; rw [e3]; omega
  · refine congrArg (linOf (F := Ideal) (V c main_v54) (V c main_arg9)) (funext fun a => Fin.ext ?_)
    match a with
    | ⟨0, _⟩ => show t.val * 5000 + p.val = win3_2.index t (0 : Fin 2) * 5000 + 1 * p.val; rw [e4]; omega
    | ⟨1, _⟩ => show q.val = win3_2.index t (1 : Fin 2) * 128 + 1 * q.val; rw [e5]; omega

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v55).slice (win3_2.rect t)).set ↔ _
  rw [View.set_slice_whole, Rect.mem_set_unit]
  exact Iff.rfl

/-- Every row lies in the block of the point numbered by its quotient by 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := by decide
  obtain ⟨t, ht⟩ : ∃ t : Fin cfg3.N, t.val = (i 0).val / 5000 := ⟨⟨(i 0).val / 5000, by rw [hN]; omega⟩, rfl⟩
  refine ⟨t, flush3_2 t, ?_⟩
  rw [mem_blk3]
  obtain ⟨e0, e1, e2, e3, e4, e5, e6⟩ := idx_facts3 t
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 128 ≤ (i 1).val ∧ (i 1).val < win3_2.index t (1 : Fin 2) * 128 + 128
    rw [e5]; omega

/-- THE ARRAY after region 3: the product of the node features and the weight. -/
theorem final3 (c : Dev nD) (H : Arr Ideal Cert.ReferenceIdeal.S50000x128 .f32) (W : Arr Ideal Cert.ReferenceIdeal.S128x128 .f32)
    (hH : V c main_v54 = H) (hW : V c main_arg9 = W) : (dat3 V c).arrAt 2 cfg3.N = linOf (F := Ideal) H W := by
  subst hH hW
  exact (dat3 V c).arrAt_eq_of_cover 2 _ (fun t _ => flushed3_eq V c t) (cover3)

/-! ## Region 5: a linear layer, block by block -/

/-- The printed index maps, decided over the grid: the row-tiled windows sit at block (t, 0), the weight at (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

/-- WHAT POINT `t` WRITES BACK is block `t` of the product of the two arrays as the region finds them. -/
theorem flushed5_eq (c : Dev nD) (t : Fin cfg5.N) :
    (dat5 V c).flushed 2 t
      = ((cfg5.win 2).blk t).view.read (Elt Ideal) (linOf (F := Ideal) (V c main_v70) (V c main_arg9)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  rw [Body.k5_eq]
  obtain ⟨e0, e1, e2, e3, e4, e5, e6⟩ := idx_facts5 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk5 V c 0 t) (iblk5 V c 1 t) (ix2 p q)
      = linOf (F := Ideal) (V c main_v70) (V c main_arg9) (((cfg5.win 2).blk t).view.emb (ix2 p q))
  refine (lin_block (iblk5 V c 0 t) (iblk5 V c 1 t) (V c main_v70) (V c main_arg9) t.val e6 ?_ ?_ p q).trans ?_
  · intro p k
    show V c main_v70 (((cfg5.win 0).blk t).view.emb (ix2 p k)) = _
    refine congrArg (V c main_v70) (funext fun a => Fin.ext ?_)
    match a with
    | ⟨0, _⟩ => show win5_0.index t (0 : Fin 2) * 5000 + 1 * p.val = t.val * 5000 + p.val; rw [e0]; omega
    | ⟨1, _⟩ => show win5_0.index t (1 : Fin 2) * 128 + 1 * k.val = k.val; rw [e1]; omega
  · intro k q
    show V c main_arg9 (((cfg5.win 1).blk t).view.emb (ix2 k q)) = _
    refine congrArg (V c main_arg9) (funext fun a => Fin.ext ?_)
    match a with
    | ⟨0, _⟩ => show win5_1.index t (0 : Fin 2) * 128 + 1 * k.val = k.val; rw [e2]; omega
    | ⟨1, _⟩ => show win5_1.index t (1 : Fin 2) * 128 + 1 * q.val = q.val; rw [e3]; omega
  · refine congrArg (linOf (F := Ideal) (V c main_v70) (V c main_arg9)) (funext fun a => Fin.ext ?_)
    match a with
    | ⟨0, _⟩ => show t.val * 5000 + p.val = win5_2.index t (0 : Fin 2) * 5000 + 1 * p.val; rw [e4]; omega
    | ⟨1, _⟩ => show q.val = win5_2.index t (1 : Fin 2) * 128 + 1 * q.val; rw [e5]; omega

/-- An index of the array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v71).slice (win5_2.rect t)).set ↔ _
  rw [View.set_slice_whole, Rect.mem_set_unit]
  exact Iff.rfl

/-- Every row lies in the block of the point numbered by its quotient by 5000. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := by decide
  obtain ⟨t, ht⟩ : ∃ t : Fin cfg5.N, t.val = (i 0).val / 5000 := ⟨⟨(i 0).val / 5000, by rw [hN]; omega⟩, rfl⟩
  refine ⟨t, flush5_2 t, ?_⟩
  rw [mem_blk5]
  obtain ⟨e0, e1, e2, e3, e4, e5, e6⟩ := idx_facts5 t
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 128 ≤ (i 1).val ∧ (i 1).val < win5_2.index t (1 : Fin 2) * 128 + 128
    rw [e5]; omega

/-- THE ARRAY after region 5: the product of the node features and the weight. -/
theorem final5 (c : Dev nD) (H : Arr Ideal Cert.ReferenceIdeal.S50000x128 .f32) (W : Arr Ideal Cert.ReferenceIdeal.S128x128 .f32)
    (hH : V c main_v70 = H) (hW : V c main_arg9 = W) : (dat5 V c).arrAt 2 cfg5.N = linOf (F := Ideal) H W := by
  subst hH hW
  exact (dat5 V c).arrAt_eq_of_cover 2 _ (fun t _ => flushed5_eq V c t) (cover5)

/-! ## Region 7: a linear layer, block by block -/

/-- The printed index maps, decided over the grid: the row-tiled windows sit at block (t, 0), the weight at (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 10 :=
  (by decide +kernel : ∀ t : Fin grid7.N, _)

/-- WHAT POINT `t` WRITES BACK is block `t` of the product of the two arrays as the region finds them. -/
theorem flushed7_eq (c : Dev nD) (t : Fin cfg7.N) :
    (dat7 V c).flushed 2 t
      = ((cfg7.win 2).blk t).view.read (Elt Ideal) (linOf (F := Ideal) (V c main_v86) (V c main_arg9)) := by
  show (cfg7.win 2).cut (grid7.coords t) ((dat7 V c).after 2 t) = _
  rw [after7_2]
  unfold out7_2
  rw [View.canon_unit_zero hz]
  simp only [View.ld_unit_zero (S := S5000x128) hz, View.ld_unit_zero (S := S128x128) hz]
  rw [Body.k7_eq]
  obtain ⟨e0, e1, e2, e3, e4, e5, e6⟩ := idx_facts7 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk7 V c 0 t) (iblk7 V c 1 t) (ix2 p q)
      = linOf (F := Ideal) (V c main_v86) (V c main_arg9) (((cfg7.win 2).blk t).view.emb (ix2 p q))
  refine (lin_block (iblk7 V c 0 t) (iblk7 V c 1 t) (V c main_v86) (V c main_arg9) t.val e6 ?_ ?_ p q).trans ?_
  · intro p k
    show V c main_v86 (((cfg7.win 0).blk t).view.emb (ix2 p k)) = _
    refine congrArg (V c main_v86) (funext fun a => Fin.ext ?_)
    match a with
    | ⟨0, _⟩ => show win7_0.index t (0 : Fin 2) * 5000 + 1 * p.val = t.val * 5000 + p.val; rw [e0]; omega
    | ⟨1, _⟩ => show win7_0.index t (1 : Fin 2) * 128 + 1 * k.val = k.val; rw [e1]; omega
  · intro k q
    show V c main_arg9 (((cfg7.win 1).blk t).view.emb (ix2 k q)) = _
    refine congrArg (V c main_arg9) (funext fun a => Fin.ext ?_)
    match a with
    | ⟨0, _⟩ => show win7_1.index t (0 : Fin 2) * 128 + 1 * k.val = k.val; rw [e2]; omega
    | ⟨1, _⟩ => show win7_1.index t (1 : Fin 2) * 128 + 1 * q.val = q.val; rw [e3]; omega
  · refine congrArg (linOf (F := Ideal) (V c main_v86) (V c main_arg9)) (funext fun a => Fin.ext ?_)
    match a with
    | ⟨0, _⟩ => show t.val * 5000 + p.val = win7_2.index t (0 : Fin 2) * 5000 + 1 * p.val; rw [e4]; omega
    | ⟨1, _⟩ => show q.val = win7_2.index t (1 : Fin 2) * 128 + 1 * q.val; rw [e5]; omega

/-- An index of the array is in point `t`'s block iff each coordinate is in the block's range on its axis. -/
theorem mem_blk7 (t : Fin cfg7.N) (i : S50000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v87).slice (win7_2.rect t)).set ↔ _
  rw [View.set_slice_whole, Rect.mem_set_unit]
  exact Iff.rfl

/-- Every row lies in the block of the point numbered by its quotient by 5000. -/
theorem cover7 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 10 := by decide
  obtain ⟨t, ht⟩ : ∃ t : Fin cfg7.N, t.val = (i 0).val / 5000 := ⟨⟨(i 0).val / 5000, by rw [hN]; omega⟩, rfl⟩
  refine ⟨t, flush7_2 t, ?_⟩
  rw [mem_blk7]
  obtain ⟨e0, e1, e2, e3, e4, e5, e6⟩ := idx_facts7 t
  intro a
  match a with
  | ⟨0, _⟩ =>
    show win7_2.index t (0 : Fin 2) * 5000 ≤ (i 0).val ∧ (i 0).val < win7_2.index t (0 : Fin 2) * 5000 + 5000
    rw [e4, ht]; omega
  | ⟨1, _⟩ =>
    show win7_2.index t (1 : Fin 2) * 128 ≤ (i 1).val ∧ (i 1).val < win7_2.index t (1 : Fin 2) * 128 + 128
    rw [e5]; omega

/-- THE ARRAY after region 7: the product of the node features and the weight. -/
theorem final7 (c : Dev nD) (H : Arr Ideal Cert.ReferenceIdeal.S50000x128 .f32) (W : Arr Ideal Cert.ReferenceIdeal.S128x128 .f32)
    (hH : V c main_v86 = H) (hW : V c main_arg9 = W) : (dat7 V c).arrAt 2 cfg7.N = linOf (F := Ideal) H W := by
  subst hH hW
  exact (dat7 V c).arrAt_eq_of_cover 2 _ (fun t _ => flushed7_eq V c t) (cover7)

end Cert.KernelIdeal.Reg
-- ==== Proof.KReg2.lean ====
/- From blocks to the array for the four combine regions: each of the ten grid points writes the rows of its block of
   one hop of message passing, and the ten blocks tile the array. -/
import proofs.«150699_j61246233641684_1_alg».proof.Proof.Gen.KernelIdeal.Frame
import proofs.«150699_j61246233641684_1_alg».proof.Proof.Gen.ReferenceIdeal
import proofs.«150699_j61246233641684_1_alg».proof.Proof.Spec
import proofs.«150699_j61246233641684_1_alg».proof.Proof.SpecApply
import proofs.«150699_j61246233641684_1_alg».proof.Proof.KBody
import Idealize.ShloMosaic.Lib.ValueIdx
import Idealize.ShloMosaic.Lib.Pipeline.Value

noncomputable section

open scoped BigOperators

namespace Cert.KernelIdeal.Reg

open Cert.KernelIdeal Cert.KernelIdeal.Gen Cert.Gnn Idealize.ShloMosaic ValueIdx
open Idealize.ShloMosaic.TcCoe
open Idealize.ShloMosaic.Pipeline (Dat)

variable (V : (c : Dev nD) → (b : Ref sig .tc) → Buf (Elt Ideal) ((c : Thread nD τ).loc b))

theorem hzC : (![0, 0] : Fin 2 → Nat) = fun _ => 0 := funext fun a => by fin_cases a <;> rfl

/-- The combine body on blocks holding rows `T * 5000 …` of the summed messages, of the product and of the squared
    normalisation, against the bias row, is the hop at those rows. -/
theorem comb_block (X0 : Vec Ideal S5000x128 .f32) (X2 : Vec Ideal S5000x1 .f32) (X1 : Vec Ideal S5000x128 .f32)
    (X3 : Vec Ideal S1x128 .f32) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (T : Nat) (hT : T < 10)
    (h0 : ∀ (p : Fin 5000) (q : Fin 128),
      X0 (ix2 p q) = aggOf ei ea (linOf h Wg) (ix2 ⟨T * 5000 + p.val, by omega⟩ q))
    (h1 : ∀ (p : Fin 5000) (q : Fin 128), X1 (ix2 p q) = linOf h Wg (ix2 ⟨T * 5000 + p.val, by omega⟩ q))
    (h2 : ∀ p : Fin 5000, X2 (ix2 p (0 : Fin 1)) = dsqOf ei ea (ix1 ⟨T * 5000 + p.val, by omega⟩))
    (h3 : ∀ q : Fin 128, X3 (ix2 (0 : Fin 1) q) = bg (ix1 q)) (p : Fin 5000) (q : Fin 128) :
    k2_pay1 (F := Ideal) X0 X2 X1 X3 (ix2 p q)
      = hopOf (F := Ideal) ei ea Wg bg h (ix2 ⟨T * 5000 + p.val, by omega⟩ q) := by
  rw [Body.comb_pay, hopOf_apply, h0, h1, h2, h3]

/-! ## Region 2: one hop's combination, block by block -/

/-- The printed index maps, decided over the grid: a row-tiled window sits at block (t, 0), a whole-array window at (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ t.val < 10 :=
  (by decide +kernel : ∀ t : Fin grid2.N, _)

/-- Window 0's block at point `t`, read at literal coordinates, is the array `main_v52` at the block's place. -/
theorem blk2_0 (c : Dev nD) (t : Fin cfg2.N) (p : Fin 5000) (q : Fin 128) (hr : t.val * 5000 + p.val < 50000) :
    iblk2 V c 0 t (ix2 p q) = V c main_v52 (ix2 ⟨t.val * 5000 + p.val, hr⟩ q) := by
  obtain ⟨e0, e1, e2, e3, e4, e5, e6, e7, e8, e9, e10⟩ := idx_facts2 t
  show V c main_v52 (((cfg2.win 0).blk t).view.emb (ix2 p q)) = _
  refine congrArg (V c main_v52) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- Window 1's block at point `t`, read at literal coordinates, is the array `main_v39` at the block's place. -/
theorem blk2_1 (c : Dev nD) (t : Fin cfg2.N) (p : Fin 5000) (q : Fin 128) (hr : t.val * 5000 + p.val < 50000) :
    iblk2 V c 1 t (ix2 p q) = V c main_v39 (ix2 ⟨t.val * 5000 + p.val, hr⟩ q) := by
  obtain ⟨e0, e1, e2, e3, e4, e5, e6, e7, e8, e9, e10⟩ := idx_facts2 t
  show V c main_v39 (((cfg2.win 1).blk t).view.emb (ix2 p q)) = _
  refine congrArg (V c main_v39) (funext fun a => Fin.ext ?_)
  match a with
  | ⟨0, _⟩ => show win2_1.index t (0 : Fin 2) * 5000 + 1 * p.val = t.val * 5000 + p.val; rw [e2]; omega
  | ⟨1, _⟩ => show win2_1.index t (1 : Fin 2) * 128 + 1 * q.val = q.val; rw [e3]; omega

/-- Window 2's block at point `t`, read at literal coordinates, is the array `main_v35` at the block's place. -/
theorem blk2_2 (c : Dev nD) (t : Fin cfg2.N) (p : Fin 5000) (hr : t.val * 5000 + p.val < 50000) :
    iblk2 V c 2 t (ix2 p (0 : Fin 1)) = V c main_v35 (ix2 ⟨t.val * 5000 + p.val, hr⟩ (0 : Fin 1)) := by
  obtain ⟨e0, e1, e2, e3, e4, e5, e6, e7, e8, e9, e10⟩ := idx_facts2 t
  show V c main_v35 (((cfg2.win 2).blk t).view.emb (ix2 p (0 : Fin 1))) = _
  refine congrArg (V c main_v35) (funext fun a => Fin.ext ?_)
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

/-- Window 3's block at point `t`, read at literal coordinates, is the array `main_v53` at the block's place. -/
theorem blk2_3 (c : Dev nD) (t : Fin cfg2.N) (q : Fin 128) :
    iblk2 V c 3 t (ix2 (0 : Fin 1) q) = V c main_v53 (ix2 (0 : Fin 1) q) := by
  obtain ⟨e0, e1, e2, e3, e4, e5, e6, e7, e8, e9, e10⟩ := idx_facts2 t
  show V c main_v53 (((cfg2.win 3).blk t).view.emb (ix2 (0 : Fin 1) q)) = _
  refine congrArg (V c main_v53) (funext fun a => Fin.ext ?_)
  match a with
  | ⟨0, _⟩ => show win2_3.index t (0 : Fin 2) * 1 + 1 * 0 = 0; rw [e6]
  | ⟨1, _⟩ => show win2_3.index t (1 : Fin 2) * 128 + 1 * q.val = q.val; rw [e7]; omega

/-- WHAT POINT `t` WRITES BACK is block `t` of any array `G` whose rows `t * 5000 …` the body computes from the
    point's blocks. -/
theorem flushed2_of (c : Dev nD) (G : Arr Ideal Cert.ReferenceIdeal.S50000x128 .f32) (t : Fin cfg2.N) (hT : t.val < 10)
    (hG : ∀ (p : Fin 5000) (q : Fin 128),
      k2_pay1 (F := Ideal) (iblk2 V c 0 t) (iblk2 V c 2 t) (iblk2 V c 1 t) (iblk2 V c 3 t) (ix2 p q)
        = G (ix2 ⟨t.val * 5000 + p.val, by omega⟩ q)) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero hzC]
  simp only [View.ld_unit_zero (S := S5000x128) hzC,
    View.ld_unit_zero (S := S5000x1) hzC,
    View.ld_unit_zero (S := S1x128) hzC]
  obtain ⟨e0, e1, e2, e3, e4, e5, e6, e7, e8, e9, e10⟩ := idx_facts2 t
  refine funext fun (j : S5000x128.Idx) => ?_
  obtain ⟨p, q, rfl⟩ : ∃ (p : Fin 5000) (q : Fin 128), j = ix2 p q := ⟨j 0, j 1, eq_ix2 j⟩
  show k2_pay1 (F := Ideal) (iblk2 V c 0 t) (iblk2 V c 2 t) (iblk2 V c 1 t) (iblk2 V c 3 t) (ix2 p q)
      = G (((cfg2.win 4).blk t).view.emb (ix2 p q))
  refine (hG p q).trans (congrArg G (funext fun a => Fin.ext ?_))
  match a with
  | ⟨0, _⟩ => show t.val * 5000 + p.val = win2_4.index t (0 : Fin 2) * 5000 + 1 * p.val; rw [e8]; omega
  | ⟨1, _⟩ => show q.val = win2_4.index t (1 : Fin 2) * 128 + 1 * q.val; rw [e9]; omega

/-- An index of the array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v54).slice (win2_4.rect t)).set ↔ _
  rw [View.set_slice_whole, Rect.mem_set_unit]
  exact Iff.rfl

/-- Every row lies in the block of the point numbered by its quotient by 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := by decide
  obtain ⟨t, ht⟩ : ∃ t : Fin cfg2.N, t.val = (i 0).val / 5000 := ⟨⟨(i 0).val / 5000, by rw [hN]; omega⟩, rfl⟩
  refine ⟨t, flush2_4 t, ?_⟩
  rw [mem_blk2]
  obtain ⟨e0, e1, e2, e3, e4, e5, e6, e7, e8, e9, e10⟩ := idx_facts2 t
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 128 ≤ (i 1).val ∧ (i 1).val < win2_4.index t (1 : Fin 2) * 128 + 128
    rw [e9]; omega

/-- WHAT POINT `t` WRITES BACK is block `t` of the hop of the layer's input, when the region finds the summed
    messages, the product, the squared normalisation (as a column) and the bias (as a row) in its arrays. -/
theorem flushed2_eq (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v52 = aggOf ei ea (linOf h Wg)) (hL : V c main_v39 = linOf h Wg)
    (hD : ∀ r : Fin 50000, V c main_v35 (ix2 r (0 : Fin 1)) = dsqOf ei ea (ix1 r))
    (hb : ∀ q : Fin 128, V c main_v53 (ix2 (0 : Fin 1) q) = bg (ix1 q)) (t : Fin cfg2.N) :
    (dat2 V c).flushed 4 t
      = ((cfg2.win 4).blk t).view.read (Elt Ideal) (hopOf (F := Ideal) ei ea Wg bg h) := by
  obtain ⟨-, -, -, -, -, -, -, -, -, -, hT⟩ := idx_facts2 t
  exact flushed2_of V c (hopOf (F := Ideal) ei ea Wg bg h) t hT fun p q =>
    comb_block (iblk2 V c 0 t) (iblk2 V c 2 t) (iblk2 V c 1 t) (iblk2 V c 3 t) ei ea Wg bg h t.val hT
      (fun p q => (blk2_0 V c t p q (by omega)).trans (congrFun hA _))
      (fun p q => (blk2_1 V c t p q (by omega)).trans (congrFun hL _))
      (fun p => (blk2_2 V c t p (by omega)).trans (hD _))
      (fun q => (blk2_3 V c t q).trans (hb q)) p q

/-- THE ARRAY after region 2: one hop of the layer's input. -/
theorem final2 (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v52 = aggOf ei ea (linOf h Wg)) (hL : V c main_v39 = linOf h Wg)
    (hD : ∀ r : Fin 50000, V c main_v35 (ix2 r (0 : Fin 1)) = dsqOf ei ea (ix1 r))
    (hb : ∀ q : Fin 128, V c main_v53 (ix2 (0 : Fin 1) q) = bg (ix1 q)) :
    (dat2 V c).arrAt 4 cfg2.N = hopOf (F := Ideal) ei ea Wg bg h :=
  (dat2 V c).arrAt_eq_of_cover 4 _ (fun t _ => flushed2_eq V c ei ea Wg bg h hA hL hD hb t) (cover2)

/-! ## Region 4: one hop's combination, block by block -/

/-- The printed index maps, decided over the grid: a row-tiled window sits at block (t, 0), a whole-array window at (0, 0). -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0
    ∧ t.val < 10 :=
  (by decide +kernel : ∀ t : Fin grid4.N, _)

/-- Window 0's block at point `t`, read at literal coordinates, is the array `main_v68` at the block's place. -/
theorem blk4_0 (c : Dev nD) (t : Fin cfg4.N) (p : Fin 5000) (q : Fin 128) (hr : t.val * 5000 + p.val < 50000) :
    iblk4 V c 0 t (ix2 p q) = V c main_v68 (ix2 ⟨t.val * 5000 + p.val, hr⟩ q) := by
  obtain ⟨e0, e1, e2, e3, e4, e5, e6, e7, e8, e9, e10⟩ := idx_facts4 t
  show V c main_v68 (((cfg4.win 0).blk t).view.emb (ix2 p q)) = _
  refine congrArg (V c main_v68) (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * q.val = q.val; rw [e1]; omega

/-- Window 1's block at point `t`, read at literal coordinates, is the array `main_v55` at the block's place. -/
theorem blk4_1 (c : Dev nD) (t : Fin cfg4.N) (p : Fin 5000) (q : Fin 128) (hr : t.val * 5000 + p.val < 50000) :
    iblk4 V c 1 t (ix2 p q) = V c main_v55 (ix2 ⟨t.val * 5000 + p.val, hr⟩ q) := by
  obtain ⟨e0, e1, e2, e3, e4, e5, e6, e7, e8, e9, e10⟩ := idx_facts4 t
  show V c main_v55 (((cfg4.win 1).blk t).view.emb (ix2 p q)) = _
  refine congrArg (V c main_v55) (funext fun a => Fin.ext ?_)
  match a with
  | ⟨0, _⟩ => show win4_1.index t (0 : Fin 2) * 5000 + 1 * p.val = t.val * 5000 + p.val; rw [e2]; omega
  | ⟨1, _⟩ => show win4_1.index t (1 : Fin 2) * 128 + 1 * q.val = q.val; rw [e3]; omega

/-- Window 2's block at point `t`, read at literal coordinates, is the array `main_v35` at the block's place. -/
theorem blk4_2 (c : Dev nD) (t : Fin cfg4.N) (p : Fin 5000) (hr : t.val * 5000 + p.val < 50000) :
    iblk4 V c 2 t (ix2 p (0 : Fin 1)) = V c main_v35 (ix2 ⟨t.val * 5000 + p.val, hr⟩ (0 : Fin 1)) := by
  obtain ⟨e0, e1, e2, e3, e4, e5, e6, e7, e8, e9, e10⟩ := idx_facts4 t
  show V c main_v35 (((cfg4.win 2).blk t).view.emb (ix2 p (0 : Fin 1))) = _
  refine congrArg (V c main_v35) (funext fun a => Fin.ext ?_)
  match a with
  | ⟨0, _⟩ => show win4_2.index t (0 : Fin 2) * 5000 + 1 * p.val = t.val * 5000 + p.val; rw [e4]; omega
  | ⟨1, _⟩ => show win4_2.index t (1 : Fin 2) * 1 + 1 * 0 = 0; rw [e5]

/-- Window 3's block at point `t`, read at literal coordinates, is the array `main_v69` at the block's place. -/
theorem blk4_3 (c : Dev nD) (t : Fin cfg4.N) (q : Fin 128) :
    iblk4 V c 3 t (ix2 (0 : Fin 1) q) = V c main_v69 (ix2 (0 : Fin 1) q) := by
  obtain ⟨e0, e1, e2, e3, e4, e5, e6, e7, e8, e9, e10⟩ := idx_facts4 t
  show V c main_v69 (((cfg4.win 3).blk t).view.emb (ix2 (0 : Fin 1) q)) = _
  refine congrArg (V c main_v69) (funext fun a => Fin.ext ?_)
  match a with
  | ⟨0, _⟩ => show win4_3.index t (0 : Fin 2) * 1 + 1 * 0 = 0; rw [e6]
  | ⟨1, _⟩ => show win4_3.index t (1 : Fin 2) * 128 + 1 * q.val = q.val; rw [e7]; omega

/-- WHAT POINT `t` WRITES BACK is block `t` of any array `G` whose rows `t * 5000 …` the body computes from the
    point's blocks. -/
theorem flushed4_of (c : Dev nD) (G : Arr Ideal Cert.ReferenceIdeal.S50000x128 .f32) (t : Fin cfg4.N) (hT : t.val < 10)
    (hG : ∀ (p : Fin 5000) (q : Fin 128),
      k2_pay1 (F := Ideal) (iblk4 V c 0 t) (iblk4 V c 2 t) (iblk4 V c 1 t) (iblk4 V c 3 t) (ix2 p q)
        = G (ix2 ⟨t.val * 5000 + p.val, by omega⟩ q)) :
    (dat4 V c).flushed 4 t = ((cfg4.win 4).blk t).view.read (Elt Ideal) G := by
  show (cfg4.win 4).cut (grid4.coords t) ((dat4 V c).after 4 t) = _
  rw [after4_4]
  unfold out4_4
  rw [View.canon_unit_zero hzC]
  simp only [View.ld_unit_zero (S := S5000x128) hzC,
    View.ld_unit_zero (S := S5000x1) hzC,
    View.ld_unit_zero (S := S1x128) hzC]
  rw [Body.k4_eq]
  obtain ⟨e0, e1, e2, e3, e4, e5, e6, e7, e8, e9, e10⟩ := idx_facts4 t
  refine funext fun (j : S5000x128.Idx) => ?_
  obtain ⟨p, q, rfl⟩ : ∃ (p : Fin 5000) (q : Fin 128), j = ix2 p q := ⟨j 0, j 1, eq_ix2 j⟩
  show k2_pay1 (F := Ideal) (iblk4 V c 0 t) (iblk4 V c 2 t) (iblk4 V c 1 t) (iblk4 V c 3 t) (ix2 p q)
      = G (((cfg4.win 4).blk t).view.emb (ix2 p q))
  refine (hG p q).trans (congrArg G (funext fun a => Fin.ext ?_))
  match a with
  | ⟨0, _⟩ => show t.val * 5000 + p.val = win4_4.index t (0 : Fin 2) * 5000 + 1 * p.val; rw [e8]; omega
  | ⟨1, _⟩ => show q.val = win4_4.index t (1 : Fin 2) * 128 + 1 * q.val; rw [e9]; omega

/-- An index of the array is in point `t`'s block iff each coordinate is in the block's range on its axis. -/
theorem mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v70).slice (win4_4.rect t)).set ↔ _
  rw [View.set_slice_whole, Rect.mem_set_unit]
  exact Iff.rfl

/-- Every row lies in the block of the point numbered by its quotient by 5000. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := by decide
  obtain ⟨t, ht⟩ : ∃ t : Fin cfg4.N, t.val = (i 0).val / 5000 := ⟨⟨(i 0).val / 5000, by rw [hN]; omega⟩, rfl⟩
  refine ⟨t, flush4_4 t, ?_⟩
  rw [mem_blk4]
  obtain ⟨e0, e1, e2, e3, e4, e5, e6, e7, e8, e9, e10⟩ := idx_facts4 t
  intro a
  match a with
  | ⟨0, _⟩ =>
    show win4_4.index t (0 : Fin 2) * 5000 ≤ (i 0).val ∧ (i 0).val < win4_4.index t (0 : Fin 2) * 5000 + 5000
    rw [e8, ht]; omega
  | ⟨1, _⟩ =>
    show win4_4.index t (1 : Fin 2) * 128 ≤ (i 1).val ∧ (i 1).val < win4_4.index t (1 : Fin 2) * 128 + 128
    rw [e9]; omega

/-- WHAT POINT `t` WRITES BACK is block `t` of the hop of the layer's input, when the region finds the summed
    messages, the product, the squared normalisation (as a column) and the bias (as a row) in its arrays. -/
theorem flushed4_eq (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v68 = aggOf ei ea (linOf h Wg)) (hL : V c main_v55 = linOf h Wg)
    (hD : ∀ r : Fin 50000, V c main_v35 (ix2 r (0 : Fin 1)) = dsqOf ei ea (ix1 r))
    (hb : ∀ q : Fin 128, V c main_v69 (ix2 (0 : Fin 1) q) = bg (ix1 q)) (t : Fin cfg4.N) :
    (dat4 V c).flushed 4 t
      = ((cfg4.win 4).blk t).view.read (Elt Ideal) (hopOf (F := Ideal) ei ea Wg bg h) := by
  obtain ⟨-, -, -, -, -, -, -, -, -, -, hT⟩ := idx_facts4 t
  exact flushed4_of V c (hopOf (F := Ideal) ei ea Wg bg h) t hT fun p q =>
    comb_block (iblk4 V c 0 t) (iblk4 V c 2 t) (iblk4 V c 1 t) (iblk4 V c 3 t) ei ea Wg bg h t.val hT
      (fun p q => (blk4_0 V c t p q (by omega)).trans (congrFun hA _))
      (fun p q => (blk4_1 V c t p q (by omega)).trans (congrFun hL _))
      (fun p => (blk4_2 V c t p (by omega)).trans (hD _))
      (fun q => (blk4_3 V c t q).trans (hb q)) p q

/-- THE ARRAY after region 4: one hop of the layer's input. -/
theorem final4 (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v68 = aggOf ei ea (linOf h Wg)) (hL : V c main_v55 = linOf h Wg)
    (hD : ∀ r : Fin 50000, V c main_v35 (ix2 r (0 : Fin 1)) = dsqOf ei ea (ix1 r))
    (hb : ∀ q : Fin 128, V c main_v69 (ix2 (0 : Fin 1) q) = bg (ix1 q)) :
    (dat4 V c).arrAt 4 cfg4.N = hopOf (F := Ideal) ei ea Wg bg h :=
  (dat4 V c).arrAt_eq_of_cover 4 _ (fun t _ => flushed4_eq V c ei ea Wg bg h hA hL hD hb t) (cover4)

/-! ## Region 6: one hop's combination, block by block -/

/-- The printed index maps, decided over the grid: a row-tiled window sits at block (t, 0), a whole-array window at (0, 0). -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0
    ∧ t.val < 10 :=
  (by decide +kernel : ∀ t : Fin grid6.N, _)

/-- Window 0's block at point `t`, read at literal coordinates, is the array `main_v84` at the block's place. -/
theorem blk6_0 (c : Dev nD) (t : Fin cfg6.N) (p : Fin 5000) (q : Fin 128) (hr : t.val * 5000 + p.val < 50000) :
    iblk6 V c 0 t (ix2 p q) = V c main_v84 (ix2 ⟨t.val * 5000 + p.val, hr⟩ q) := by
  obtain ⟨e0, e1, e2, e3, e4, e5, e6, e7, e8, e9, e10⟩ := idx_facts6 t
  show V c main_v84 (((cfg6.win 0).blk t).view.emb (ix2 p q)) = _
  refine congrArg (V c main_v84) (funext fun a => Fin.ext ?_)
  match a with
  | ⟨0, _⟩ => show win6_0.index t (0 : Fin 2) * 5000 + 1 * p.val = t.val * 5000 + p.val; rw [e0]; omega
  | ⟨1, _⟩ => show win6_0.index t (1 : Fin 2) * 128 + 1 * q.val = q.val; rw [e1]; omega

/-- Window 1's block at point `t`, read at literal coordinates, is the array `main_v71` at the block's place. -/
theorem blk6_1 (c : Dev nD) (t : Fin cfg6.N) (p : Fin 5000) (q : Fin 128) (hr : t.val * 5000 + p.val < 50000) :
    iblk6 V c 1 t (ix2 p q) = V c main_v71 (ix2 ⟨t.val * 5000 + p.val, hr⟩ q) := by
  obtain ⟨e0, e1, e2, e3, e4, e5, e6, e7, e8, e9, e10⟩ := idx_facts6 t
  show V c main_v71 (((cfg6.win 1).blk t).view.emb (ix2 p q)) = _
  refine congrArg (V c main_v71) (funext fun a => Fin.ext ?_)
  match a with
  | ⟨0, _⟩ => show win6_1.index t (0 : Fin 2) * 5000 + 1 * p.val = t.val * 5000 + p.val; rw [e2]; omega
  | ⟨1, _⟩ => show win6_1.index t (1 : Fin 2) * 128 + 1 * q.val = q.val; rw [e3]; omega

/-- Window 2's block at point `t`, read at literal coordinates, is the array `main_v35` at the block's place. -/
theorem blk6_2 (c : Dev nD) (t : Fin cfg6.N) (p : Fin 5000) (hr : t.val * 5000 + p.val < 50000) :
    iblk6 V c 2 t (ix2 p (0 : Fin 1)) = V c main_v35 (ix2 ⟨t.val * 5000 + p.val, hr⟩ (0 : Fin 1)) := by
  obtain ⟨e0, e1, e2, e3, e4, e5, e6, e7, e8, e9, e10⟩ := idx_facts6 t
  show V c main_v35 (((cfg6.win 2).blk t).view.emb (ix2 p (0 : Fin 1))) = _
  refine congrArg (V c main_v35) (funext fun a => Fin.ext ?_)
  match a with
  | ⟨0, _⟩ => show win6_2.index t (0 : Fin 2) * 5000 + 1 * p.val = t.val * 5000 + p.val; rw [e4]; omega
  | ⟨1, _⟩ => show win6_2.index t (1 : Fin 2) * 1 + 1 * 0 = 0; rw [e5]

/-- Window 3's block at point `t`, read at literal coordinates, is the array `main_v85` at the block's place. -/
theorem blk6_3 (c : Dev nD) (t : Fin cfg6.N) (q : Fin 128) :
    iblk6 V c 3 t (ix2 (0 : Fin 1) q) = V c main_v85 (ix2 (0 : Fin 1) q) := by
  obtain ⟨e0, e1, e2, e3, e4, e5, e6, e7, e8, e9, e10⟩ := idx_facts6 t
  show V c main_v85 (((cfg6.win 3).blk t).view.emb (ix2 (0 : Fin 1) q)) = _
  refine congrArg (V c main_v85) (funext fun a => Fin.ext ?_)
  match a with
  | ⟨0, _⟩ => show win6_3.index t (0 : Fin 2) * 1 + 1 * 0 = 0; rw [e6]
  | ⟨1, _⟩ => show win6_3.index t (1 : Fin 2) * 128 + 1 * q.val = q.val; rw [e7]; omega

/-- WHAT POINT `t` WRITES BACK is block `t` of any array `G` whose rows `t * 5000 …` the body computes from the
    point's blocks. -/
theorem flushed6_of (c : Dev nD) (G : Arr Ideal Cert.ReferenceIdeal.S50000x128 .f32) (t : Fin cfg6.N) (hT : t.val < 10)
    (hG : ∀ (p : Fin 5000) (q : Fin 128),
      k2_pay1 (F := Ideal) (iblk6 V c 0 t) (iblk6 V c 2 t) (iblk6 V c 1 t) (iblk6 V c 3 t) (ix2 p q)
        = G (ix2 ⟨t.val * 5000 + p.val, by omega⟩ q)) :
    (dat6 V c).flushed 4 t = ((cfg6.win 4).blk t).view.read (Elt Ideal) G := by
  show (cfg6.win 4).cut (grid6.coords t) ((dat6 V c).after 4 t) = _
  rw [after6_4]
  unfold out6_4
  rw [View.canon_unit_zero hzC]
  simp only [View.ld_unit_zero (S := S5000x128) hzC,
    View.ld_unit_zero (S := S5000x1) hzC,
    View.ld_unit_zero (S := S1x128) hzC]
  rw [Body.k6_eq]
  obtain ⟨e0, e1, e2, e3, e4, e5, e6, e7, e8, e9, e10⟩ := idx_facts6 t
  refine funext fun (j : S5000x128.Idx) => ?_
  obtain ⟨p, q, rfl⟩ : ∃ (p : Fin 5000) (q : Fin 128), j = ix2 p q := ⟨j 0, j 1, eq_ix2 j⟩
  show k2_pay1 (F := Ideal) (iblk6 V c 0 t) (iblk6 V c 2 t) (iblk6 V c 1 t) (iblk6 V c 3 t) (ix2 p q)
      = G (((cfg6.win 4).blk t).view.emb (ix2 p q))
  refine (hG p q).trans (congrArg G (funext fun a => Fin.ext ?_))
  match a with
  | ⟨0, _⟩ => show t.val * 5000 + p.val = win6_4.index t (0 : Fin 2) * 5000 + 1 * p.val; rw [e8]; omega
  | ⟨1, _⟩ => show q.val = win6_4.index t (1 : Fin 2) * 128 + 1 * q.val; rw [e9]; omega

/-- An index of the array is in point `t`'s block iff each coordinate is in the block's range on its axis. -/
theorem mem_blk6 (t : Fin cfg6.N) (i : S50000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v86).slice (win6_4.rect t)).set ↔ _
  rw [View.set_slice_whole, Rect.mem_set_unit]
  exact Iff.rfl

/-- Every row lies in the block of the point numbered by its quotient by 5000. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := by decide
  obtain ⟨t, ht⟩ : ∃ t : Fin cfg6.N, t.val = (i 0).val / 5000 := ⟨⟨(i 0).val / 5000, by rw [hN]; omega⟩, rfl⟩
  refine ⟨t, flush6_4 t, ?_⟩
  rw [mem_blk6]
  obtain ⟨e0, e1, e2, e3, e4, e5, e6, e7, e8, e9, e10⟩ := idx_facts6 t
  intro a
  match a with
  | ⟨0, _⟩ =>
    show win6_4.index t (0 : Fin 2) * 5000 ≤ (i 0).val ∧ (i 0).val < win6_4.index t (0 : Fin 2) * 5000 + 5000
    rw [e8, ht]; omega
  | ⟨1, _⟩ =>
    show win6_4.index t (1 : Fin 2) * 128 ≤ (i 1).val ∧ (i 1).val < win6_4.index t (1 : Fin 2) * 128 + 128
    rw [e9]; omega

/-- WHAT POINT `t` WRITES BACK is block `t` of the hop of the layer's input, when the region finds the summed
    messages, the product, the squared normalisation (as a column) and the bias (as a row) in its arrays. -/
theorem flushed6_eq (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v84 = aggOf ei ea (linOf h Wg)) (hL : V c main_v71 = linOf h Wg)
    (hD : ∀ r : Fin 50000, V c main_v35 (ix2 r (0 : Fin 1)) = dsqOf ei ea (ix1 r))
    (hb : ∀ q : Fin 128, V c main_v85 (ix2 (0 : Fin 1) q) = bg (ix1 q)) (t : Fin cfg6.N) :
    (dat6 V c).flushed 4 t
      = ((cfg6.win 4).blk t).view.read (Elt Ideal) (hopOf (F := Ideal) ei ea Wg bg h) := by
  obtain ⟨-, -, -, -, -, -, -, -, -, -, hT⟩ := idx_facts6 t
  exact flushed6_of V c (hopOf (F := Ideal) ei ea Wg bg h) t hT fun p q =>
    comb_block (iblk6 V c 0 t) (iblk6 V c 2 t) (iblk6 V c 1 t) (iblk6 V c 3 t) ei ea Wg bg h t.val hT
      (fun p q => (blk6_0 V c t p q (by omega)).trans (congrFun hA _))
      (fun p q => (blk6_1 V c t p q (by omega)).trans (congrFun hL _))
      (fun p => (blk6_2 V c t p (by omega)).trans (hD _))
      (fun q => (blk6_3 V c t q).trans (hb q)) p q

/-- THE ARRAY after region 6: one hop of the layer's input. -/
theorem final6 (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v84 = aggOf ei ea (linOf h Wg)) (hL : V c main_v71 = linOf h Wg)
    (hD : ∀ r : Fin 50000, V c main_v35 (ix2 r (0 : Fin 1)) = dsqOf ei ea (ix1 r))
    (hb : ∀ q : Fin 128, V c main_v85 (ix2 (0 : Fin 1) q) = bg (ix1 q)) :
    (dat6 V c).arrAt 4 cfg6.N = hopOf (F := Ideal) ei ea Wg bg h :=
  (dat6 V c).arrAt_eq_of_cover 4 _ (fun t _ => flushed6_eq V c ei ea Wg bg h hA hL hD hb t) (cover6)

/-! ## Region 8: one hop's combination, block by block -/

/-- The printed index maps, decided over the grid: a row-tiled window sits at block (t, 0), a whole-array window at (0, 0). -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 2) = t.val
    ∧ win8_4.index t (1 : Fin 2) = 0
    ∧ t.val < 10 :=
  (by decide +kernel : ∀ t : Fin grid8.N, _)

/-- Window 0's block at point `t`, read at literal coordinates, is the array `main_v100` at the block's place. -/
theorem blk8_0 (c : Dev nD) (t : Fin cfg8.N) (p : Fin 5000) (q : Fin 128) (hr : t.val * 5000 + p.val < 50000) :
    iblk8 V c 0 t (ix2 p q) = V c main_v100 (ix2 ⟨t.val * 5000 + p.val, hr⟩ q) := by
  obtain ⟨e0, e1, e2, e3, e4, e5, e6, e7, e8, e9, e10⟩ := idx_facts8 t
  show V c main_v100 (((cfg8.win 0).blk t).view.emb (ix2 p q)) = _
  refine congrArg (V c main_v100) (funext fun a => Fin.ext ?_)
  match a with
  | ⟨0, _⟩ => show win8_0.index t (0 : Fin 2) * 5000 + 1 * p.val = t.val * 5000 + p.val; rw [e0]; omega
  | ⟨1, _⟩ => show win8_0.index t (1 : Fin 2) * 128 + 1 * q.val = q.val; rw [e1]; omega

/-- Window 1's block at point `t`, read at literal coordinates, is the array `main_v87` at the block's place. -/
theorem blk8_1 (c : Dev nD) (t : Fin cfg8.N) (p : Fin 5000) (q : Fin 128) (hr : t.val * 5000 + p.val < 50000) :
    iblk8 V c 1 t (ix2 p q) = V c main_v87 (ix2 ⟨t.val * 5000 + p.val, hr⟩ q) := by
  obtain ⟨e0, e1, e2, e3, e4, e5, e6, e7, e8, e9, e10⟩ := idx_facts8 t
  show V c main_v87 (((cfg8.win 1).blk t).view.emb (ix2 p q)) = _
  refine congrArg (V c main_v87) (funext fun a => Fin.ext ?_)
  match a with
  | ⟨0, _⟩ => show win8_1.index t (0 : Fin 2) * 5000 + 1 * p.val = t.val * 5000 + p.val; rw [e2]; omega
  | ⟨1, _⟩ => show win8_1.index t (1 : Fin 2) * 128 + 1 * q.val = q.val; rw [e3]; omega

/-- Window 2's block at point `t`, read at literal coordinates, is the array `main_v35` at the block's place. -/
theorem blk8_2 (c : Dev nD) (t : Fin cfg8.N) (p : Fin 5000) (hr : t.val * 5000 + p.val < 50000) :
    iblk8 V c 2 t (ix2 p (0 : Fin 1)) = V c main_v35 (ix2 ⟨t.val * 5000 + p.val, hr⟩ (0 : Fin 1)) := by
  obtain ⟨e0, e1, e2, e3, e4, e5, e6, e7, e8, e9, e10⟩ := idx_facts8 t
  show V c main_v35 (((cfg8.win 2).blk t).view.emb (ix2 p (0 : Fin 1))) = _
  refine congrArg (V c main_v35) (funext fun a => Fin.ext ?_)
  match a with
  | ⟨0, _⟩ => show win8_2.index t (0 : Fin 2) * 5000 + 1 * p.val = t.val * 5000 + p.val; rw [e4]; omega
  | ⟨1, _⟩ => show win8_2.index t (1 : Fin 2) * 1 + 1 * 0 = 0; rw [e5]

/-- Window 3's block at point `t`, read at literal coordinates, is the array `main_v101` at the block's place. -/
theorem blk8_3 (c : Dev nD) (t : Fin cfg8.N) (q : Fin 128) :
    iblk8 V c 3 t (ix2 (0 : Fin 1) q) = V c main_v101 (ix2 (0 : Fin 1) q) := by
  obtain ⟨e0, e1, e2, e3, e4, e5, e6, e7, e8, e9, e10⟩ := idx_facts8 t
  show V c main_v101 (((cfg8.win 3).blk t).view.emb (ix2 (0 : Fin 1) q)) = _
  refine congrArg (V c main_v101) (funext fun a => Fin.ext ?_)
  match a with
  | ⟨0, _⟩ => show win8_3.index t (0 : Fin 2) * 1 + 1 * 0 = 0; rw [e6]
  | ⟨1, _⟩ => show win8_3.index t (1 : Fin 2) * 128 + 1 * q.val = q.val; rw [e7]; omega

/-- WHAT POINT `t` WRITES BACK is block `t` of any array `G` whose rows `t * 5000 …` the body computes from the
    point's blocks. -/
theorem flushed8_of (c : Dev nD) (G : Arr Ideal Cert.ReferenceIdeal.S50000x128 .f32) (t : Fin cfg8.N) (hT : t.val < 10)
    (hG : ∀ (p : Fin 5000) (q : Fin 128),
      k2_pay1 (F := Ideal) (iblk8 V c 0 t) (iblk8 V c 2 t) (iblk8 V c 1 t) (iblk8 V c 3 t) (ix2 p q)
        = G (ix2 ⟨t.val * 5000 + p.val, by omega⟩ q)) :
    (dat8 V c).flushed 4 t = ((cfg8.win 4).blk t).view.read (Elt Ideal) G := by
  show (cfg8.win 4).cut (grid8.coords t) ((dat8 V c).after 4 t) = _
  rw [after8_4]
  unfold out8_4
  rw [View.canon_unit_zero hzC]
  simp only [View.ld_unit_zero (S := S5000x128) hzC,
    View.ld_unit_zero (S := S5000x1) hzC,
    View.ld_unit_zero (S := S1x128) hzC]
  rw [Body.k8_eq]
  obtain ⟨e0, e1, e2, e3, e4, e5, e6, e7, e8, e9, e10⟩ := idx_facts8 t
  refine funext fun (j : S5000x128.Idx) => ?_
  obtain ⟨p, q, rfl⟩ : ∃ (p : Fin 5000) (q : Fin 128), j = ix2 p q := ⟨j 0, j 1, eq_ix2 j⟩
  show k2_pay1 (F := Ideal) (iblk8 V c 0 t) (iblk8 V c 2 t) (iblk8 V c 1 t) (iblk8 V c 3 t) (ix2 p q)
      = G (((cfg8.win 4).blk t).view.emb (ix2 p q))
  refine (hG p q).trans (congrArg G (funext fun a => Fin.ext ?_))
  match a with
  | ⟨0, _⟩ => show t.val * 5000 + p.val = win8_4.index t (0 : Fin 2) * 5000 + 1 * p.val; rw [e8]; omega
  | ⟨1, _⟩ => show q.val = win8_4.index t (1 : Fin 2) * 128 + 1 * q.val; rw [e9]; omega

/-- An index of the array is in point `t`'s block iff each coordinate is in the block's range on its axis. -/
theorem mem_blk8 (t : Fin cfg8.N) (i : S50000x128.Idx) :
    i ∈ ((cfg8.win 4).blk t).view.set ↔ ∀ a : Fin 2, win8_4.index t a * S5000x128.size a ≤ (i a).val
      ∧ (i a).val < win8_4.index t a * S5000x128.size a + S5000x128.size a := by
  show i ∈ ((View.whole main_v102).slice (win8_4.rect t)).set ↔ _
  rw [View.set_slice_whole, Rect.mem_set_unit]
  exact Iff.rfl

/-- Every row lies in the block of the point numbered by its quotient by 5000. -/
theorem cover8 (i : S50000x128.Idx) :
    ∃ t : Fin cfg8.N, (cfg8.win 4).flush t = true ∧ i ∈ ((cfg8.win 4).blk t).view.set := by
  have hi0 : (i 0).val < 50000 := (i 0).isLt
  have hi1 : (i 1).val < 128 := (i 1).isLt
  have hN : cfg8.N = 10 := by decide
  obtain ⟨t, ht⟩ : ∃ t : Fin cfg8.N, t.val = (i 0).val / 5000 := ⟨⟨(i 0).val / 5000, by rw [hN]; omega⟩, rfl⟩
  refine ⟨t, flush8_4 t, ?_⟩
  rw [mem_blk8]
  obtain ⟨e0, e1, e2, e3, e4, e5, e6, e7, e8, e9, e10⟩ := idx_facts8 t
  intro a
  match a with
  | ⟨0, _⟩ =>
    show win8_4.index t (0 : Fin 2) * 5000 ≤ (i 0).val ∧ (i 0).val < win8_4.index t (0 : Fin 2) * 5000 + 5000
    rw [e8, ht]; omega
  | ⟨1, _⟩ =>
    show win8_4.index t (1 : Fin 2) * 128 ≤ (i 1).val ∧ (i 1).val < win8_4.index t (1 : Fin 2) * 128 + 128
    rw [e9]; omega

/-- WHAT POINT `t` WRITES BACK is block `t` of the hop of the layer's input, when the region finds the summed
    messages, the product, the squared normalisation (as a column) and the bias (as a row) in its arrays. -/
theorem flushed8_eq (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v100 = aggOf ei ea (linOf h Wg)) (hL : V c main_v87 = linOf h Wg)
    (hD : ∀ r : Fin 50000, V c main_v35 (ix2 r (0 : Fin 1)) = dsqOf ei ea (ix1 r))
    (hb : ∀ q : Fin 128, V c main_v101 (ix2 (0 : Fin 1) q) = bg (ix1 q)) (t : Fin cfg8.N) :
    (dat8 V c).flushed 4 t
      = ((cfg8.win 4).blk t).view.read (Elt Ideal) (hopOf (F := Ideal) ei ea Wg bg h) := by
  obtain ⟨-, -, -, -, -, -, -, -, -, -, hT⟩ := idx_facts8 t
  exact flushed8_of V c (hopOf (F := Ideal) ei ea Wg bg h) t hT fun p q =>
    comb_block (iblk8 V c 0 t) (iblk8 V c 2 t) (iblk8 V c 1 t) (iblk8 V c 3 t) ei ea Wg bg h t.val hT
      (fun p q => (blk8_0 V c t p q (by omega)).trans (congrFun hA _))
      (fun p q => (blk8_1 V c t p q (by omega)).trans (congrFun hL _))
      (fun p => (blk8_2 V c t p (by omega)).trans (hD _))
      (fun q => (blk8_3 V c t q).trans (hb q)) p q

/-- THE ARRAY after region 8: one hop of the layer's input. -/
theorem final8 (c : Dev nD) (ei : Arr Ideal Cert.ReferenceIdeal.S2x1600000 .i32)
    (ea : Arr Ideal Cert.ReferenceIdeal.S1600000x4 .f32) (Wg : Arr Ideal Cert.ReferenceIdeal.S128x128 .f32)
    (bg : Arr Ideal Cert.ReferenceIdeal.S128 .f32) (h : Arr Ideal Cert.ReferenceIdeal.S50000x128 .f32)
    (hA : V c main_v100 = aggOf ei ea (linOf h Wg)) (hL : V c main_v87 = linOf h Wg)
    (hD : ∀ r : Fin 50000, V c main_v35 (ix2 r (0 : Fin 1)) = dsqOf ei ea (ix1 r))
    (hb : ∀ q : Fin 128, V c main_v101 (ix2 (0 : Fin 1) q) = bg (ix1 q)) :
    (dat8 V c).arrAt 4 cfg8.N = hopOf (F := Ideal) ei ea Wg bg h :=
  (dat8 V c).arrAt_eq_of_cover 4 _ (fun t _ => flushed8_eq V c ei ea Wg bg h hA hL hD hb t) (cover8)

end Cert.KernelIdeal.Reg
-- ==== Proof.KReg9.lean ====
/- From blocks to the array for the decoder region: each of the ten grid points writes the rows of its block of the
   decoder's output, and the ten blocks tile the array. -/
import proofs.«150699_j61246233641684_1_alg».proof.Proof.Gen.KernelIdeal.Frame
import proofs.«150699_j61246233641684_1_alg».proof.Proof.Gen.ReferenceIdeal
import proofs.«150699_j61246233641684_1_alg».proof.Proof.Spec
import proofs.«150699_j61246233641684_1_alg».proof.Proof.SpecApply
import proofs.«150699_j61246233641684_1_alg».proof.Proof.KBody
import Idealize.ShloMosaic.Lib.ValueIdx
import Idealize.ShloMosaic.Lib.Pipeline.Value

noncomputable section

open scoped BigOperators

namespace Cert.KernelIdeal.Reg

open Cert.KernelIdeal Cert.KernelIdeal.Gen Cert.Gnn Idealize.ShloMosaic ValueIdx
open Idealize.ShloMosaic.TcCoe
open Idealize.ShloMosaic.Pipeline (Dat)

variable (V : (c : Dev nD) → (b : Ref sig .tc) → Buf (Elt Ideal) ((c : Thread nD τ).loc b))

theorem hzD : (![0, 0] : Fin 2 → Nat) = fun _ => 0 := funext fun a => by fin_cases a <;> rfl

/-- The decoder body on a block holding rows `T * 5000 …` of the node features, against the two weights and the two
    bias rows, is the decoder at those rows. -/
theorem dec_block (X0 : Vec Ideal S5000x128 .f32) (X1 : Vec Ideal S128x128 .f32) (X2 : Vec Ideal S1x128 .f32)
    (X3 : Vec Ideal S128x3 .f32) (X4 : Vec Ideal S1x3 .f32)
    (h : Arr Ideal Cert.ReferenceIdeal.S50000x128 .f32) (W1 : Arr Ideal Cert.ReferenceIdeal.S128x128 .f32)
    (b1 : Arr Ideal Cert.ReferenceIdeal.S128 .f32) (W2 : Arr Ideal Cert.ReferenceIdeal.S128x3 .f32)
    (b2 : Arr Ideal Cert.ReferenceIdeal.S3 .f32) (T : Nat) (hT : T < 10)
    (h0 : ∀ (p : Fin 5000) (l : Fin 128), X0 (ix2 p l) = h (ix2 ⟨T * 5000 + p.val, by omega⟩ l))
    (h1 : ∀ l k : Fin 128, X1 (ix2 l k) = W1 (ix2 l k))
    (h2 : ∀ k : Fin 128, X2 (ix2 (0 : Fin 1) k) = b1 (ix1 k))
    (h3 : ∀ (k : Fin 128) (q : Fin 3), X3 (ix2 k q) = W2 (ix2 k q))
    (h4 : ∀ q : Fin 3, X4 (ix2 (0 : Fin 1) q) = b2 (ix1 q)) (p : Fin 5000) (q : Fin 3) :
    k9_pay1 (F := Ideal) X0 X1 X2 X3 X4 (ix2 p q)
      = decOf (F := Ideal) h W1 b1 W2 b2 (ix2 ⟨T * 5000 + p.val, by omega⟩ q) := by
  rw [Body.dec_pay, decOf_apply, h4]
  refine congrArg (· + b2 (ix1 q)) (Finset.sum_congr rfl fun k _ => ?_)
  rw [linOf_apply, h2, h3]
  refine congrArg (fun s => max (s + b1 (ix1 k)) 0 * W2 (ix2 k q)) (Finset.sum_congr rfl fun l _ => ?_)
  rw [h0, h1]

/-! ## Region 9: the decoder, block by block -/

/-- The printed index maps, decided over the grid: a row-tiled window sits at block (t, 0), a whole-array window at (0, 0). -/
theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = t.val
    ∧ win9_5.index t (1 : Fin 2) = 0
    ∧ t.val < 10 :=
  (by decide +kernel : ∀ t : Fin grid9.N, _)

/-- Window 0's block at point `t`, read at literal coordinates, is the array `main_v102` at the block's place. -/
theorem blk9_0 (c : Dev nD) (t : Fin cfg9.N) (p : Fin 5000) (q : Fin 128) (hr : t.val * 5000 + p.val < 50000) :
    iblk9 V c 0 t (ix2 p q) = V c main_v102 (ix2 ⟨t.val * 5000 + p.val, hr⟩ q) := by
  obtain ⟨e0, e1, e2, e3, e4, e5, e6, e7, e8, e9, e10, e11, e12⟩ := idx_facts9 t
  show V c main_v102 (((cfg9.win 0).blk t).view.emb (ix2 p q)) = _
  refine congrArg (V c main_v102) (funext fun a => Fin.ext ?_)
  match a with
  | ⟨0, _⟩ => show win9_0.index t (0 : Fin 2) * 5000 + 1 * p.val = t.val * 5000 + p.val; rw [e0]; omega
  | ⟨1, _⟩ => show win9_0.index t (1 : Fin 2) * 128 + 1 * q.val = q.val; rw [e1]; omega

/-- Window 1's block at point `t`, read at literal coordinates, is the array `main_arg11` at the block's place. -/
theorem blk9_1 (c : Dev nD) (t : Fin cfg9.N) (p : Fin 128) (q : Fin 128) :
    iblk9 V c 1 t (ix2 p q) = V c main_arg11 (ix2 p q) := by
  obtain ⟨e0, e1, e2, e3, e4, e5, e6, e7, e8, e9, e10, e11, e12⟩ := idx_facts9 t
  show V c main_arg11 (((cfg9.win 1).blk t).view.emb (ix2 p q)) = _
  refine congrArg (V c main_arg11) (funext fun a => Fin.ext ?_)
  match a with
  | ⟨0, _⟩ => show win9_1.index t (0 : Fin 2) * 128 + 1 * p.val = p.val; rw [e2]; omega
  | ⟨1, _⟩ => show win9_1.index t (1 : Fin 2) * 128 + 1 * q.val = q.val; rw [e3]; omega

/-- Window 2's block at point `t`, read at literal coordinates, is the array `main_v103` at the block's place. -/
theorem blk9_2 (c : Dev nD) (t : Fin cfg9.N) (q : Fin 128) :
    iblk9 V c 2 t (ix2 (0 : Fin 1) q) = V c main_v103 (ix2 (0 : Fin 1) q) := by
  obtain ⟨e0, e1, e2, e3, e4, e5, e6, e7, e8, e9, e10, e11, e12⟩ := idx_facts9 t
  show V c main_v103 (((cfg9.win 2).blk t).view.emb (ix2 (0 : Fin 1) q)) = _
  refine congrArg (V c main_v103) (funext fun a => Fin.ext ?_)
  match a with
  | ⟨0, _⟩ => show win9_2.index t (0 : Fin 2) * 1 + 1 * 0 = 0; rw [e4]
  | ⟨1, _⟩ => show win9_2.index t (1 : Fin 2) * 128 + 1 * q.val = q.val; rw [e5]; omega

/-- Window 3's block at point `t`, read at literal coordinates, is the array `main_arg13` at the block's place. -/
theorem blk9_3 (c : Dev nD) (t : Fin cfg9.N) (p : Fin 128) (q : Fin 3) :
    iblk9 V c 3 t (ix2 p q) = V c main_arg13 (ix2 p q) := by
  obtain ⟨e0, e1, e2, e3, e4, e5, e6, e7, e8, e9, e10, e11, e12⟩ := idx_facts9 t
  show V c main_arg13 (((cfg9.win 3).blk t).view.emb (ix2 p q)) = _
  refine congrArg (V c main_arg13) (funext fun a => Fin.ext ?_)
  match a with
  | ⟨0, _⟩ => show win9_3.index t (0 : Fin 2) * 128 + 1 * p.val = p.val; rw [e6]; omega
  | ⟨1, _⟩ => show win9_3.index t (1 : Fin 2) * 3 + 1 * q.val = q.val; rw [e7]; omega

/-- Window 4's block at point `t`, read at literal coordinates, is the array `main_v104` at the block's place. -/
theorem blk9_4 (c : Dev nD) (t : Fin cfg9.N) (q : Fin 3) :
    iblk9 V c 4 t (ix2 (0 : Fin 1) q) = V c main_v104 (ix2 (0 : Fin 1) q) := by
  obtain ⟨e0, e1, e2, e3, e4, e5, e6, e7, e8, e9, e10, e11, e12⟩ := idx_facts9 t
  show V c main_v104 (((cfg9.win 4).blk t).view.emb (ix2 (0 : Fin 1) q)) = _
  refine congrArg (V c main_v104) (funext fun a => Fin.ext ?_)
  match a with
  | ⟨0, _⟩ => show win9_4.index t (0 : Fin 2) * 1 + 1 * 0 = 0; rw [e8]
  | ⟨1, _⟩ => show win9_4.index t (1 : Fin 2) * 3 + 1 * q.val = q.val; rw [e9]; omega

/-- WHAT POINT `t` WRITES BACK is block `t` of any array `G` whose rows `t * 5000 …` the body computes from the
    point's blocks. -/
theorem flushed9_of (c : Dev nD) (G : Arr Ideal Cert.ReferenceIdeal.S50000x3 .f32) (t : Fin cfg9.N) (hT : t.val < 10)
    (hG : ∀ (p : Fin 5000) (q : Fin 3),
      k9_pay1 (F := Ideal) (iblk9 V c 0 t) (iblk9 V c 1 t) (iblk9 V c 2 t) (iblk9 V c 3 t) (iblk9 V c 4 t) (ix2 p q)
        = G (ix2 ⟨t.val * 5000 + p.val, by omega⟩ q)) :
    (dat9 V c).flushed 5 t = ((cfg9.win 5).blk t).view.read (Elt Ideal) G := by
  show (cfg9.win 5).cut (grid9.coords t) ((dat9 V c).after 5 t) = _
  rw [after9_5]
  unfold out9_5
  rw [View.canon_unit_zero hzD]
  simp only [View.ld_unit_zero (S := S5000x128) hzD,
    View.ld_unit_zero (S := S128x128) hzD,
    View.ld_unit_zero (S := S1x128) hzD,
    View.ld_unit_zero (S := S128x3) hzD,
    View.ld_unit_zero (S := S1x3) hzD]
  obtain ⟨e0, e1, e2, e3, e4, e5, e6, e7, e8, e9, e10, e11, e12⟩ := idx_facts9 t
  refine funext fun (j : S5000x3.Idx) => ?_
  obtain ⟨p, q, rfl⟩ : ∃ (p : Fin 5000) (q : Fin 3), j = ix2 p q := ⟨j 0, j 1, eq_ix2 j⟩
  show k9_pay1 (F := Ideal) (iblk9 V c 0 t) (iblk9 V c 1 t) (iblk9 V c 2 t) (iblk9 V c 3 t) (iblk9 V c 4 t) (ix2 p q)
      = G (((cfg9.win 5).blk t).view.emb (ix2 p q))
  refine (hG p q).trans (congrArg G (funext fun a => Fin.ext ?_))
  match a with
  | ⟨0, _⟩ => show t.val * 5000 + p.val = win9_5.index t (0 : Fin 2) * 5000 + 1 * p.val; rw [e10]; omega
  | ⟨1, _⟩ => show q.val = win9_5.index t (1 : Fin 2) * 3 + 1 * q.val; rw [e11]; omega

/-- An index of the array is in point `t`'s block iff each coordinate is in the block's range on its axis. -/
theorem mem_blk9 (t : Fin cfg9.N) (i : S50000x3.Idx) :
    i ∈ ((cfg9.win 5).blk t).view.set ↔ ∀ a : Fin 2, win9_5.index t a * S5000x3.size a ≤ (i a).val
      ∧ (i a).val < win9_5.index t a * S5000x3.size a + S5000x3.size a := by
  show i ∈ ((View.whole main_v105).slice (win9_5.rect t)).set ↔ _
  rw [View.set_slice_whole, Rect.mem_set_unit]
  exact Iff.rfl

/-- Every row lies in the block of the point numbered by its quotient by 5000. -/
theorem cover9 (i : S50000x3.Idx) :
    ∃ t : Fin cfg9.N, (cfg9.win 5).flush t = true ∧ i ∈ ((cfg9.win 5).blk t).view.set := by
  have hi0 : (i 0).val < 50000 := (i 0).isLt
  have hi1 : (i 1).val < 3 := (i 1).isLt
  have hN : cfg9.N = 10 := by decide
  obtain ⟨t, ht⟩ : ∃ t : Fin cfg9.N, t.val = (i 0).val / 5000 := ⟨⟨(i 0).val / 5000, by rw [hN]; omega⟩, rfl⟩
  refine ⟨t, flush9_5 t, ?_⟩
  rw [mem_blk9]
  obtain ⟨e0, e1, e2, e3, e4, e5, e6, e7, e8, e9, e10, e11, e12⟩ := idx_facts9 t
  intro a
  match a with
  | ⟨0, _⟩ =>
    show win9_5.index t (0 : Fin 2) * 5000 ≤ (i 0).val ∧ (i 0).val < win9_5.index t (0 : Fin 2) * 5000 + 5000
    rw [e10, ht]; omega
  | ⟨1, _⟩ =>
    show win9_5.index t (1 : Fin 2) * 3 ≤ (i 1).val ∧ (i 1).val < win9_5.index t (1 : Fin 2) * 3 + 3
    rw [e11]; omega

/-- WHAT POINT `t` WRITES BACK is block `t` of the decoder of the node features, when the region finds the features,
    the two weights and the two biases (as rows) in its arrays. -/
theorem flushed9_eq (c : Dev nD) (h : Arr Ideal Cert.ReferenceIdeal.S50000x128 .f32) (W1 : Arr Ideal Cert.ReferenceIdeal.S128x128 .f32)
    (b1 : Arr Ideal Cert.ReferenceIdeal.S128 .f32) (W2 : Arr Ideal Cert.ReferenceIdeal.S128x3 .f32)
    (b2 : Arr Ideal Cert.ReferenceIdeal.S3 .f32)
    (h0 : V c main_v102 = h) (h1 : V c main_arg11 = W1)
    (h2 : ∀ q : Fin 128, V c main_v103 (ix2 (0 : Fin 1) q) = b1 (ix1 q)) (h3 : V c main_arg13 = W2)
    (h4 : ∀ q : Fin 3, V c main_v104 (ix2 (0 : Fin 1) q) = b2 (ix1 q)) (t : Fin cfg9.N) :
    (dat9 V c).flushed 5 t
      = ((cfg9.win 5).blk t).view.read (Elt Ideal) (decOf (F := Ideal) h W1 b1 W2 b2) := by
  obtain ⟨-, -, -, -, -, -, -, -, -, -, -, -, hT⟩ := idx_facts9 t
  exact flushed9_of V c (decOf (F := Ideal) h W1 b1 W2 b2) t hT fun p q =>
    dec_block (iblk9 V c 0 t) (iblk9 V c 1 t) (iblk9 V c 2 t) (iblk9 V c 3 t) (iblk9 V c 4 t) h W1 b1 W2 b2 t.val hT
      (fun p l => (blk9_0 V c t p l (by omega)).trans (congrFun h0 _))
      (fun l k => (blk9_1 V c t l k).trans (congrFun h1 _))
      (fun k => (blk9_2 V c t k).trans (h2 k))
      (fun k q => (blk9_3 V c t k q).trans (congrFun h3 _))
      (fun q => (blk9_4 V c t q).trans (h4 q)) p q

/-- THE ARRAY after region 9: the decoder of the node features. -/
theorem final9 (c : Dev nD) (h : Arr Ideal Cert.ReferenceIdeal.S50000x128 .f32) (W1 : Arr Ideal Cert.ReferenceIdeal.S128x128 .f32)
    (b1 : Arr Ideal Cert.ReferenceIdeal.S128 .f32) (W2 : Arr Ideal Cert.ReferenceIdeal.S128x3 .f32)
    (b2 : Arr Ideal Cert.ReferenceIdeal.S3 .f32)
    (h0 : V c main_v102 = h) (h1 : V c main_arg11 = W1)
    (h2 : ∀ q : Fin 128, V c main_v103 (ix2 (0 : Fin 1) q) = b1 (ix1 q)) (h3 : V c main_arg13 = W2)
    (h4 : ∀ q : Fin 3, V c main_v104 (ix2 (0 : Fin 1) q) = b2 (ix1 q)) :
    (dat9 V c).arrAt 5 cfg9.N = decOf (F := Ideal) h W1 b1 W2 b2 :=
  (dat9 V c).arrAt_eq_of_cover 5 _ (fun t _ => flushed9_eq V c h W1 b1 W2 b2 h0 h1 h2 h3 h4 t) (cover9)

end Cert.KernelIdeal.Reg
-- ==== Proof.KFold.lean ====
/-
  The kernel program's buffers, boundary by boundary.  From the launch memory the host operations before the
  first kernel compute the graph's normalisation; the encoder kernel leaves the first node features; each hop is
  a linear kernel, a host stretch that sums the neighbours' messages, and a combine kernel; the decoder kernel
  leaves the result.  At each boundary the array the next segment reads is the corresponding layer of the network
  applied to the argument arrays: every kernel's output array is what its blocks make it, and every array a
  segment reads is either such an output, a value a host stretch computed, or an argument that nothing wrote.
-/
import proofs.«150699_j61246233641684_1_alg».proof.Proof.Gen.KernelIdeal.Frame
import proofs.«150699_j61246233641684_1_alg».proof.Proof.Gen.ReferenceIdeal
import proofs.«150699_j61246233641684_1_alg».proof.Proof.Spec
import proofs.«150699_j61246233641684_1_alg».proof.Proof.Keep
import proofs.«150699_j61246233641684_1_alg».proof.Proof.KHost
import proofs.«150699_j61246233641684_1_alg».proof.Proof.KReg0
import proofs.«150699_j61246233641684_1_alg».proof.Proof.KReg1
import proofs.«150699_j61246233641684_1_alg».proof.Proof.KReg2
import proofs.«150699_j61246233641684_1_alg».proof.Proof.KReg9

set_option maxRecDepth 16384

noncomputable section

namespace Cert.KernelIdeal.Fold

open Cert.KernelIdeal Cert.KernelIdeal.Gen Cert.Gnn
open Idealize.ShloMosaic Idealize.ShloMosaic.TcCoe Idealize.SL.Sem ValueIdx

variable (m : (ℓ : Loc nD τ sig) → Buf (Elt Ideal) ℓ) (ρ : Dev nD → PrngReg) (c : Dev nD)

/-- The node features the encoder leaves, of the argument arrays. -/
def feat0 : Arr Ideal Cert.ReferenceIdeal.S50000x128 .f32 := encOf (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8))

/-- One hop, with the graph and the hop's weights taken from the argument arrays. -/
def hop (h : Arr Ideal Cert.ReferenceIdeal.S50000x128 .f32) : Arr Ideal Cert.ReferenceIdeal.S50000x128 .f32 :=
  hopOf (F := Ideal) (m ((c : Thread nD τ).loc main_arg2)) (m ((c : Thread nD τ).loc main_arg3)) (m ((c : Thread nD τ).loc main_arg9)) (m ((c : Thread nD τ).loc main_arg10)) h

/-- The messages of a hop summed at their targets, with the graph taken from the argument arrays. -/
def agg (hl : Arr Ideal Cert.ReferenceIdeal.S50000x128 .f32) : Arr Ideal Cert.ReferenceIdeal.S50000x128 .f32 :=
  aggOf (F := Ideal) (m ((c : Thread nD τ).loc main_arg2)) (m ((c : Thread nD τ).loc main_arg3)) hl

/-- A hop's linear part. -/
def lin (h : Arr Ideal Cert.ReferenceIdeal.S50000x128 .f32) : Arr Ideal Cert.ReferenceIdeal.S50000x128 .f32 :=
  linOf (F := Ideal) h (m ((c : Thread nD τ).loc main_arg9))

/-! ## The graph's structure and the hop's parameters at the boundaries where a hop reads them -/
theorem row_5 : W5 m ρ c (Proc.devRef .tc main_v1) = rowOf (F := Ideal) (m ((c : Thread nD τ).loc main_arg2)) :=
  (Keep.v1_5_3 m ρ c).trans (Host.row_3 m ρ c)
theorem row_8 : W8 m ρ c (Proc.devRef .tc main_v1) = rowOf (F := Ideal) (m ((c : Thread nD τ).loc main_arg2)) :=
  (Keep.v1_8_5 m ρ c).trans (row_5 m ρ c)
theorem row_11 : W11 m ρ c (Proc.devRef .tc main_v1) = rowOf (F := Ideal) (m ((c : Thread nD τ).loc main_arg2)) :=
  (Keep.v1_11_8 m ρ c).trans (row_8 m ρ c)
theorem row_14 : W14 m ρ c (Proc.devRef .tc main_v1) = rowOf (F := Ideal) (m ((c : Thread nD τ).loc main_arg2)) :=
  (Keep.v1_14_11 m ρ c).trans (row_11 m ρ c)

theorem col_5 : W5 m ρ c (Proc.devRef .tc main_v3) = colOf (F := Ideal) (m ((c : Thread nD τ).loc main_arg2)) :=
  (Keep.v3_5_3 m ρ c).trans (Host.col_3 m ρ c)
theorem col_8 : W8 m ρ c (Proc.devRef .tc main_v3) = colOf (F := Ideal) (m ((c : Thread nD τ).loc main_arg2)) :=
  (Keep.v3_8_5 m ρ c).trans (col_5 m ρ c)
theorem col_11 : W11 m ρ c (Proc.devRef .tc main_v3) = colOf (F := Ideal) (m ((c : Thread nD τ).loc main_arg2)) :=
  (Keep.v3_11_8 m ρ c).trans (col_8 m ρ c)
theorem col_14 : W14 m ρ c (Proc.devRef .tc main_v3) = colOf (F := Ideal) (m ((c : Thread nD τ).loc main_arg2)) :=
  (Keep.v3_14_11 m ρ c).trans (col_11 m ρ c)

theorem norm_5 : W5 m ρ c (Proc.devRef .tc main_v33) = normOf (F := Ideal) (m ((c : Thread nD τ).loc main_arg2)) (m ((c : Thread nD τ).loc main_arg3)) :=
  (Keep.v33_5_3 m ρ c).trans (Host.norm_3 m ρ c)
theorem norm_8 : W8 m ρ c (Proc.devRef .tc main_v33) = normOf (F := Ideal) (m ((c : Thread nD τ).loc main_arg2)) (m ((c : Thread nD τ).loc main_arg3)) :=
  (Keep.v33_8_5 m ρ c).trans (norm_5 m ρ c)
theorem norm_11 : W11 m ρ c (Proc.devRef .tc main_v33) = normOf (F := Ideal) (m ((c : Thread nD τ).loc main_arg2)) (m ((c : Thread nD τ).loc main_arg3)) :=
  (Keep.v33_11_8 m ρ c).trans (norm_8 m ρ c)
theorem norm_14 : W14 m ρ c (Proc.devRef .tc main_v33) = normOf (F := Ideal) (m ((c : Thread nD τ).loc main_arg2)) (m ((c : Thread nD τ).loc main_arg3)) :=
  (Keep.v33_14_11 m ρ c).trans (norm_11 m ρ c)

theorem bg_5 : W5 m ρ c (Proc.devRef .tc main_arg10) = (m ((c : Thread nD τ).loc main_arg10)) :=
  (Keep.arg10_5_3 m ρ c).trans (Host.arg10_3 m ρ c)
theorem bg_8 : W8 m ρ c (Proc.devRef .tc main_arg10) = (m ((c : Thread nD τ).loc main_arg10)) :=
  (Keep.arg10_8_5 m ρ c).trans (bg_5 m ρ c)
theorem bg_11 : W11 m ρ c (Proc.devRef .tc main_arg10) = (m ((c : Thread nD τ).loc main_arg10)) :=
  (Keep.arg10_11_8 m ρ c).trans (bg_8 m ρ c)
theorem bg_14 : W14 m ρ c (Proc.devRef .tc main_arg10) = (m ((c : Thread nD τ).loc main_arg10)) :=
  (Keep.arg10_14_11 m ρ c).trans (bg_11 m ρ c)

theorem wg_4 : W4 m ρ c (Proc.devRef .tc main_arg9) = (m ((c : Thread nD τ).loc main_arg9)) :=
  (Keep.arg9_4_3 m ρ c).trans (Host.arg9_3 m ρ c)
theorem wg_7 : W7 m ρ c (Proc.devRef .tc main_arg9) = (m ((c : Thread nD τ).loc main_arg9)) :=
  (Keep.arg9_7_4 m ρ c).trans (wg_4 m ρ c)
theorem wg_10 : W10 m ρ c (Proc.devRef .tc main_arg9) = (m ((c : Thread nD τ).loc main_arg9)) :=
  (Keep.arg9_10_7 m ρ c).trans (wg_7 m ρ c)
theorem wg_13 : W13 m ρ c (Proc.devRef .tc main_arg9) = (m ((c : Thread nD τ).loc main_arg9)) :=
  (Keep.arg9_13_10 m ρ c).trans (wg_10 m ρ c)

theorem dsq_6 (r : Fin 50000) : W6 m ρ c (Proc.devRef .tc main_v35) (ix2 r (0 : Fin 1)) = dsqOf (F := Ideal) (m ((c : Thread nD τ).loc main_arg2)) (m ((c : Thread nD τ).loc main_arg3)) (ix1 r) :=
  (congrFun (Keep.v35_6_3 m ρ c) _).trans (Host.dsq_3 m ρ c r)
theorem dsq_9 (r : Fin 50000) : W9 m ρ c (Proc.devRef .tc main_v35) (ix2 r (0 : Fin 1)) = dsqOf (F := Ideal) (m ((c : Thread nD τ).loc main_arg2)) (m ((c : Thread nD τ).loc main_arg3)) (ix1 r) :=
  (congrFun (Keep.v35_9_6 m ρ c) _).trans (dsq_6 m ρ c r)
theorem dsq_12 (r : Fin 50000) : W12 m ρ c (Proc.devRef .tc main_v35) (ix2 r (0 : Fin 1)) = dsqOf (F := Ideal) (m ((c : Thread nD τ).loc main_arg2)) (m ((c : Thread nD τ).loc main_arg3)) (ix1 r) :=
  (congrFun (Keep.v35_12_9 m ρ c) _).trans (dsq_9 m ρ c r)
theorem dsq_15 (r : Fin 50000) : W15 m ρ c (Proc.devRef .tc main_v35) (ix2 r (0 : Fin 1)) = dsqOf (F := Ideal) (m ((c : Thread nD τ).loc main_arg2)) (m ((c : Thread nD τ).loc main_arg3)) (ix1 r) :=
  (congrFun (Keep.v35_15_12 m ρ c) _).trans (dsq_12 m ρ c r)

/-! ## The layers -/

/-- After the encoder kernel its output array holds the encoder of the arguments. -/
theorem enc_4 : W4 m ρ c (Proc.devRef .tc main_v38) = feat0 m c :=
  (W4_arr m ρ c 6).trans (Reg.final0 (V3 m ρ) c _ _ _ _ _ _ (Host.arg0_3 m ρ c) (Host.arg1_3 m ρ c) (Host.arg5_3 m ρ c)
    (Host.b1_3 m ρ c) (Host.arg7_3 m ρ c) (Host.b2_3 m ρ c))

/-- Hop 1: the linear kernel's output is the features times the hop's weights. -/
theorem lin_5 : W5 m ρ c (Proc.devRef .tc main_v39) = lin m c (feat0 m c) :=
  (W5_arr m ρ c 2).trans (Reg.final1 (V4 m ρ) c _ _ (enc_4 m ρ c) (wg_4 m ρ c))

/-- Hop 1: the host stretch sums the weighted messages of the linear output. -/
theorem agg_6 : W6 m ρ c (Proc.devRef .tc main_v52) = agg m c (lin m c (feat0 m c)) := by
  rw [Host.agg_6 m ρ c, row_5 m ρ c, col_5 m ρ c, norm_5 m ρ c, lin_5 m ρ c]
  rfl

/-- Hop 1: the combine kernel's output is the hop of the features. -/
theorem hop_7 : W7 m ρ c (Proc.devRef .tc main_v54) = hop m c (feat0 m c) :=
  (W7_arr m ρ c 4).trans (Reg.final2 (V6 m ρ) c _ _ _ _ _ (agg_6 m ρ c)
    ((Keep.v39_6_5 m ρ c).trans (lin_5 m ρ c)) (dsq_6 m ρ c)
    (fun q => (Host.bg_6 m ρ c q).trans (congrFun (bg_5 m ρ c) _)))

/-- Hop 2: the linear kernel's output is the features times the hop's weights. -/
theorem lin_8 : W8 m ρ c (Proc.devRef .tc main_v55) = lin m c (hop m c (feat0 m c)) :=
  (W8_arr m ρ c 2).trans (Reg.final3 (V7 m ρ) c _ _ (hop_7 m ρ c) (wg_7 m ρ c))

/-- Hop 2: the host stretch sums the weighted messages of the linear output. -/
theorem agg_9 : W9 m ρ c (Proc.devRef .tc main_v68) = agg m c (lin m c (hop m c (feat0 m c))) := by
  rw [Host.agg_9 m ρ c, row_8 m ρ c, col_8 m ρ c, norm_8 m ρ c, lin_8 m ρ c]
  rfl

/-- Hop 2: the combine kernel's output is the hop of the features. -/
theorem hop_10 : W10 m ρ c (Proc.devRef .tc main_v70) = hop m c (hop m c (feat0 m c)) :=
  (W10_arr m ρ c 4).trans (Reg.final4 (V9 m ρ) c _ _ _ _ _ (agg_9 m ρ c)
    ((Keep.v55_9_8 m ρ c).trans (lin_8 m ρ c)) (dsq_9 m ρ c)
    (fun q => (Host.bg_9 m ρ c q).trans (congrFun (bg_8 m ρ c) _)))

/-- Hop 3: the linear kernel's output is the features times the hop's weights. -/
theorem lin_11 : W11 m ρ c (Proc.devRef .tc main_v71) = lin m c (hop m c (hop m c (feat0 m c))) :=
  (W11_arr m ρ c 2).trans (Reg.final5 (V10 m ρ) c _ _ (hop_10 m ρ c) (wg_10 m ρ c))

/-- Hop 3: the host stretch sums the weighted messages of the linear output. -/
theorem agg_12 : W12 m ρ c (Proc.devRef .tc main_v84) = agg m c (lin m c (hop m c (hop m c (feat0 m c)))) := by
  rw [Host.agg_12 m ρ c, row_11 m ρ c, col_11 m ρ c, norm_11 m ρ c, lin_11 m ρ c]
  rfl

/-- Hop 3: the combine kernel's output is the hop of the features. -/
theorem hop_13 : W13 m ρ c (Proc.devRef .tc main_v86) = hop m c (hop m c (hop m c (feat0 m c))) :=
  (W13_arr m ρ c 4).trans (Reg.final6 (V12 m ρ) c _ _ _ _ _ (agg_12 m ρ c)
    ((Keep.v71_12_11 m ρ c).trans (lin_11 m ρ c)) (dsq_12 m ρ c)
    (fun q => (Host.bg_12 m ρ c q).trans (congrFun (bg_11 m ρ c) _)))

/-- Hop 4: the linear kernel's output is the features times the hop's weights. -/
theorem lin_14 : W14 m ρ c (Proc.devRef .tc main_v87) = lin m c (hop m c (hop m c (hop m c (feat0 m c)))) :=
  (W14_arr m ρ c 2).trans (Reg.final7 (V13 m ρ) c _ _ (hop_13 m ρ c) (wg_13 m ρ c))

/-- Hop 4: the host stretch sums the weighted messages of the linear output. -/
theorem agg_15 : W15 m ρ c (Proc.devRef .tc main_v100) = agg m c (lin m c (hop m c (hop m c (hop m c (feat0 m c))))) := by
  rw [Host.agg_15 m ρ c, row_14 m ρ c, col_14 m ρ c, norm_14 m ρ c, lin_14 m ρ c]
  rfl

/-- Hop 4: the combine kernel's output is the hop of the features. -/
theorem hop_16 : W16 m ρ c (Proc.devRef .tc main_v102) = hop m c (hop m c (hop m c (hop m c (feat0 m c)))) :=
  (W16_arr m ρ c 4).trans (Reg.final8 (V15 m ρ) c _ _ _ _ _ (agg_15 m ρ c)
    ((Keep.v87_15_14 m ρ c).trans (lin_14 m ρ c)) (dsq_15 m ρ c)
    (fun q => (Host.bg_15 m ρ c q).trans (congrFun (bg_14 m ρ c) _)))

/-- After the decoder kernel the result array holds the decoder of the last hop's features. -/
theorem dec_18 : W18 m ρ c (Proc.devRef .tc main_v105)
    = decOf (F := Ideal) (hop m c (hop m c (hop m c (hop m c (feat0 m c))))) (m ((c : Thread nD τ).loc main_arg11)) (m ((c : Thread nD τ).loc main_arg12)) (m ((c : Thread nD τ).loc main_arg13)) (m ((c : Thread nD τ).loc main_arg14)) :=
  (W18_arr m ρ c 5).trans (Reg.final9 (V17 m ρ) c _ _ _ _ _
    ((Keep.v102_17_16 m ρ c).trans (hop_16 m ρ c))
    ((Keep.arg11_17_3 m ρ c).trans (Host.arg11_3 m ρ c))
    (fun q => (Host.bd1_17 m ρ c q).trans (congrFun ((Keep.arg12_16_3 m ρ c).trans (Host.arg12_3 m ρ c)) _))
    ((Keep.arg13_17_3 m ρ c).trans (Host.arg13_3 m ρ c))
    (fun q => (Host.bd2_17 m ρ c q).trans (congrFun ((Keep.arg14_16_3 m ρ c).trans (Host.arg14_3 m ρ c)) _)))

/-- The result array after the run is the network applied to the argument arrays. -/
theorem out_is_net : W18 m ρ c (Proc.devRef .tc main_v105)
    = netOf (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  dec_18 m ρ c

end Cert.KernelIdeal.Fold

end
-- ==== Proof.RefStages.lean ====
/-
  The reference program's result, stage by stage, is the network of Spec: its operations are that
  composition spelt out, the edge normalisation recomputed (to the same terms) at every hop.
-/
import proofs.«150699_j61246233641684_1_alg».proof.Proof.Gen.ReferenceIdeal.Read
import proofs.«150699_j61246233641684_1_alg».proof.Proof.Spec

noncomputable section

namespace Cert.Gnn

open Idealize.ShloMosaic Cert.ReferenceIdeal Cert.ReferenceIdeal.Read

variable {F : FTy → Type} [FloatOps F]

set_option maxRecDepth 16384 in
/-- The reference's last stage is the network applied to the arguments. -/
theorem ref_is_net (x0 x1 : Arr F S50000x9 .f32) (x2 : Arr F S2x1600000 .i32) (x3 : Arr F S1600000x4 .f32)
    (x5 : Arr F S16x128 .f32) (x6 : Arr F S128 .f32) (x7 : Arr F S128x128 .f32) (x8 : Arr F S128 .f32)
    (x9 : Arr F S128x128 .f32) (x10 : Arr F S128 .f32) (x11 : Arr F S128x128 .f32) (x12 : Arr F S128 .f32)
    (x13 : Arr F S128x3 .f32) (x14 : Arr F S3 .f32) :
    val_main_v221 (F := F) x0 x1 x2 x3 x5 x6 x7 x8 x9 x10 x11 x12 x13 x14
      = netOf x0 x1 x2 x3 x5 x6 x7 x8 x9 x10 x11 x12 x13 x14 := rfl

end Cert.Gnn

end
-- ==== Proof.lean ====
/-
  A graph network on 50 000 nodes and 1 600 000 weighted edges: an encoder of the node features, four hops of
  message passing with symmetric degree normalisation and self loops, a decoder.  The kernel program runs the dense
  parts (the encoder, each hop's product with the shared weights, each hop's combination of the summed messages
  with the self term and the bias, the decoder) as kernels over tiles of 5 000 nodes and leaves the edge-indexed
  sums to host operations; the reference is the same network written with whole-array operations.  Over the
  extended reals both compute one function of the argument arrays, the network of Spec: a product of matrices is
  the same sum whether it is taken tile by tile or whole, the two halves of the encoder's first product are the
  two halves of one sum over sixteen columns, and every edge-indexed operation is applied by both programs to
  equal operands.  Nothing in the argument uses that the inputs are finite.
-/
import proofs.«150699_j61246233641684_1_alg».proof.Defs
import proofs.«150699_j61246233641684_1_alg».proof.Proof.Gen.Kernel
import proofs.«150699_j61246233641684_1_alg».proof.Proof.Gen.Kernel.Skeleton
import proofs.«150699_j61246233641684_1_alg».proof.Proof.Gen.Kernel.Launch
import proofs.«150699_j61246233641684_1_alg».proof.Proof.Gen.Kernel.Points
import proofs.«150699_j61246233641684_1_alg».proof.Proof.Gen.Kernel.Frame
import proofs.«150699_j61246233641684_1_alg».proof.Proof.Gen.KernelIdeal
import proofs.«150699_j61246233641684_1_alg».proof.Proof.Gen.KernelIdeal.Skeleton
import proofs.«150699_j61246233641684_1_alg».proof.Proof.Gen.KernelIdeal.Launch
import proofs.«150699_j61246233641684_1_alg».proof.Proof.Gen.KernelIdeal.Points
import proofs.«150699_j61246233641684_1_alg».proof.Proof.Gen.KernelIdeal.Frame
import proofs.«150699_j61246233641684_1_alg».proof.Proof.Gen.ReferenceIdeal
import proofs.«150699_j61246233641684_1_alg».proof.Proof.Gen.Pre_finite_inputs
import proofs.«150699_j61246233641684_1_alg».proof.Proof.Gen.ReferenceIdeal.Run
import proofs.«150699_j61246233641684_1_alg».proof.Proof.Gen.ReferenceIdeal.Read
import proofs.«150699_j61246233641684_1_alg».proof.Proof.KRun
import proofs.«150699_j61246233641684_1_alg».proof.Proof.KFold
import proofs.«150699_j61246233641684_1_alg».proof.Proof.RefStages
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the network of those arguments in their
    result arrays: the kernel program boundary by boundary, the reference stage by stage. -/
theorem algebraic : Cert.algebraic_KernelIdeal_ReferenceIdeal := by
  intro m ρ m' ρ' _ hagree
  refine ⟨fun c => Cert.KernelIdeal.Gen.W18 m ρ c (Proc.devRef .tc Cert.KernelIdeal.main_v105),
    Cert.KernelIdeal.RunValue.run_out (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v221 m' c
    = Cert.KernelIdeal.Gen.W18 m ρ c (Proc.devRef .tc Cert.KernelIdeal.main_v105)
  rw [Cert.ReferenceIdeal.Read.val_main_v221_eq, Cert.Gnn.ref_is_net, Cert.KernelIdeal.Fold.out_is_net,
    (hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
